-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S7x48x48 : Shape := ⟨3, ![7, 48, 48]⟩
abbrev S48x64 : Shape := ⟨2, ![48, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S7x48x48 : S_.BroadcastsInDim S7x48x48 (![] : Fin 0 → Fin S7x48x48.rank)
  reducesTo_S7x48x48_S_d0_1_2 : S7x48x48.ReducesTo [0, 1, 2] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S7x48x48 .f32) (main_arg6 : FVec F S48 .f32) (main_arg7 : FVec F S48x64 .f32) (main_arg8 : FVec F S64 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S7x48x48 .f32 := Host.absf main_arg5
  let main_cst_6 : FVec F S_ .f32 := constant S_ .f32 0x7F800000#32
  let main_v20 : FVec F S7x48x48 .f32 := broadcastInDim S7x48x48 ![] bcast_S_S7x48x48 main_cst_6
  let main_v21 : IVec S7x48x48 1 := cmpf .olt main_v19 main_v20
  let main_c_7 : IVec S_ 1 := constantI S_ 1 1#1
  let main_v22 : IVec S_ 1 := (fun x v => Host.reduce IntOp.andi x v reducesTo_S7x48x48_S_d0_1_2 h_S_) main_v21 main_c_7
  let main_v23 : IVec S_ 1 := andi main_v18 main_v22
  let main_v24 : FVec F S48 .f32 := Host.absf main_arg6
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x64 .f32 := Host.absf main_arg7
  let main_cst_10 : FVec F S_ .f32 := constant S_ .f32 0x7F800000#32
  let main_v30 : FVec F S48x64 .f32 := broadcastInDim S48x64 ![] bcast_S_S48x64 main_cst_10
  let main_v31 : IVec S48x64 1 := cmpf .olt main_v29 main_v30
  let main_c_11 : IVec S_ 1 := constantI S_ 1 1#1
  let main_v32 : IVec S_ 1 := (fun x v => Host.reduce IntOp.andi x v reducesTo_S48x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000 .f32) (main_arg3 : FVec F S128x48 .f32) (main_arg4 : FVec F S48 .f32) (main_arg5 : FVec F S7x48x48 .f32) (main_arg6 : FVec F S48 .f32) (main_arg7 : FVec F S48x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x48 .f32 := Host.absf main_arg3
  let main_cst_2 : FVec F S_ .f32 := constant S_ .f32 0x7F800000#32
  let main_v10 : FVec F S128x48 .f32 := broadcastInDim S128x48 ![] bcast_S_S128x48 main_cst_2
  let main_v11 : IVec S128x48 1 := cmpf .olt main_v9 main_v10
  let main_c_3 : IVec S_ 1 := constantI S_ 1 1#1
  let main_v12 : IVec S_ 1 := (fun x v => Host.reduce IntOp.andi x v reducesTo_S128x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S7x48x48 : Shape := ⟨3, ![7, 48, 48]⟩
abbrev S48x64 : Shape := ⟨2, ![48, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1x48 : Shape := ⟨2, ![1, 48]⟩
abbrev S50000x48 : Shape := ⟨2, ![50000, 48]⟩
abbrev S5000x128 : Shape := ⟨2, ![5000, 128]⟩
abbrev S5000x48 : Shape := ⟨2, ![5000, 48]⟩
abbrev S1600000x48 : Shape := ⟨2, ![1600000, 48]⟩
abbrev S1x50000x48 : Shape := ⟨3, ![1, 50000, 48]⟩
abbrev S7x50000x48 : Shape := ⟨3, ![7, 50000, 48]⟩
abbrev S1x64 : Shape := ⟨2, ![1, 64]⟩
abbrev S50000x64 : Shape := ⟨2, ![50000, 64]⟩
abbrev S7x5000x48 : Shape := ⟨3, ![7, 5000, 48]⟩
abbrev S5000x64 : Shape := ⟨2, ![5000, 64]⟩
abbrev S1x5000x48 : Shape := ⟨3, ![1, 5000, 48]⟩
abbrev S1x48x48 : Shape := ⟨3, ![1, 48, 48]⟩
abbrev S48x48 : Shape := ⟨2, ![48, 48]⟩

abbrev nBuf : Space → Nat
  | .hbm => 175
  | .vmem => 14
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S128x48, .f32⟩
  | 4 => ⟨S48, .f32⟩
  | 5 => ⟨S7x48x48, .f32⟩
  | 6 => ⟨S48, .f32⟩
  | 7 => ⟨S48x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S50000, .f32⟩
  | 15 => ⟨S1600000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1x48, .f32⟩
  | 47 => ⟨S50000x48, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x48, .f32⟩
  | 57 => ⟨S1600000x1, .f32⟩
  | 58 => ⟨S1600000x48, .f32⟩
  | 59 => ⟨S1600000x48, .f32⟩
  | 60 => ⟨S_, .f32⟩
  | 61 => ⟨S50000x48, .f32⟩
  | 62 => ⟨S1600000x1, .i32⟩
  | 63 => ⟨S50000x48, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x48, .f32⟩
  | 73 => ⟨S1600000x1, .f32⟩
  | 74 => ⟨S1600000x48, .f32⟩
  | 75 => ⟨S1600000x48, .f32⟩
  | 76 => ⟨S_, .f32⟩
  | 77 => ⟨S50000x48, .f32⟩
  | 78 => ⟨S1600000x1, .i32⟩
  | 79 => ⟨S50000x48, .f32⟩
  | 80 => ⟨S_, .f32⟩
  | 81 => ⟨S50000x48, .f32⟩
  | 82 => ⟨S50000x48, .f32⟩
  | 83 => ⟨S50000x48, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x48, .f32⟩
  | 93 => ⟨S1600000x1, .f32⟩
  | 94 => ⟨S1600000x48, .f32⟩
  | 95 => ⟨S1600000x48, .f32⟩
  | 96 => ⟨S_, .f32⟩
  | 97 => ⟨S50000x48, .f32⟩
  | 98 => ⟨S1600000x1, .i32⟩
  | 99 => ⟨S50000x48, .f32⟩
  | 100 => ⟨S_, .f32⟩
  | 101 => ⟨S50000x48, .f32⟩
  | 102 => ⟨S50000x48, .f32⟩
  | 103 => ⟨S50000x48, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x48, .f32⟩
  | 113 => ⟨S1600000x1, .f32⟩
  | 114 => ⟨S1600000x48, .f32⟩
  | 115 => ⟨S1600000x48, .f32⟩
  | 116 => ⟨S_, .f32⟩
  | 117 => ⟨S50000x48, .f32⟩
  | 118 => ⟨S1600000x1, .i32⟩
  | 119 => ⟨S50000x48, .f32⟩
  | 120 => ⟨S_, .f32⟩
  | 121 => ⟨S50000x48, .f32⟩
  | 122 => ⟨S50000x48, .f32⟩
  | 123 => ⟨S50000x48, .f32⟩
  | 124 => ⟨S_, .i32⟩
  | 125 => ⟨S1600000, .i32⟩
  | 126 => ⟨S1600000, .i1⟩
  | 127 => ⟨S_, .i32⟩
  | _ => ⟨S50000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x48, .f32⟩
  | 5 => ⟨S1600000x1, .f32⟩
  | 6 => ⟨S1600000x48, .f32⟩
  | 7 => ⟨S1600000x48, .f32⟩
  | 8 => ⟨S_, .f32⟩
  | 9 => ⟨S50000x48, .f32⟩
  | 10 => ⟨S1600000x1, .i32⟩
  | 11 => ⟨S50000x48, .f32⟩
  | 12 => ⟨S_, .f32⟩
  | 13 => ⟨S50000x48, .f32⟩
  | 14 => ⟨S50000x48, .f32⟩
  | 15 => ⟨S50000x48, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x48, .f32⟩
  | 25 => ⟨S1600000x1, .f32⟩
  | 26 => ⟨S1600000x48, .f32⟩
  | 27 => ⟨S1600000x48, .f32⟩
  | 28 => ⟨S_, .f32⟩
  | 29 => ⟨S50000x48, .f32⟩
  | 30 => ⟨S1600000x1, .i32⟩
  | 31 => ⟨S50000x48, .f32⟩
  | 32 => ⟨S_, .f32⟩
  | 33 => ⟨S50000x48, .f32⟩
  | 34 => ⟨S50000x48, .f32⟩
  | 35 => ⟨S50000x48, .f32⟩
  | 36 => ⟨S1x50000x48, .f32⟩
  | 37 => ⟨S1x50000x48, .f32⟩
  | 38 => ⟨S1x50000x48, .f32⟩
  | 39 => ⟨S1x50000x48, .f32⟩
  | 40 => ⟨S1x50000x48, .f32⟩
  | 41 => ⟨S1x50000x48, .f32⟩
  | 42 => ⟨S1x50000x48, .f32⟩
  | 43 => ⟨S7x50000x48, .f32⟩
  | 44 => ⟨S1x48, .f32⟩
  | 45 => ⟨S1x64, .f32⟩
  | 46 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x48, .f32⟩
  | .local _ .vmem, ⟨3, _⟩ => ⟨S1x48, .f32⟩
  | .local _ .vmem, ⟨4, _⟩ => ⟨S5000x48, .f32⟩
  | .local _ .vmem, ⟨5, _⟩ => ⟨S5000x48, .f32⟩
  | .local _ .vmem, ⟨6, _⟩ => ⟨S7x5000x48, .f32⟩
  | .local _ .vmem, ⟨7, _⟩ => ⟨S7x5000x48, .f32⟩
  | .local _ .vmem, ⟨8, _⟩ => ⟨S7x48x48, .f32⟩
  | .local _ .vmem, ⟨9, _⟩ => ⟨S1x48, .f32⟩
  | .local _ .vmem, ⟨10, _⟩ => ⟨S48x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_c_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_24 : Ref sig .tc := ⟨.hbm, 144, rfl⟩
abbrev main_v107 : Ref sig .tc := ⟨.hbm, 145, rfl⟩
abbrev main_v108 : Ref sig .tc := ⟨.hbm, 146, rfl⟩
abbrev main_c_25 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_27 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S7x5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7x48x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S48_S1x48 : S48.ShapeCasts S1x48
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S5000x48_S5000x48_0_0 : ∀ a, (![0, 0] : Fin 2 → Nat) a + S5000x48.size a ≤ S5000x48.size a
  h_S5000x48 : 0 < S5000x48.numel
  bcast_S1600000x1_S1600000x48_0_1 : S1600000x1.BroadcastsInDim S1600000x48 (![0, 1] : Fin 2 → Fin S1600000x48.rank)
  bcast_S_S50000x48 : S_.BroadcastsInDim S50000x48 (![] : Fin 0 → Fin S50000x48.rank)
  bcast_S50000x48_S1x50000x48_1_2 : S50000x48.BroadcastsInDim S1x50000x48 (![1, 2] : Fin 2 → Fin S1x50000x48.rank)
  concatenates_S1x50000x48_S1x50000x48_S1x50000x48_S1x50000x48_S1x50000x48_S1x50000x48_S1x50000x48_S7x50000x48_d0 : Shape.Concatenates [S1x50000x48, S1x50000x48, S1x50000x48, S1x50000x48, S1x50000x48, S1x50000x48, S1x50000x48] S7x50000x48 0
  shapeCasts_S64_S1x64 : S64.ShapeCasts S1x64
  inb_S7x5000x48_S1x5000x48_0_0_0 : ∀ a, (![0, 0, 0] : Fin 3 → Nat) a + S1x5000x48.size a ≤ S7x5000x48.size a
  h_S1x5000x48 : 0 < S1x5000x48.numel
  shapeCasts_S1x5000x48_S5000x48 : S1x5000x48.ShapeCasts S5000x48
  inb_S7x48x48_S1x48x48_0_0_0 : ∀ a, (![0, 0, 0] : Fin 3 → Nat) a + S1x48x48.size a ≤ S7x48x48.size a
  h_S1x48x48 : 0 < S1x48x48.numel
  shapeCasts_S1x48x48_S48x48 : S1x48x48.ShapeCasts S48x48
  inb_S7x5000x48_S1x5000x48_1_0_0 : ∀ a, (![1, 0, 0] : Fin 3 → Nat) a + S1x5000x48.size a ≤ S7x5000x48.size a
  inb_S7x48x48_S1x48x48_1_0_0 : ∀ a, (![1, 0, 0] : Fin 3 → Nat) a + S1x48x48.size a ≤ S7x48x48.size a
  inb_S7x5000x48_S1x5000x48_2_0_0 : ∀ a, (![2, 0, 0] : Fin 3 → Nat) a + S1x5000x48.size a ≤ S7x5000x48.size a
  inb_S7x48x48_S1x48x48_2_0_0 : ∀ a, (![2, 0, 0] : Fin 3 → Nat) a + S1x48x48.size a ≤ S7x48x48.size a
  inb_S7x5000x48_S1x5000x48_3_0_0 : ∀ a, (![3, 0, 0] : Fin 3 → Nat) a + S1x5000x48.size a ≤ S7x5000x48.size a
  inb_S7x48x48_S1x48x48_3_0_0 : ∀ a, (![3, 0, 0] : Fin 3 → Nat) a + S1x48x48.size a ≤ S7x48x48.size a
  inb_S7x5000x48_S1x5000x48_4_0_0 : ∀ a, (![4, 0, 0] : Fin 3 → Nat) a + S1x5000x48.size a ≤ S7x5000x48.size a
  inb_S7x48x48_S1x48x48_4_0_0 : ∀ a, (![4, 0, 0] : Fin 3 → Nat) a + S1x48x48.size a ≤ S7x48x48.size a
  inb_S7x5000x48_S1x5000x48_5_0_0 : ∀ a, (![5, 0, 0] : Fin 3 → Nat) a + S1x5000x48.size a ≤ S7x5000x48.size a
  inb_S7x48x48_S1x48x48_5_0_0 : ∀ a, (![5, 0, 0] : Fin 3 → Nat) a + S1x48x48.size a ≤ S7x48x48.size a
  inb_S7x5000x48_S1x5000x48_6_0_0 : ∀ a, (![6, 0, 0] : Fin 3 → Nat) a + S1x5000x48.size a ≤ S7x5000x48.size a
  inb_S7x48x48_S1x48x48_6_0_0 : ∀ a, (![6, 0, 0] : Fin 3 → Nat) a + S1x48x48.size a ≤ S7x48x48.size a
  inb_S48x64_S48x64_0_0 : ∀ a, (![0, 0] : Fin 2 → Nat) a + S48x64.size a ≤ S48x64.size a
  h_S48x64 : 0 < S48x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x48_S5000x48_1_0_0_1_n_n_wf : DotDims.WF S5000x128 S128x48 S5000x48 [1] [0] [0] [1] [] []
  gather_S50000x48_S1600000x1_S1600000x48_1_0_n_n_0_1_148_wf : GatherDims.WF S50000x48 S1600000x1 S1600000x48 [1] [0] [] [0] [] 1 ![1, 48]
  scatter_S50000x48_S1600000x1_S1600000x48_1_0_0_1_wf : ScatterDims.WF S50000x48 S1600000x1 S1600000x48 [1] [0] [0] 1
  dot_S5000x48_S48x48_S5000x48_1_0_0_1_n_n_wf : DotDims.WF S5000x48 S48x48 S5000x48 [1] [0] [0] [1] [] []
  dot_S5000x48_S48x64_S5000x64_1_0_0_1_n_n_wf : DotDims.WF S5000x48 S48x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x48.size a ≤ S50000x48.size a
  hwx0_3 : ∀ i : grid0.Coords, EltTy.bits .f32 = 32 ∨ (Rect.block (s := S50000x48) S5000x48.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S7x5000x48.size a ≤ S7x50000x48.size a
  hwx1_0 : ∀ i : grid1.Coords, EltTy.bits .f32 = 32 ∨ (Rect.block (s := S7x50000x48) S7x5000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7x48x48.size a ≤ S7x48x48.size a
  hwx1_1 : ∀ i : grid1.Coords, EltTy.bits .f32 = 32 ∨ (Rect.block (s := S7x48x48) S7x48x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x48.size a ≤ S1x48.size a
  hwx1_2 : ∀ i : grid1.Coords, EltTy.bits .f32 = 32 ∨ (Rect.block (s := S1x48) S1x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x64.size a ≤ S48x64.size a
  hwx1_3 : ∀ i : grid1.Coords, EltTy.bits .f32 = 32 ∨ (Rect.block (s := S48x64) S48x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x48_S5000x48_1_0_0_1_n_n : DotDims S5000x128 S128x48 S5000x48 where
  lhsContracting := [1]
  rhsContracting := [0]
  lhsNonContracting := [0]
  rhsNonContracting := [1]
  lhsBatch := []
  rhsBatch := []
  wf := dot_S5000x128_S128x48_S5000x48_1_0_0_1_n_n_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def dot_S5000x48_S48x48_S5000x48_1_0_0_1_n_n : DotDims S5000x48 S48x48 S5000x48 where
  lhsContracting := [1]
  rhsContracting := [0]
  lhsNonContracting := [0]
  rhsNonContracting := [1]
  lhsBatch := []
  rhsBatch := []
  wf := dot_S5000x48_S48x48_S5000x48_1_0_0_1_n_n_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v130) S7x5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S7x48x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v131) S1x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S48x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v132) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v133) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S7x48x48 : Shape := ⟨3, ![7, 48, 48]⟩
abbrev S48x64 : Shape := ⟨2, ![48, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x48 : Shape := ⟨2, ![50000, 48]⟩
abbrev S1x48 : Shape := ⟨2, ![1, 48]⟩
abbrev S1x48x48 : Shape := ⟨3, ![1, 48, 48]⟩
abbrev S48x48 : Shape := ⟨2, ![48, 48]⟩
abbrev S1600000x48 : Shape := ⟨2, ![1600000, 48]⟩
abbrev S50000x64 : Shape := ⟨2, ![50000, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S128x48, .f32⟩
  | 4 => ⟨S48, .f32⟩
  | 5 => ⟨S7x48x48, .f32⟩
  | 6 => ⟨S48, .f32⟩
  | 7 => ⟨S48x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S50000, .f32⟩
  | 15 => ⟨S1600000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S50000x48, .f32⟩
  | 47 => ⟨S1x48, .f32⟩
  | 48 => ⟨S50000x48, .f32⟩
  | 49 => ⟨S50000x48, .f32⟩
  | 50 => ⟨S_, .f32⟩
  | 51 => ⟨S50000x48, .f32⟩
  | 52 => ⟨S50000x48, .f32⟩
  | 53 => ⟨S1x48x48, .f32⟩
  | 54 => ⟨S48x48, .f32⟩
  | 55 => ⟨S50000x48, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x48, .f32⟩
  | 66 => ⟨S1600000x48, .f32⟩
  | 67 => ⟨S1600000x48, .f32⟩
  | 68 => ⟨S_, .f32⟩
  | 69 => ⟨S50000x48, .f32⟩
  | 70 => ⟨S1600000x1, .i32⟩
  | 71 => ⟨S50000x48, .f32⟩
  | 72 => ⟨S1x48x48, .f32⟩
  | 73 => ⟨S48x48, .f32⟩
  | 74 => ⟨S50000x48, .f32⟩
  | 75 => ⟨S50000x48, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x48, .f32⟩
  | 86 => ⟨S1600000x48, .f32⟩
  | 87 => ⟨S1600000x48, .f32⟩
  | 88 => ⟨S_, .f32⟩
  | 89 => ⟨S50000x48, .f32⟩
  | 90 => ⟨S1600000x1, .i32⟩
  | 91 => ⟨S50000x48, .f32⟩
  | 92 => ⟨S_, .f32⟩
  | 93 => ⟨S50000x48, .f32⟩
  | 94 => ⟨S50000x48, .f32⟩
  | 95 => ⟨S50000x48, .f32⟩
  | 96 => ⟨S1x48x48, .f32⟩
  | 97 => ⟨S48x48, .f32⟩
  | 98 => ⟨S50000x48, .f32⟩
  | 99 => ⟨S50000x48, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x48, .f32⟩
  | 110 => ⟨S1600000x48, .f32⟩
  | 111 => ⟨S1600000x48, .f32⟩
  | 112 => ⟨S_, .f32⟩
  | 113 => ⟨S50000x48, .f32⟩
  | 114 => ⟨S1600000x1, .i32⟩
  | 115 => ⟨S50000x48, .f32⟩
  | 116 => ⟨S_, .f32⟩
  | 117 => ⟨S50000x48, .f32⟩
  | 118 => ⟨S50000x48, .f32⟩
  | 119 => ⟨S50000x48, .f32⟩
  | 120 => ⟨S1x48x48, .f32⟩
  | 121 => ⟨S48x48, .f32⟩
  | 122 => ⟨S50000x48, .f32⟩
  | 123 => ⟨S50000x48, .f32⟩
  | 124 => ⟨S1600000x1, .f32⟩
  | 125 => ⟨S_, .i32⟩
  | 126 => ⟨S1600000, .i32⟩
  | 127 => ⟨S1600000, .i1⟩
  | _ => ⟨S50000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x48, .f32⟩
  | 6 => ⟨S1600000x48, .f32⟩
  | 7 => ⟨S1600000x48, .f32⟩
  | 8 => ⟨S_, .f32⟩
  | 9 => ⟨S50000x48, .f32⟩
  | 10 => ⟨S1600000x1, .i32⟩
  | 11 => ⟨S50000x48, .f32⟩
  | 12 => ⟨S_, .f32⟩
  | 13 => ⟨S50000x48, .f32⟩
  | 14 => ⟨S50000x48, .f32⟩
  | 15 => ⟨S50000x48, .f32⟩
  | 16 => ⟨S1x48x48, .f32⟩
  | 17 => ⟨S48x48, .f32⟩
  | 18 => ⟨S50000x48, .f32⟩
  | 19 => ⟨S50000x48, .f32⟩
  | 20 => ⟨S1600000x1, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x48, .f32⟩
  | 30 => ⟨S1600000x48, .f32⟩
  | 31 => ⟨S1600000x48, .f32⟩
  | 32 => ⟨S_, .f32⟩
  | 33 => ⟨S50000x48, .f32⟩
  | 34 => ⟨S1600000x1, .i32⟩
  | 35 => ⟨S50000x48, .f32⟩
  | 36 => ⟨S_, .f32⟩
  | 37 => ⟨S50000x48, .f32⟩
  | 38 => ⟨S50000x48, .f32⟩
  | 39 => ⟨S50000x48, .f32⟩
  | 40 => ⟨S1x48x48, .f32⟩
  | 41 => ⟨S48x48, .f32⟩
  | 42 => ⟨S50000x48, .f32⟩
  | 43 => ⟨S50000x48, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x48, .f32⟩
  | 54 => ⟨S1600000x48, .f32⟩
  | 55 => ⟨S1600000x48, .f32⟩
  | 56 => ⟨S_, .f32⟩
  | 57 => ⟨S50000x48, .f32⟩
  | 58 => ⟨S1600000x1, .i32⟩
  | 59 => ⟨S50000x48, .f32⟩
  | 60 => ⟨S_, .f32⟩
  | 61 => ⟨S50000x48, .f32⟩
  | 62 => ⟨S50000x48, .f32⟩
  | 63 => ⟨S50000x48, .f32⟩
  | 64 => ⟨S1x48x48, .f32⟩
  | 65 => ⟨S48x48, .f32⟩
  | 66 => ⟨S50000x48, .f32⟩
  | 67 => ⟨S50000x48, .f32⟩
  | 68 => ⟨S1x48, .f32⟩
  | 69 => ⟨S50000x48, .f32⟩
  | 70 => ⟨S50000x48, .f32⟩
  | 71 => ⟨S_, .f32⟩
  | 72 => ⟨S50000x48, .f32⟩
  | 73 => ⟨S50000x48, .f32⟩
  | 74 => ⟨S50000x64, .f32⟩
  | 75 => ⟨S1x64, .f32⟩
  | 76 => ⟨S50000x64, .f32⟩
  | 77 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_12 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_16 : Ref sig .tc := ⟨.hbm, 125, rfl⟩
abbrev main_v94 : Ref sig .tc := ⟨.hbm, 126, rfl⟩
abbrev main_v95 : Ref sig .tc := ⟨.hbm, 127, rfl⟩
abbrev main_c_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_20 : Ref sig .tc := ⟨.hbm, 149, rfl⟩
abbrev main_v114 : Ref sig .tc := ⟨.hbm, 150, rfl⟩
abbrev main_v115 : Ref sig .tc := ⟨.hbm, 151, rfl⟩
abbrev main_c_21 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_22 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_23 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_24 : Ref sig .tc := ⟨.hbm, 173, rfl⟩
abbrev main_v134 : Ref sig .tc := ⟨.hbm, 174, rfl⟩
abbrev main_v135 : Ref sig .tc := ⟨.hbm, 175, rfl⟩
abbrev main_c_25 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_26 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_27 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_call2_cst : Ref sig .tc := ⟨.hbm, 199, rfl⟩
abbrev main_call2_v0 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S_S50000x48 : S_.BroadcastsInDim S50000x48 (![] : Fin 0 → Fin S50000x48.rank)
  slices_S7x48x48_S1x48x48_0_0_0 : S7x48x48.Slices ![0, 0, 0] S1x48x48
  shapeCasts_S1x48x48_S48x48 : S1x48x48.ShapeCasts S48x48
  bcast_S1600000x1_S1600000x48_0_1 : S1600000x1.BroadcastsInDim S1600000x48 (![0, 1] : Fin 2 → Fin S1600000x48.rank)
  slices_S7x48x48_S1x48x48_1_0_0 : S7x48x48.Slices ![1, 0, 0] S1x48x48
  slices_S7x48x48_S1x48x48_2_0_0 : S7x48x48.Slices ![2, 0, 0] S1x48x48
  slices_S7x48x48_S1x48x48_3_0_0 : S7x48x48.Slices ![3, 0, 0] S1x48x48
  slices_S7x48x48_S1x48x48_4_0_0 : S7x48x48.Slices ![4, 0, 0] S1x48x48
  slices_S7x48x48_S1x48x48_5_0_0 : S7x48x48.Slices ![5, 0, 0] S1x48x48
  slices_S7x48x48_S1x48x48_6_0_0 : S7x48x48.Slices ![6, 0, 0] S1x48x48
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x128_S128x48_S50000x48_1_0_0_1_n_n_wf : DotDims.WF S50000x128 S128x48 S50000x48 [1] [0] [0] [1] [] []
  dot_S50000x48_S48x48_S50000x48_1_0_0_1_n_n_wf : DotDims.WF S50000x48 S48x48 S50000x48 [1] [0] [0] [1] [] []
  gather_S50000x48_S1600000x1_S1600000x48_1_0_n_n_0_1_148_wf : GatherDims.WF S50000x48 S1600000x1 S1600000x48 [1] [0] [] [0] [] 1 ![1, 48]
  scatter_S50000x48_S1600000x1_S1600000x48_1_0_0_1_wf : ScatterDims.WF S50000x48 S1600000x1 S1600000x48 [1] [0] [0] 1
  dot_S50000x48_S48x64_S50000x64_1_0_0_1_n_n_wf : DotDims.WF S50000x48 S48x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x48_S50000x48_1_0_0_1_n_n : DotDims S50000x128 S128x48 S50000x48 where
  lhsContracting := [1]
  rhsContracting := [0]
  lhsNonContracting := [0]
  rhsNonContracting := [1]
  lhsBatch := []
  rhsBatch := []
  wf := dot_S50000x128_S128x48_S50000x48_1_0_0_1_n_n_wf
def dot_S50000x48_S48x48_S50000x48_1_0_0_1_n_n : DotDims S50000x48 S48x48 S50000x48 where
  lhsContracting := [1]
  rhsContracting := [0]
  lhsNonContracting := [0]
  rhsNonContracting := [1]
  lhsBatch := []
  rhsBatch := []
  wf := dot_S50000x48_S48x48_S50000x48_1_0_0_1_n_n_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def dot_S50000x48_S48x64_S50000x64_1_0_0_1_n_n : DotDims S50000x48 S48x64 S50000x64 where
  lhsContracting := [1]
  rhsContracting := [0]
  lhsNonContracting := [0]
  rhsNonContracting := [1]
  lhsBatch := []
  rhsBatch := []
  wf := dot_S50000x48_S48x64_S50000x64_1_0_0_1_n_n_wf

class Facts : Prop extends Facts₀ where

variable [Facts]
-- ==== Proof.EmbedCallK.lean ====
import proofs.«108862_j74397423501440_1_alg».proof.Proof.Gen.Kernel.Launch
import proofs.«108862_j74397423501440_1_alg».proof.Proof.Gen.Kernel.Skeleton
import proofs.«108862_j74397423501440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The embedding call (pallas_call 0): a row tile of `x` times `W_in`, plus the bias row, clamped at zero

Everything here is stated at a parameter `V`, the contents of the TensorCore's buffers when the call is entered. -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: the staging buffer handed to the body at a point holds the window's block of the
    array there, whether the pipeline fetched it at that point or an earlier one (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: the staging buffer handed to the body at a point holds the window's block of the
    array there, whether the pipeline fetched it at that point or an earlier one (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0: the staging buffer handed to the body at a point holds the window's block of the
    array there, whether the pipeline fetched it at that point or an earlier one (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rX : Rect S5000x128 := Rect.unit (s := S5000x128) ![0, 0] S5000x128.size inb_S5000x128_S5000x128_0_0
abbrev rW : Rect S128x48 := Rect.unit (s := S128x48) ![0, 0] S128x48.size inb_S128x48_S128x48_0_0
abbrev rB : Rect S1x48 := Rect.unit (s := S1x48) ![0, 0] S1x48.size inb_S1x48_S1x48_0_0
abbrev rO : Rect S5000x48 := Rect.unit (s := S5000x48) ![0, 0] S5000x48.size inb_S5000x48_S5000x48_0_0

/-- What the body leaves in the output tile: its one store, of the payload of the three loaded tiles. -/
def out0_3 (x0 : Vec F S5000x128 .f32) (x1 : Vec F S128x48 .f32) (x2 : Vec F S1x48 .f32) : Vec F S5000x48 .f32 :=
  View.canon [⟨rO, k0_pay1 (View.ld x0 rX) (View.ld x1 rW) (View.ld x2 rB)⟩]

/-- The one store covers the output tile. -/
theorem cover0_3 (p0 : Vec F S5000x48 .f32) (y : S5000x48.Idx) :
    ∃ pc ∈ ([⟨rO, p0⟩] : List (View.Piece (Elt F) S5000x48 .f32)), y ∈ pc.1.set :=
  View.cover_of_tiled [⟨rO, p0⟩] S5000x48.size (by rfl) y

set_option maxHeartbeats 1000000 in
/-- The body on whole staging buffers: the three inputs at known contents, the output at anything; it returns the
    inputs untouched and the output at `out0_3` of them. -/
theorem sound_kernel0 (c : Dev nD) (E : Set ℕ) (i : grid0.Coords)
    (arg1 : Memref sig .tc .vmem S5000x128 .f32) (harg1 : arg1.IsWhole) (arg2 : Memref sig .tc .vmem S128x48 .f32) (harg2 : arg2.IsWhole)
    (arg3 : Memref sig .tc .vmem S1x48 .f32) (harg3 : arg3.IsWhole) (arg4 : Memref sig .tc .vmem S5000x48 .f32) (harg4 : arg4.IsWhole)
    (x0 : Vec F S5000x128 .f32) (x1 : Vec F S128x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at a point each input
    buffer still at its block and the output buffer at `out0_3` of the input blocks; the class invariant (the other
    scoped buffers and the generator register, untouched); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.CombineCallK.lean ====
import proofs.«108862_j74397423501440_1_alg».proof.Proof.Gen.Kernel.Launch
import proofs.«108862_j74397423501440_1_alg».proof.Proof.Gen.Kernel.Skeleton
import proofs.«108862_j74397423501440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call (pallas_call 1): for a row tile, the seven Chebyshev terms each times its weight matrix, summed,
plus the bias row, clamped at zero, times `W_out`, plus the output bias row

Everything here is stated at a parameter `V`, the contents of the TensorCore's buffers when the call is entered. -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: the staging buffer handed to the body at a point holds the window's block of the
    array there, whether the pipeline fetched it at that point or an earlier one (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1: the staging buffer handed to the body at a point holds the window's block of the
    array there, whether the pipeline fetched it at that point or an earlier one (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1: the staging buffer handed to the body at a point holds the window's block of the
    array there, whether the pipeline fetched it at that point or an earlier one (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1: the staging buffer handed to the body at a point holds the window's block of the
    array there, whether the pipeline fetched it at that point or an earlier one (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1: the staging buffer handed to the body at a point holds the window's block of the
    array there, whether the pipeline fetched it at that point or an earlier one (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through: term `k`'s slab of the stacked tile, weight matrix `k` of the stack, and the
    whole small operands; and the whole output tile it stores through. -/
abbrev rT0 : Rect S7x5000x48 := Rect.unit (s := S7x5000x48) ![0, 0, 0] S1x5000x48.size inb_S7x5000x48_S1x5000x48_0_0_0
abbrev rT1 : Rect S7x5000x48 := Rect.unit (s := S7x5000x48) ![1, 0, 0] S1x5000x48.size inb_S7x5000x48_S1x5000x48_1_0_0
abbrev rT2 : Rect S7x5000x48 := Rect.unit (s := S7x5000x48) ![2, 0, 0] S1x5000x48.size inb_S7x5000x48_S1x5000x48_2_0_0
abbrev rT3 : Rect S7x5000x48 := Rect.unit (s := S7x5000x48) ![3, 0, 0] S1x5000x48.size inb_S7x5000x48_S1x5000x48_3_0_0
abbrev rT4 : Rect S7x5000x48 := Rect.unit (s := S7x5000x48) ![4, 0, 0] S1x5000x48.size inb_S7x5000x48_S1x5000x48_4_0_0
abbrev rT5 : Rect S7x5000x48 := Rect.unit (s := S7x5000x48) ![5, 0, 0] S1x5000x48.size inb_S7x5000x48_S1x5000x48_5_0_0
abbrev rT6 : Rect S7x5000x48 := Rect.unit (s := S7x5000x48) ![6, 0, 0] S1x5000x48.size inb_S7x5000x48_S1x5000x48_6_0_0
abbrev rC0 : Rect S7x48x48 := Rect.unit (s := S7x48x48) ![0, 0, 0] S1x48x48.size inb_S7x48x48_S1x48x48_0_0_0
abbrev rC1 : Rect S7x48x48 := Rect.unit (s := S7x48x48) ![1, 0, 0] S1x48x48.size inb_S7x48x48_S1x48x48_1_0_0
abbrev rC2 : Rect S7x48x48 := Rect.unit (s := S7x48x48) ![2, 0, 0] S1x48x48.size inb_S7x48x48_S1x48x48_2_0_0
abbrev rC3 : Rect S7x48x48 := Rect.unit (s := S7x48x48) ![3, 0, 0] S1x48x48.size inb_S7x48x48_S1x48x48_3_0_0
abbrev rC4 : Rect S7x48x48 := Rect.unit (s := S7x48x48) ![4, 0, 0] S1x48x48.size inb_S7x48x48_S1x48x48_4_0_0
abbrev rC5 : Rect S7x48x48 := Rect.unit (s := S7x48x48) ![5, 0, 0] S1x48x48.size inb_S7x48x48_S1x48x48_5_0_0
abbrev rC6 : Rect S7x48x48 := Rect.unit (s := S7x48x48) ![6, 0, 0] S1x48x48.size inb_S7x48x48_S1x48x48_6_0_0
abbrev rBc : Rect S1x48 := Rect.unit (s := S1x48) ![0, 0] S1x48.size inb_S1x48_S1x48_0_0
abbrev rWo : Rect S48x64 := Rect.unit (s := S48x64) ![0, 0] S48x64.size inb_S48x64_S48x64_0_0
abbrev rBo : Rect S1x64 := Rect.unit (s := S1x64) ![0, 0] S1x64.size inb_S1x64_S1x64_0_0
abbrev rY : Rect S5000x64 := Rect.unit (s := S5000x64) ![0, 0] S5000x64.size inb_S5000x64_S5000x64_0_0

/-- The value the body stores, from the five input tiles: the payloads composed as the body composes them. -/
def pay1 (x0 : Vec F S7x5000x48 .f32) (x1 : Vec F S7x48x48 .f32) (x2 : Vec F S1x48 .f32) (x3 : Vec F S48x64 .f32) (x4 : Vec F S1x64 .f32) :
    FVec F S5000x64 .f32 :=
  k1_pay1 (k1_pay5 (k1_pay2 (View.ld x0 rT0) (View.ld x1 rC0) (View.ld x0 rT1) (View.ld x1 rC1) (View.ld x0 rT2) (View.ld x1 rC2)) (k1_pay3 (View.ld x0 rT3)) (k1_pay4 (View.ld x1 rC3))
      (View.ld x0 rT4) (View.ld x1 rC4) (View.ld x0 rT5) (View.ld x1 rC5) (View.ld x0 rT6) (View.ld x1 rC6) (View.ld x2 rBc)) (View.ld x3 rWo) (View.ld x4 rBo)

/-- What the body leaves in the output tile: its one store. -/
def out1_5 (x0 : Vec F S7x5000x48 .f32) (x1 : Vec F S7x48x48 .f32) (x2 : Vec F S1x48 .f32) (x3 : Vec F S48x64 .f32) (x4 : Vec F S1x64 .f32) :
    Vec F S5000x64 .f32 :=
  View.canon [⟨rY, pay1 x0 x1 x2 x3 x4⟩]

/-- The one store covers the output tile. -/
theorem cover1_5 (p0 : Vec F S5000x64 .f32) (y : S5000x64.Idx) :
    ∃ pc ∈ ([⟨rY, p0⟩] : List (View.Piece (Elt F) S5000x64 .f32)), y ∈ pc.1.set :=
  View.cover_of_tiled [⟨rY, p0⟩] S5000x64.size (by rfl) y

set_option maxHeartbeats 4000000 in
/-- The body on whole staging buffers: the five inputs at known contents, the output at anything; it returns the
    inputs untouched and the output at `out1_5` of them. -/
theorem sound_kernel1 (c : Dev nD) (E : Set ℕ) (i : grid1.Coords)
    (arg1 : Memref sig .tc .vmem S7x5000x48 .f32) (harg1 : arg1.IsWhole) (arg2 : Memref sig .tc .vmem S7x48x48 .f32) (harg2 : arg2.IsWhole)
    (arg3 : Memref sig .tc .vmem S1x48 .f32) (harg3 : arg3.IsWhole) (arg4 : Memref sig .tc .vmem S48x64 .f32) (harg4 : arg4.IsWhole)
    (arg5 : Memref sig .tc .vmem S1x64 .f32) (harg5 : arg5.IsWhole) (arg6 : Memref sig .tc .vmem S5000x64 .f32) (harg6 : arg6.IsWhole)
    (x0 : Vec F S7x5000x48 .f32) (x1 : Vec F S7x48x48 .f32) (x2 : Vec F S1x48 .f32) (x3 : Vec F S48x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1_combine_kernel i arg1 harg1 arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the call finds them; after the body at a point each input
    buffer still at its block and the output buffer at `out1_5` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
import proofs.«108862_j74397423501440_1_alg».proof.Proof.EmbedCallK
import proofs.«108862_j74397423501440_1_alg».proof.Proof.CombineCallK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three stretches of host operations, the embedding call, the long stretch that builds the seven
Chebyshev terms, the combining call

## The buffer contents at each boundary, folded from the launch memory -/

/-- Core `c`'s buffers at launch. -/
abbrev W0 : Dev nD → Valuation τ sig (Elt F) := fun c b => (s₀ m ρ).mem ((c : Dev nD), b)
/-- After the first stretch (the degree vector, its comparison with zero and its reciprocal square root). -/
abbrev W1 : Dev nD → Valuation τ sig (Elt F) := fun c => StableHlo.after hostOps0 (W0 m ρ c)
/-- After the select that zeroes the reciprocal root where the degree is not positive. -/
abbrev W2 : Dev nD → Valuation τ sig (Elt F) := fun c => StableHlo.after hostOps0_1 (W1 m ρ c)
/-- After the edge normalisation and the bias row's reshape: the embedding call's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At call 0's exit: its window arrays at what the pipeline leaves (an input as entered, the output with every
    point's write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the long stretch (the propagations, the recurrence, the stacking): the combining call's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At call 1's exit: its window arrays at what the pipeline leaves (an input as entered, the output with every
    point's write-back folded in), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and what rides along -/

/-- No pipeline has a prefetched table. -/
abbrev adm : (p : Fin 2) → (pcfgs (F := F) p).Adm := fun p => (cfgs p).toPCfg_adm
/-- Each pipeline's proof data at its own call's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The two calls as segments -/

set_option backward.isDefEq.respectTransparency.types false in
/-- Call 0 as a segment of the run: entered with every unscoped buffer at the contents `W3`, left with them at `W4`.
    Its window arrays are split out of the unscoped buffers at entry and joined back at exit; the generator register goes
    into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run: entered with every unscoped buffer at the contents `W5`, left with them at `W6`.
    Its window arrays are split out of the unscoped buffers at entry and joined back at exit; the generator register goes
    into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option maxHeartbeats 4000000 in
/-- @main is the run of these segments. -/
theorem main_run (c : Dev nD) : main (F := F) c = Pipeline.Seg.run (segs m ρ) := (main_chain c).trans (by chain_rfl)

set_option backward.isDefEq.respectTransparency.types false in
/-- From any launch memory with zero counters, every weakly fair execution of @main on the TensorCores terminates,
    nothing faults, and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.FrameK.lean ====
import proofs.«108862_j74397423501440_1_alg».proof.Proof.RunK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

No host operation writes an argument and a call only reads one through an input window, so the fold of the buffer
contents, read at an argument's buffer, walks back to the launch memory. -/

/-- A buffer that no operation of a stretch writes keeps its contents through it: the stretch's result buffers listed,
    each unequal to the buffer in question. -/
local macro "host_keeps" ops:ident : tactic => `(tactic| (
  refine StableHlo.after_of_forall_not_mem _ _ (List.forall_iff_forall_mem.mp ?_)
  simp only [$ops:ident, List.Forall, StableHlo.TRef.unary, StableHlo.TRef.ternary, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

set_option maxHeartbeats 4000000
theorem k0_arg0 (V : Valuation τ sig (Elt F)) :
    StableHlo.after (hostOps0 (F := F)) V (Proc.devRef .tc main_arg0) = V (Proc.devRef .tc main_arg0) := by host_keeps hostOps0
theorem k0_arg1 (V : Valuation τ sig (Elt F)) :
    StableHlo.after (hostOps0 (F := F)) V (Proc.devRef .tc main_arg1) = V (Proc.devRef .tc main_arg1) := by host_keeps hostOps0
theorem k0_arg2 (V : Valuation τ sig (Elt F)) :
    StableHlo.after (hostOps0 (F := F)) V (Proc.devRef .tc main_arg2) = V (Proc.devRef .tc main_arg2) := by host_keeps hostOps0
theorem k0_arg3 (V : Valuation τ sig (Elt F)) :
    StableHlo.after (hostOps0 (F := F)) V (Proc.devRef .tc main_arg3) = V (Proc.devRef .tc main_arg3) := by host_keeps hostOps0
theorem k0_arg4 (V : Valuation τ sig (Elt F)) :
    StableHlo.after (hostOps0 (F := F)) V (Proc.devRef .tc main_arg4) = V (Proc.devRef .tc main_arg4) := by host_keeps hostOps0
theorem k0_arg5 (V : Valuation τ sig (Elt F)) :
    StableHlo.after (hostOps0 (F := F)) V (Proc.devRef .tc main_arg5) = V (Proc.devRef .tc main_arg5) := by host_keeps hostOps0
theorem k0_arg6 (V : Valuation τ sig (Elt F)) :
    StableHlo.after (hostOps0 (F := F)) V (Proc.devRef .tc main_arg6) = V (Proc.devRef .tc main_arg6) := by host_keeps hostOps0
theorem k0_arg7 (V : Valuation τ sig (Elt F)) :
    StableHlo.after (hostOps0 (F := F)) V (Proc.devRef .tc main_arg7) = V (Proc.devRef .tc main_arg7) := by host_keeps hostOps0
theorem k0_arg8 (V : Valuation τ sig (Elt F)) :
    StableHlo.after (hostOps0 (F := F)) V (Proc.devRef .tc main_arg8) = V (Proc.devRef .tc main_arg8) := by host_keeps hostOps0
theorem k01_arg0 (V : Valuation τ sig (Elt F)) :
    StableHlo.after (hostOps0_1 (F := F)) V (Proc.devRef .tc main_arg0) = V (Proc.devRef .tc main_arg0) := by host_keeps hostOps0_1
theorem k01_arg1 (V : Valuation τ sig (Elt F)) :
    StableHlo.after (hostOps0_1 (F := F)) V (Proc.devRef .tc main_arg1) = V (Proc.devRef .tc main_arg1) := by host_keeps hostOps0_1
theorem k01_arg2 (V : Valuation τ sig (Elt F)) :
    StableHlo.after (hostOps0_1 (F := F)) V (Proc.devRef .tc main_arg2) = V (Proc.devRef .tc main_arg2) := by host_keeps hostOps0_1
theorem k01_arg3 (V : Valuation τ sig (Elt F)) :
    StableHlo.after (hostOps0_1 (F := F)) V (Proc.devRef .tc main_arg3) = V (Proc.devRef .tc main_arg3) := by host_keeps hostOps0_1
theorem k01_arg4 (V : Valuation τ sig (Elt F)) :
    StableHlo.after (hostOps0_1 (F := F)) V (Proc.devRef .tc main_arg4) = V (Proc.devRef .tc main_arg4) := by host_keeps hostOps0_1
theorem k01_arg5 (V : Valuation τ sig (Elt F)) :
    StableHlo.after (hostOps0_1 (F := F)) V (Proc.devRef .tc main_arg5) = V (Proc.devRef .tc main_arg5) := by host_keeps hostOps0_1
theorem k01_arg6 (V : Valuation τ sig (Elt F)) :
    StableHlo.after (hostOps0_1 (F := F)) V (Proc.devRef .tc main_arg6) = V (Proc.devRef .tc main_arg6) := by host_keeps hostOps0_1
theorem k01_arg7 (V : Valuation τ sig (Elt F)) :
    StableHlo.after (hostOps0_1 (F := F)) V (Proc.devRef .tc main_arg7) = V (Proc.devRef .tc main_arg7) := by host_keeps hostOps0_1
theorem k01_arg8 (V : Valuation τ sig (Elt F)) :
    StableHlo.after (hostOps0_1 (F := F)) V (Proc.devRef .tc main_arg8) = V (Proc.devRef .tc main_arg8) := by host_keeps hostOps0_1
theorem k02_arg0 (V : Valuation τ sig (Elt F)) :
    StableHlo.after (hostOps0_2 (F := F)) V (Proc.devRef .tc main_arg0) = V (Proc.devRef .tc main_arg0) := by host_keeps hostOps0_2
theorem k02_arg1 (V : Valuation τ sig (Elt F)) :
    StableHlo.after (hostOps0_2 (F := F)) V (Proc.devRef .tc main_arg1) = V (Proc.devRef .tc main_arg1) := by host_keeps hostOps0_2
theorem k02_arg2 (V : Valuation τ sig (Elt F)) :
    StableHlo.after (hostOps0_2 (F := F)) V (Proc.devRef .tc main_arg2) = V (Proc.devRef .tc main_arg2) := by host_keeps hostOps0_2
theorem k02_arg3 (V : Valuation τ sig (Elt F)) :
    StableHlo.after (hostOps0_2 (F := F)) V (Proc.devRef .tc main_arg3) = V (Proc.devRef .tc main_arg3) := by host_keeps hostOps0_2
theorem k02_arg4 (V : Valuation τ sig (Elt F)) :
    StableHlo.after (hostOps0_2 (F := F)) V (Proc.devRef .tc main_arg4) = V (Proc.devRef .tc main_arg4) := by host_keeps hostOps0_2
theorem k02_arg5 (V : Valuation τ sig (Elt F)) :
    StableHlo.after (hostOps0_2 (F := F)) V (Proc.devRef .tc main_arg5) = V (Proc.devRef .tc main_arg5) := by host_keeps hostOps0_2
theorem k02_arg6 (V : Valuation τ sig (Elt F)) :
    StableHlo.after (hostOps0_2 (F := F)) V (Proc.devRef .tc main_arg6) = V (Proc.devRef .tc main_arg6) := by host_keeps hostOps0_2
theorem k02_arg7 (V : Valuation τ sig (Elt F)) :
    StableHlo.after (hostOps0_2 (F := F)) V (Proc.devRef .tc main_arg7) = V (Proc.devRef .tc main_arg7) := by host_keeps hostOps0_2
theorem k02_arg8 (V : Valuation τ sig (Elt F)) :
    StableHlo.after (hostOps0_2 (F := F)) V (Proc.devRef .tc main_arg8) = V (Proc.devRef .tc main_arg8) := by host_keeps hostOps0_2
theorem k1_arg0 (V : Valuation τ sig (Elt F)) :
    StableHlo.after (hostOps1 (F := F)) V (Proc.devRef .tc main_arg0) = V (Proc.devRef .tc main_arg0) := by host_keeps hostOps1
theorem k1_arg1 (V : Valuation τ sig (Elt F)) :
    StableHlo.after (hostOps1 (F := F)) V (Proc.devRef .tc main_arg1) = V (Proc.devRef .tc main_arg1) := by host_keeps hostOps1
theorem k1_arg2 (V : Valuation τ sig (Elt F)) :
    StableHlo.after (hostOps1 (F := F)) V (Proc.devRef .tc main_arg2) = V (Proc.devRef .tc main_arg2) := by host_keeps hostOps1
theorem k1_arg3 (V : Valuation τ sig (Elt F)) :
    StableHlo.after (hostOps1 (F := F)) V (Proc.devRef .tc main_arg3) = V (Proc.devRef .tc main_arg3) := by host_keeps hostOps1
theorem k1_arg4 (V : Valuation τ sig (Elt F)) :
    StableHlo.after (hostOps1 (F := F)) V (Proc.devRef .tc main_arg4) = V (Proc.devRef .tc main_arg4) := by host_keeps hostOps1
theorem k1_arg5 (V : Valuation τ sig (Elt F)) :
    StableHlo.after (hostOps1 (F := F)) V (Proc.devRef .tc main_arg5) = V (Proc.devRef .tc main_arg5) := by host_keeps hostOps1
theorem k1_arg6 (V : Valuation τ sig (Elt F)) :
    StableHlo.after (hostOps1 (F := F)) V (Proc.devRef .tc main_arg6) = V (Proc.devRef .tc main_arg6) := by host_keeps hostOps1
theorem k1_arg7 (V : Valuation τ sig (Elt F)) :
    StableHlo.after (hostOps1 (F := F)) V (Proc.devRef .tc main_arg7) = V (Proc.devRef .tc main_arg7) := by host_keeps hostOps1
theorem k1_arg8 (V : Valuation τ sig (Elt F)) :
    StableHlo.after (hostOps1 (F := F)) V (Proc.devRef .tc main_arg8) = V (Proc.devRef .tc main_arg8) := by host_keeps hostOps1

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  (k02_arg0 _).trans ((k01_arg0 _).trans ((k0_arg0 _).trans rfl))
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)
theorem W5_arg0 (c : Dev nD) : W5 m ρ c (Proc.devRef .tc main_arg0) = m ((c : Thread nD τ).loc main_arg0) :=
  (k1_arg0 _).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)

theorem W3_arg1 (c : Dev nD) : W3 m ρ c (Proc.devRef .tc main_arg1) = m ((c : Thread nD τ).loc main_arg1) :=
  (k02_arg1 _).trans ((k01_arg1 _).trans ((k0_arg1 _).trans rfl))
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (k1_arg1 _).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)

theorem W3_arg2 (c : Dev nD) : W3 m ρ c (Proc.devRef .tc main_arg2) = m ((c : Thread nD τ).loc main_arg2) :=
  (k02_arg2 _).trans ((k01_arg2 _).trans ((k0_arg2 _).trans rfl))
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (k1_arg2 _).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)

theorem W3_arg3 (c : Dev nD) : W3 m ρ c (Proc.devRef .tc main_arg3) = m ((c : Thread nD τ).loc main_arg3) :=
  (k02_arg3 _).trans ((k01_arg3 _).trans ((k0_arg3 _).trans rfl))
theorem W4_arg3 (c : Dev nD) : W4 m ρ c (Proc.devRef .tc main_arg3) = m ((c : Thread nD τ).loc main_arg3) :=
  ((W4_arr m ρ c 1).trans (((dat0 (V3 m ρ) c).arrAt_in 1 rfl _).trans (A_eq0 (V3 m ρ) c 1))).trans (W3_arg3 m ρ c)
theorem W5_arg3 (c : Dev nD) : W5 m ρ c (Proc.devRef .tc main_arg3) = m ((c : Thread nD τ).loc main_arg3) :=
  (k1_arg3 _).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)

theorem W3_arg4 (c : Dev nD) : W3 m ρ c (Proc.devRef .tc main_arg4) = m ((c : Thread nD τ).loc main_arg4) :=
  (k02_arg4 _).trans ((k01_arg4 _).trans ((k0_arg4 _).trans rfl))
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (k1_arg4 _).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)

theorem W3_arg5 (c : Dev nD) : W3 m ρ c (Proc.devRef .tc main_arg5) = m ((c : Thread nD τ).loc main_arg5) :=
  (k02_arg5 _).trans ((k01_arg5 _).trans ((k0_arg5 _).trans rfl))
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (k1_arg5 _).trans (W4_arg5 m ρ c)
theorem W6_arg5 (c : Dev nD) : W6 m ρ c (Proc.devRef .tc main_arg5) = m ((c : Thread nD τ).loc main_arg5) :=
  ((W6_arr m ρ c 1).trans (((dat1 (V5 m ρ) c).arrAt_in 1 rfl _).trans (A_eq1 (V5 m ρ) c 1))).trans (W5_arg5 m ρ c)

theorem W3_arg6 (c : Dev nD) : W3 m ρ c (Proc.devRef .tc main_arg6) = m ((c : Thread nD τ).loc main_arg6) :=
  (k02_arg6 _).trans ((k01_arg6 _).trans ((k0_arg6 _).trans rfl))
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (k1_arg6 _).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)

theorem W3_arg7 (c : Dev nD) : W3 m ρ c (Proc.devRef .tc main_arg7) = m ((c : Thread nD τ).loc main_arg7) :=
  (k02_arg7 _).trans ((k01_arg7 _).trans ((k0_arg7 _).trans rfl))
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (k1_arg7 _).trans (W4_arg7 m ρ c)
theorem W6_arg7 (c : Dev nD) : W6 m ρ c (Proc.devRef .tc main_arg7) = m ((c : Thread nD τ).loc main_arg7) :=
  ((W6_arr m ρ c 3).trans (((dat1 (V5 m ρ) c).arrAt_in 3 rfl _).trans (A_eq1 (V5 m ρ) c 3))).trans (W5_arg7 m ρ c)

theorem W3_arg8 (c : Dev nD) : W3 m ρ c (Proc.devRef .tc main_arg8) = m ((c : Thread nD τ).loc main_arg8) :=
  (k02_arg8 _).trans ((k01_arg8 _).trans ((k0_arg8 _).trans rfl))
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (k1_arg8 _).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)

/-- The frame: from any launch memory with zero counters, every weakly fair execution of @main on the TensorCores
    terminates, nothing faults, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W6_arg0 m ρ c),
    (h c _ (mem_uc main_arg1 (by decide))).trans (W6_arg1 m ρ c),
    (h c _ (mem_uc main_arg2 (by decide))).trans (W6_arg2 m ρ c),
    (h c _ (mem_uc main_arg3 (by decide))).trans (W6_arg3 m ρ c),
    (h c _ (mem_uc main_arg4 (by decide))).trans (W6_arg4 m ρ c),
    (h c _ (mem_uc main_arg5 (by decide))).trans (W6_arg5 m ρ c),
    (h c _ (mem_uc main_arg6 (by decide))).trans (W6_arg6 m ρ c),
    (h c _ (mem_uc main_arg7 (by decide))).trans (W6_arg7 m ρ c),
    (h c _ (mem_uc main_arg8 (by decide))).trans (W6_arg8 m ρ c)⟩) (run_all m ρ)

end Cert.Kernel.Hand

end
-- ==== Proof.EmbedCallI.lean ====
import proofs.«108862_j74397423501440_1_alg».proof.Proof.Gen.KernelIdeal.Launch
import proofs.«108862_j74397423501440_1_alg».proof.Proof.Gen.KernelIdeal.Skeleton
import proofs.«108862_j74397423501440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The embedding call (pallas_call 0): a row tile of `x` times `W_in`, plus the bias row, clamped at zero

Everything here is stated at a parameter `V`, the contents of the TensorCore's buffers when the call is entered. -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: the staging buffer handed to the body at a point holds the window's block of the
    array there, whether the pipeline fetched it at that point or an earlier one (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: the staging buffer handed to the body at a point holds the window's block of the
    array there, whether the pipeline fetched it at that point or an earlier one (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0: the staging buffer handed to the body at a point holds the window's block of the
    array there, whether the pipeline fetched it at that point or an earlier one (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rX : Rect S5000x128 := Rect.unit (s := S5000x128) ![0, 0] S5000x128.size inb_S5000x128_S5000x128_0_0
abbrev rW : Rect S128x48 := Rect.unit (s := S128x48) ![0, 0] S128x48.size inb_S128x48_S128x48_0_0
abbrev rB : Rect S1x48 := Rect.unit (s := S1x48) ![0, 0] S1x48.size inb_S1x48_S1x48_0_0
abbrev rO : Rect S5000x48 := Rect.unit (s := S5000x48) ![0, 0] S5000x48.size inb_S5000x48_S5000x48_0_0

/-- What the body leaves in the output tile: its one store, of the payload of the three loaded tiles. -/
def out0_3 (x0 : Vec F S5000x128 .f32) (x1 : Vec F S128x48 .f32) (x2 : Vec F S1x48 .f32) : Vec F S5000x48 .f32 :=
  View.canon [⟨rO, k0_pay1 (View.ld x0 rX) (View.ld x1 rW) (View.ld x2 rB)⟩]

/-- The one store covers the output tile. -/
theorem cover0_3 (p0 : Vec F S5000x48 .f32) (y : S5000x48.Idx) :
    ∃ pc ∈ ([⟨rO, p0⟩] : List (View.Piece (Elt F) S5000x48 .f32)), y ∈ pc.1.set :=
  View.cover_of_tiled [⟨rO, p0⟩] S5000x48.size (by rfl) y

set_option maxHeartbeats 1000000 in
/-- The body on whole staging buffers: the three inputs at known contents, the output at anything; it returns the
    inputs untouched and the output at `out0_3` of them. -/
theorem sound_kernel0 (c : Dev nD) (E : Set ℕ) (i : grid0.Coords)
    (arg1 : Memref sig .tc .vmem S5000x128 .f32) (harg1 : arg1.IsWhole) (arg2 : Memref sig .tc .vmem S128x48 .f32) (harg2 : arg2.IsWhole)
    (arg3 : Memref sig .tc .vmem S1x48 .f32) (harg3 : arg3.IsWhole) (arg4 : Memref sig .tc .vmem S5000x48 .f32) (harg4 : arg4.IsWhole)
    (x0 : Vec F S5000x128 .f32) (x1 : Vec F S128x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at a point each input
    buffer still at its block and the output buffer at `out0_3` of the input blocks; the class invariant (the other
    scoped buffers and the generator register, untouched); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.CombineCallI.lean ====
import proofs.«108862_j74397423501440_1_alg».proof.Proof.Gen.KernelIdeal.Launch
import proofs.«108862_j74397423501440_1_alg».proof.Proof.Gen.KernelIdeal.Skeleton
import proofs.«108862_j74397423501440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call (pallas_call 1): for a row tile, the seven Chebyshev terms each times its weight matrix, summed,
plus the bias row, clamped at zero, times `W_out`, plus the output bias row

Everything here is stated at a parameter `V`, the contents of the TensorCore's buffers when the call is entered. -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: the staging buffer handed to the body at a point holds the window's block of the
    array there, whether the pipeline fetched it at that point or an earlier one (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1: the staging buffer handed to the body at a point holds the window's block of the
    array there, whether the pipeline fetched it at that point or an earlier one (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1: the staging buffer handed to the body at a point holds the window's block of the
    array there, whether the pipeline fetched it at that point or an earlier one (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1: the staging buffer handed to the body at a point holds the window's block of the
    array there, whether the pipeline fetched it at that point or an earlier one (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1: the staging buffer handed to the body at a point holds the window's block of the
    array there, whether the pipeline fetched it at that point or an earlier one (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through: term `k`'s slab of the stacked tile, weight matrix `k` of the stack, and the
    whole small operands; and the whole output tile it stores through. -/
abbrev rT0 : Rect S7x5000x48 := Rect.unit (s := S7x5000x48) ![0, 0, 0] S1x5000x48.size inb_S7x5000x48_S1x5000x48_0_0_0
abbrev rT1 : Rect S7x5000x48 := Rect.unit (s := S7x5000x48) ![1, 0, 0] S1x5000x48.size inb_S7x5000x48_S1x5000x48_1_0_0
abbrev rT2 : Rect S7x5000x48 := Rect.unit (s := S7x5000x48) ![2, 0, 0] S1x5000x48.size inb_S7x5000x48_S1x5000x48_2_0_0
abbrev rT3 : Rect S7x5000x48 := Rect.unit (s := S7x5000x48) ![3, 0, 0] S1x5000x48.size inb_S7x5000x48_S1x5000x48_3_0_0
abbrev rT4 : Rect S7x5000x48 := Rect.unit (s := S7x5000x48) ![4, 0, 0] S1x5000x48.size inb_S7x5000x48_S1x5000x48_4_0_0
abbrev rT5 : Rect S7x5000x48 := Rect.unit (s := S7x5000x48) ![5, 0, 0] S1x5000x48.size inb_S7x5000x48_S1x5000x48_5_0_0
abbrev rT6 : Rect S7x5000x48 := Rect.unit (s := S7x5000x48) ![6, 0, 0] S1x5000x48.size inb_S7x5000x48_S1x5000x48_6_0_0
abbrev rC0 : Rect S7x48x48 := Rect.unit (s := S7x48x48) ![0, 0, 0] S1x48x48.size inb_S7x48x48_S1x48x48_0_0_0
abbrev rC1 : Rect S7x48x48 := Rect.unit (s := S7x48x48) ![1, 0, 0] S1x48x48.size inb_S7x48x48_S1x48x48_1_0_0
abbrev rC2 : Rect S7x48x48 := Rect.unit (s := S7x48x48) ![2, 0, 0] S1x48x48.size inb_S7x48x48_S1x48x48_2_0_0
abbrev rC3 : Rect S7x48x48 := Rect.unit (s := S7x48x48) ![3, 0, 0] S1x48x48.size inb_S7x48x48_S1x48x48_3_0_0
abbrev rC4 : Rect S7x48x48 := Rect.unit (s := S7x48x48) ![4, 0, 0] S1x48x48.size inb_S7x48x48_S1x48x48_4_0_0
abbrev rC5 : Rect S7x48x48 := Rect.unit (s := S7x48x48) ![5, 0, 0] S1x48x48.size inb_S7x48x48_S1x48x48_5_0_0
abbrev rC6 : Rect S7x48x48 := Rect.unit (s := S7x48x48) ![6, 0, 0] S1x48x48.size inb_S7x48x48_S1x48x48_6_0_0
abbrev rBc : Rect S1x48 := Rect.unit (s := S1x48) ![0, 0] S1x48.size inb_S1x48_S1x48_0_0
abbrev rWo : Rect S48x64 := Rect.unit (s := S48x64) ![0, 0] S48x64.size inb_S48x64_S48x64_0_0
abbrev rBo : Rect S1x64 := Rect.unit (s := S1x64) ![0, 0] S1x64.size inb_S1x64_S1x64_0_0
abbrev rY : Rect S5000x64 := Rect.unit (s := S5000x64) ![0, 0] S5000x64.size inb_S5000x64_S5000x64_0_0

/-- The value the body stores, from the five input tiles: the payloads composed as the body composes them. -/
def pay1 (x0 : Vec F S7x5000x48 .f32) (x1 : Vec F S7x48x48 .f32) (x2 : Vec F S1x48 .f32) (x3 : Vec F S48x64 .f32) (x4 : Vec F S1x64 .f32) :
    FVec F S5000x64 .f32 :=
  k1_pay1 (k1_pay5 (k1_pay2 (View.ld x0 rT0) (View.ld x1 rC0) (View.ld x0 rT1) (View.ld x1 rC1) (View.ld x0 rT2) (View.ld x1 rC2)) (k1_pay3 (View.ld x0 rT3)) (k1_pay4 (View.ld x1 rC3))
      (View.ld x0 rT4) (View.ld x1 rC4) (View.ld x0 rT5) (View.ld x1 rC5) (View.ld x0 rT6) (View.ld x1 rC6) (View.ld x2 rBc)) (View.ld x3 rWo) (View.ld x4 rBo)

/-- What the body leaves in the output tile: its one store. -/
def out1_5 (x0 : Vec F S7x5000x48 .f32) (x1 : Vec F S7x48x48 .f32) (x2 : Vec F S1x48 .f32) (x3 : Vec F S48x64 .f32) (x4 : Vec F S1x64 .f32) :
    Vec F S5000x64 .f32 :=
  View.canon [⟨rY, pay1 x0 x1 x2 x3 x4⟩]

/-- The one store covers the output tile. -/
theorem cover1_5 (p0 : Vec F S5000x64 .f32) (y : S5000x64.Idx) :
    ∃ pc ∈ ([⟨rY, p0⟩] : List (View.Piece (Elt F) S5000x64 .f32)), y ∈ pc.1.set :=
  View.cover_of_tiled [⟨rY, p0⟩] S5000x64.size (by rfl) y

set_option maxHeartbeats 4000000 in
/-- The body on whole staging buffers: the five inputs at known contents, the output at anything; it returns the
    inputs untouched and the output at `out1_5` of them. -/
theorem sound_kernel1 (c : Dev nD) (E : Set ℕ) (i : grid1.Coords)
    (arg1 : Memref sig .tc .vmem S7x5000x48 .f32) (harg1 : arg1.IsWhole) (arg2 : Memref sig .tc .vmem S7x48x48 .f32) (harg2 : arg2.IsWhole)
    (arg3 : Memref sig .tc .vmem S1x48 .f32) (harg3 : arg3.IsWhole) (arg4 : Memref sig .tc .vmem S48x64 .f32) (harg4 : arg4.IsWhole)
    (arg5 : Memref sig .tc .vmem S1x64 .f32) (harg5 : arg5.IsWhole) (arg6 : Memref sig .tc .vmem S5000x64 .f32) (harg6 : arg6.IsWhole)
    (x0 : Vec F S7x5000x48 .f32) (x1 : Vec F S7x48x48 .f32) (x2 : Vec F S1x48 .f32) (x3 : Vec F S48x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1_combine_kernel i arg1 harg1 arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the call finds them; after the body at a point each input
    buffer still at its block and the output buffer at `out1_5` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunI.lean ====
import proofs.«108862_j74397423501440_1_alg».proof.Proof.EmbedCallI
import proofs.«108862_j74397423501440_1_alg».proof.Proof.CombineCallI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three stretches of host operations, the embedding call, the long stretch that builds the seven
Chebyshev terms, the combining call

## The buffer contents at each boundary, folded from the launch memory -/

/-- Core `c`'s buffers at launch. -/
abbrev W0 : Dev nD → Valuation τ sig (Elt F) := fun c b => (s₀ m ρ).mem ((c : Dev nD), b)
/-- After the first stretch (the degree vector, its comparison with zero and its reciprocal square root). -/
abbrev W1 : Dev nD → Valuation τ sig (Elt F) := fun c => StableHlo.after hostOps0 (W0 m ρ c)
/-- After the select that zeroes the reciprocal root where the degree is not positive. -/
abbrev W2 : Dev nD → Valuation τ sig (Elt F) := fun c => StableHlo.after hostOps0_1 (W1 m ρ c)
/-- After the edge normalisation and the bias row's reshape: the embedding call's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At call 0's exit: its window arrays at what the pipeline leaves (an input as entered, the output with every
    point's write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the long stretch (the propagations, the recurrence, the stacking): the combining call's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At call 1's exit: its window arrays at what the pipeline leaves (an input as entered, the output with every
    point's write-back folded in), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and what rides along -/

/-- No pipeline has a prefetched table. -/
abbrev adm : (p : Fin 2) → (pcfgs (F := F) p).Adm := fun p => (cfgs p).toPCfg_adm
/-- Each pipeline's proof data at its own call's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The two calls as segments -/

set_option backward.isDefEq.respectTransparency.types false in
/-- Call 0 as a segment of the run: entered with every unscoped buffer at the contents `W3`, left with them at `W4`.
    Its window arrays are split out of the unscoped buffers at entry and joined back at exit; the generator register goes
    into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run: entered with every unscoped buffer at the contents `W5`, left with them at `W6`.
    Its window arrays are split out of the unscoped buffers at entry and joined back at exit; the generator register goes
    into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option maxHeartbeats 4000000 in
/-- @main is the run of these segments. -/
theorem main_run (c : Dev nD) : main (F := F) c = Pipeline.Seg.run (segs m ρ) := (main_chain c).trans (by chain_rfl)

set_option backward.isDefEq.respectTransparency.types false in
/-- From any launch memory with zero counters, every weakly fair execution of @main on the TensorCores terminates,
    nothing faults, and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.FrameI.lean ====
import proofs.«108862_j74397423501440_1_alg».proof.Proof.RunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

No host operation writes an argument and a call only reads one through an input window, so the fold of the buffer
contents, read at an argument's buffer, walks back to the launch memory. -/

/-- A buffer that no operation of a stretch writes keeps its contents through it: the stretch's result buffers listed,
    each unequal to the buffer in question. -/
local macro "host_keeps" ops:ident : tactic => `(tactic| (
  refine StableHlo.after_of_forall_not_mem _ _ (List.forall_iff_forall_mem.mp ?_)
  simp only [$ops:ident, List.Forall, StableHlo.TRef.unary, StableHlo.TRef.ternary, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

set_option maxHeartbeats 4000000
theorem k0_arg0 (V : Valuation τ sig (Elt F)) :
    StableHlo.after (hostOps0 (F := F)) V (Proc.devRef .tc main_arg0) = V (Proc.devRef .tc main_arg0) := by host_keeps hostOps0
theorem k0_arg1 (V : Valuation τ sig (Elt F)) :
    StableHlo.after (hostOps0 (F := F)) V (Proc.devRef .tc main_arg1) = V (Proc.devRef .tc main_arg1) := by host_keeps hostOps0
theorem k0_arg2 (V : Valuation τ sig (Elt F)) :
    StableHlo.after (hostOps0 (F := F)) V (Proc.devRef .tc main_arg2) = V (Proc.devRef .tc main_arg2) := by host_keeps hostOps0
theorem k0_arg3 (V : Valuation τ sig (Elt F)) :
    StableHlo.after (hostOps0 (F := F)) V (Proc.devRef .tc main_arg3) = V (Proc.devRef .tc main_arg3) := by host_keeps hostOps0
theorem k0_arg4 (V : Valuation τ sig (Elt F)) :
    StableHlo.after (hostOps0 (F := F)) V (Proc.devRef .tc main_arg4) = V (Proc.devRef .tc main_arg4) := by host_keeps hostOps0
theorem k0_arg5 (V : Valuation τ sig (Elt F)) :
    StableHlo.after (hostOps0 (F := F)) V (Proc.devRef .tc main_arg5) = V (Proc.devRef .tc main_arg5) := by host_keeps hostOps0
theorem k0_arg6 (V : Valuation τ sig (Elt F)) :
    StableHlo.after (hostOps0 (F := F)) V (Proc.devRef .tc main_arg6) = V (Proc.devRef .tc main_arg6) := by host_keeps hostOps0
theorem k0_arg7 (V : Valuation τ sig (Elt F)) :
    StableHlo.after (hostOps0 (F := F)) V (Proc.devRef .tc main_arg7) = V (Proc.devRef .tc main_arg7) := by host_keeps hostOps0
theorem k0_arg8 (V : Valuation τ sig (Elt F)) :
    StableHlo.after (hostOps0 (F := F)) V (Proc.devRef .tc main_arg8) = V (Proc.devRef .tc main_arg8) := by host_keeps hostOps0
theorem k01_arg0 (V : Valuation τ sig (Elt F)) :
    StableHlo.after (hostOps0_1 (F := F)) V (Proc.devRef .tc main_arg0) = V (Proc.devRef .tc main_arg0) := by host_keeps hostOps0_1
theorem k01_arg1 (V : Valuation τ sig (Elt F)) :
    StableHlo.after (hostOps0_1 (F := F)) V (Proc.devRef .tc main_arg1) = V (Proc.devRef .tc main_arg1) := by host_keeps hostOps0_1
theorem k01_arg2 (V : Valuation τ sig (Elt F)) :
    StableHlo.after (hostOps0_1 (F := F)) V (Proc.devRef .tc main_arg2) = V (Proc.devRef .tc main_arg2) := by host_keeps hostOps0_1
theorem k01_arg3 (V : Valuation τ sig (Elt F)) :
    StableHlo.after (hostOps0_1 (F := F)) V (Proc.devRef .tc main_arg3) = V (Proc.devRef .tc main_arg3) := by host_keeps hostOps0_1
theorem k01_arg4 (V : Valuation τ sig (Elt F)) :
    StableHlo.after (hostOps0_1 (F := F)) V (Proc.devRef .tc main_arg4) = V (Proc.devRef .tc main_arg4) := by host_keeps hostOps0_1
theorem k01_arg5 (V : Valuation τ sig (Elt F)) :
    StableHlo.after (hostOps0_1 (F := F)) V (Proc.devRef .tc main_arg5) = V (Proc.devRef .tc main_arg5) := by host_keeps hostOps0_1
theorem k01_arg6 (V : Valuation τ sig (Elt F)) :
    StableHlo.after (hostOps0_1 (F := F)) V (Proc.devRef .tc main_arg6) = V (Proc.devRef .tc main_arg6) := by host_keeps hostOps0_1
theorem k01_arg7 (V : Valuation τ sig (Elt F)) :
    StableHlo.after (hostOps0_1 (F := F)) V (Proc.devRef .tc main_arg7) = V (Proc.devRef .tc main_arg7) := by host_keeps hostOps0_1
theorem k01_arg8 (V : Valuation τ sig (Elt F)) :
    StableHlo.after (hostOps0_1 (F := F)) V (Proc.devRef .tc main_arg8) = V (Proc.devRef .tc main_arg8) := by host_keeps hostOps0_1
theorem k02_arg0 (V : Valuation τ sig (Elt F)) :
    StableHlo.after (hostOps0_2 (F := F)) V (Proc.devRef .tc main_arg0) = V (Proc.devRef .tc main_arg0) := by host_keeps hostOps0_2
theorem k02_arg1 (V : Valuation τ sig (Elt F)) :
    StableHlo.after (hostOps0_2 (F := F)) V (Proc.devRef .tc main_arg1) = V (Proc.devRef .tc main_arg1) := by host_keeps hostOps0_2
theorem k02_arg2 (V : Valuation τ sig (Elt F)) :
    StableHlo.after (hostOps0_2 (F := F)) V (Proc.devRef .tc main_arg2) = V (Proc.devRef .tc main_arg2) := by host_keeps hostOps0_2
theorem k02_arg3 (V : Valuation τ sig (Elt F)) :
    StableHlo.after (hostOps0_2 (F := F)) V (Proc.devRef .tc main_arg3) = V (Proc.devRef .tc main_arg3) := by host_keeps hostOps0_2
theorem k02_arg4 (V : Valuation τ sig (Elt F)) :
    StableHlo.after (hostOps0_2 (F := F)) V (Proc.devRef .tc main_arg4) = V (Proc.devRef .tc main_arg4) := by host_keeps hostOps0_2
theorem k02_arg5 (V : Valuation τ sig (Elt F)) :
    StableHlo.after (hostOps0_2 (F := F)) V (Proc.devRef .tc main_arg5) = V (Proc.devRef .tc main_arg5) := by host_keeps hostOps0_2
theorem k02_arg6 (V : Valuation τ sig (Elt F)) :
    StableHlo.after (hostOps0_2 (F := F)) V (Proc.devRef .tc main_arg6) = V (Proc.devRef .tc main_arg6) := by host_keeps hostOps0_2
theorem k02_arg7 (V : Valuation τ sig (Elt F)) :
    StableHlo.after (hostOps0_2 (F := F)) V (Proc.devRef .tc main_arg7) = V (Proc.devRef .tc main_arg7) := by host_keeps hostOps0_2
theorem k02_arg8 (V : Valuation τ sig (Elt F)) :
    StableHlo.after (hostOps0_2 (F := F)) V (Proc.devRef .tc main_arg8) = V (Proc.devRef .tc main_arg8) := by host_keeps hostOps0_2
theorem k1_arg0 (V : Valuation τ sig (Elt F)) :
    StableHlo.after (hostOps1 (F := F)) V (Proc.devRef .tc main_arg0) = V (Proc.devRef .tc main_arg0) := by host_keeps hostOps1
theorem k1_arg1 (V : Valuation τ sig (Elt F)) :
    StableHlo.after (hostOps1 (F := F)) V (Proc.devRef .tc main_arg1) = V (Proc.devRef .tc main_arg1) := by host_keeps hostOps1
theorem k1_arg2 (V : Valuation τ sig (Elt F)) :
    StableHlo.after (hostOps1 (F := F)) V (Proc.devRef .tc main_arg2) = V (Proc.devRef .tc main_arg2) := by host_keeps hostOps1
theorem k1_arg3 (V : Valuation τ sig (Elt F)) :
    StableHlo.after (hostOps1 (F := F)) V (Proc.devRef .tc main_arg3) = V (Proc.devRef .tc main_arg3) := by host_keeps hostOps1
theorem k1_arg4 (V : Valuation τ sig (Elt F)) :
    StableHlo.after (hostOps1 (F := F)) V (Proc.devRef .tc main_arg4) = V (Proc.devRef .tc main_arg4) := by host_keeps hostOps1
theorem k1_arg5 (V : Valuation τ sig (Elt F)) :
    StableHlo.after (hostOps1 (F := F)) V (Proc.devRef .tc main_arg5) = V (Proc.devRef .tc main_arg5) := by host_keeps hostOps1
theorem k1_arg6 (V : Valuation τ sig (Elt F)) :
    StableHlo.after (hostOps1 (F := F)) V (Proc.devRef .tc main_arg6) = V (Proc.devRef .tc main_arg6) := by host_keeps hostOps1
theorem k1_arg7 (V : Valuation τ sig (Elt F)) :
    StableHlo.after (hostOps1 (F := F)) V (Proc.devRef .tc main_arg7) = V (Proc.devRef .tc main_arg7) := by host_keeps hostOps1
theorem k1_arg8 (V : Valuation τ sig (Elt F)) :
    StableHlo.after (hostOps1 (F := F)) V (Proc.devRef .tc main_arg8) = V (Proc.devRef .tc main_arg8) := by host_keeps hostOps1

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  (k02_arg0 _).trans ((k01_arg0 _).trans ((k0_arg0 _).trans rfl))
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)
theorem W5_arg0 (c : Dev nD) : W5 m ρ c (Proc.devRef .tc main_arg0) = m ((c : Thread nD τ).loc main_arg0) :=
  (k1_arg0 _).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)

theorem W3_arg1 (c : Dev nD) : W3 m ρ c (Proc.devRef .tc main_arg1) = m ((c : Thread nD τ).loc main_arg1) :=
  (k02_arg1 _).trans ((k01_arg1 _).trans ((k0_arg1 _).trans rfl))
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (k1_arg1 _).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)

theorem W3_arg2 (c : Dev nD) : W3 m ρ c (Proc.devRef .tc main_arg2) = m ((c : Thread nD τ).loc main_arg2) :=
  (k02_arg2 _).trans ((k01_arg2 _).trans ((k0_arg2 _).trans rfl))
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (k1_arg2 _).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)

theorem W3_arg3 (c : Dev nD) : W3 m ρ c (Proc.devRef .tc main_arg3) = m ((c : Thread nD τ).loc main_arg3) :=
  (k02_arg3 _).trans ((k01_arg3 _).trans ((k0_arg3 _).trans rfl))
theorem W4_arg3 (c : Dev nD) : W4 m ρ c (Proc.devRef .tc main_arg3) = m ((c : Thread nD τ).loc main_arg3) :=
  ((W4_arr m ρ c 1).trans (((dat0 (V3 m ρ) c).arrAt_in 1 rfl _).trans (A_eq0 (V3 m ρ) c 1))).trans (W3_arg3 m ρ c)
theorem W5_arg3 (c : Dev nD) : W5 m ρ c (Proc.devRef .tc main_arg3) = m ((c : Thread nD τ).loc main_arg3) :=
  (k1_arg3 _).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)

theorem W3_arg4 (c : Dev nD) : W3 m ρ c (Proc.devRef .tc main_arg4) = m ((c : Thread nD τ).loc main_arg4) :=
  (k02_arg4 _).trans ((k01_arg4 _).trans ((k0_arg4 _).trans rfl))
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (k1_arg4 _).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)

theorem W3_arg5 (c : Dev nD) : W3 m ρ c (Proc.devRef .tc main_arg5) = m ((c : Thread nD τ).loc main_arg5) :=
  (k02_arg5 _).trans ((k01_arg5 _).trans ((k0_arg5 _).trans rfl))
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (k1_arg5 _).trans (W4_arg5 m ρ c)
theorem W6_arg5 (c : Dev nD) : W6 m ρ c (Proc.devRef .tc main_arg5) = m ((c : Thread nD τ).loc main_arg5) :=
  ((W6_arr m ρ c 1).trans (((dat1 (V5 m ρ) c).arrAt_in 1 rfl _).trans (A_eq1 (V5 m ρ) c 1))).trans (W5_arg5 m ρ c)

theorem W3_arg6 (c : Dev nD) : W3 m ρ c (Proc.devRef .tc main_arg6) = m ((c : Thread nD τ).loc main_arg6) :=
  (k02_arg6 _).trans ((k01_arg6 _).trans ((k0_arg6 _).trans rfl))
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (k1_arg6 _).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)

theorem W3_arg7 (c : Dev nD) : W3 m ρ c (Proc.devRef .tc main_arg7) = m ((c : Thread nD τ).loc main_arg7) :=
  (k02_arg7 _).trans ((k01_arg7 _).trans ((k0_arg7 _).trans rfl))
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (k1_arg7 _).trans (W4_arg7 m ρ c)
theorem W6_arg7 (c : Dev nD) : W6 m ρ c (Proc.devRef .tc main_arg7) = m ((c : Thread nD τ).loc main_arg7) :=
  ((W6_arr m ρ c 3).trans (((dat1 (V5 m ρ) c).arrAt_in 3 rfl _).trans (A_eq1 (V5 m ρ) c 3))).trans (W5_arg7 m ρ c)

theorem W3_arg8 (c : Dev nD) : W3 m ρ c (Proc.devRef .tc main_arg8) = m ((c : Thread nD τ).loc main_arg8) :=
  (k02_arg8 _).trans ((k01_arg8 _).trans ((k0_arg8 _).trans rfl))
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (k1_arg8 _).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)

/-- The frame: from any launch memory with zero counters, every weakly fair execution of @main on the TensorCores
    terminates, nothing faults, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W6_arg0 m ρ c),
    (h c _ (mem_uc main_arg1 (by decide))).trans (W6_arg1 m ρ c),
    (h c _ (mem_uc main_arg2 (by decide))).trans (W6_arg2 m ρ c),
    (h c _ (mem_uc main_arg3 (by decide))).trans (W6_arg3 m ρ c),
    (h c _ (mem_uc main_arg4 (by decide))).trans (W6_arg4 m ρ c),
    (h c _ (mem_uc main_arg5 (by decide))).trans (W6_arg5 m ρ c),
    (h c _ (mem_uc main_arg6 (by decide))).trans (W6_arg6 m ρ c),
    (h c _ (mem_uc main_arg7 (by decide))).trans (W6_arg7 m ρ c),
    (h c _ (mem_uc main_arg8 (by decide))).trans (W6_arg8 m ρ c)⟩) (run_all m ρ)

end Cert.KernelIdeal.Hand

end
-- ==== Proof.ChainI.lean ====
import proofs.«108862_j74397423501440_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- An edge-index vector, its negative entries wrapped round by the node count, as a column of start indices. -/
def idxCol (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- One propagation: the rows of `t` gathered at the edges' source nodes, each scaled by its edge's normalised weight,
    scatter-added at the edges' target nodes into zeros. -/
def propG (t : (⟨S50000x48, .f32⟩ : BufTy).Contents (Elt F)) (src dst : (⟨S1600000, .i32⟩ : BufTy).Contents (Elt F)) (nrm : (⟨S1600000, .f32⟩ : BufTy).Contents (Elt F)) : (⟨S50000x48, .f32⟩ : BufTy).Contents (Elt F) :=
  Host.scatterAdd scatter_S50000x48_S1600000x1_S1600000x48_1_0_0_1
    (broadcastInDim S50000x48 ![] bcast_S_S50000x48 (constant S_ .f32 0x00000000#32))
    (broadcastInDim S1600000x1 ![0] bcast_S1600000_S1600000x1_0 dst)
    (mulf (Host.gather gather_S50000x48_S1600000x1_S1600000x48_1_0_n_n_0_1_148 t (idxCol src))
      (broadcastInDim S1600000x48 ![0, 1] bcast_S1600000x1_S1600000x48_0_1 (broadcastInDim S1600000x1 ![0] bcast_S1600000_S1600000x1_0 nrm)))

/-- One step of the Chebyshev recurrence: twice the propagation of `a`, minus `b`. -/
def stepG (a b : (⟨S50000x48, .f32⟩ : BufTy).Contents (Elt F)) (src dst : (⟨S1600000, .i32⟩ : BufTy).Contents (Elt F)) (nrm : (⟨S1600000, .f32⟩ : BufTy).Contents (Elt F)) : (⟨S50000x48, .f32⟩ : BufTy).Contents (Elt F) :=
  subf (mulf (broadcastInDim S50000x48 ![] bcast_S_S50000x48 (constant S_ .f32 0x40000000#32)) (propG a src dst nrm)) b

/-- The Chebyshev terms from the first one. -/
def T1 (t : (⟨S50000x48, .f32⟩ : BufTy).Contents (Elt F)) (src dst : (⟨S1600000, .i32⟩ : BufTy).Contents (Elt F)) (nrm : (⟨S1600000, .f32⟩ : BufTy).Contents (Elt F)) := propG t src dst nrm
def T2 (t : (⟨S50000x48, .f32⟩ : BufTy).Contents (Elt F)) (src dst : (⟨S1600000, .i32⟩ : BufTy).Contents (Elt F)) (nrm : (⟨S1600000, .f32⟩ : BufTy).Contents (Elt F)) := stepG (T1 t src dst nrm) t src dst nrm
def T3 (t : (⟨S50000x48, .f32⟩ : BufTy).Contents (Elt F)) (src dst : (⟨S1600000, .i32⟩ : BufTy).Contents (Elt F)) (nrm : (⟨S1600000, .f32⟩ : BufTy).Contents (Elt F)) := stepG (T2 t src dst nrm) (T1 t src dst nrm) src dst nrm
def T4 (t : (⟨S50000x48, .f32⟩ : BufTy).Contents (Elt F)) (src dst : (⟨S1600000, .i32⟩ : BufTy).Contents (Elt F)) (nrm : (⟨S1600000, .f32⟩ : BufTy).Contents (Elt F)) := stepG (T3 t src dst nrm) (T2 t src dst nrm) src dst nrm
def T5 (t : (⟨S50000x48, .f32⟩ : BufTy).Contents (Elt F)) (src dst : (⟨S1600000, .i32⟩ : BufTy).Contents (Elt F)) (nrm : (⟨S1600000, .f32⟩ : BufTy).Contents (Elt F)) := stepG (T4 t src dst nrm) (T3 t src dst nrm) src dst nrm
def T6 (t : (⟨S50000x48, .f32⟩ : BufTy).Contents (Elt F)) (src dst : (⟨S1600000, .i32⟩ : BufTy).Contents (Elt F)) (nrm : (⟨S1600000, .f32⟩ : BufTy).Contents (Elt F)) := stepG (T5 t src dst nrm) (T4 t src dst nrm) src dst nrm

/-- Seven `[N, 48]` arrays stacked along a new leading axis. -/
def stackG (u0 u1 u2 u3 u4 u5 u6 : (⟨S50000x48, .f32⟩ : BufTy).Contents (Elt F)) : (⟨S7x50000x48, .f32⟩ : BufTy).Contents (Elt F) :=
  concatenate S7x50000x48 0 [⟨S1x50000x48, broadcastInDim S1x50000x48 ![1, 2] bcast_S50000x48_S1x50000x48_1_2 u0⟩, ⟨S1x50000x48, broadcastInDim S1x50000x48 ![1, 2] bcast_S50000x48_S1x50000x48_1_2 u1⟩, ⟨S1x50000x48, broadcastInDim S1x50000x48 ![1, 2] bcast_S50000x48_S1x50000x48_1_2 u2⟩, ⟨S1x50000x48, broadcastInDim S1x50000x48 ![1, 2] bcast_S50000x48_S1x50000x48_1_2 u3⟩, ⟨S1x50000x48, broadcastInDim S1x50000x48 ![1, 2] bcast_S50000x48_S1x50000x48_1_2 u4⟩, ⟨S1x50000x48, broadcastInDim S1x50000x48 ![1, 2] bcast_S50000x48_S1x50000x48_1_2 u5⟩, ⟨S1x50000x48, broadcastInDim S1x50000x48 ![1, 2] bcast_S50000x48_S1x50000x48_1_2 u6⟩]
    concatenates_S1x50000x48_S1x50000x48_S1x50000x48_S1x50000x48_S1x50000x48_S1x50000x48_S1x50000x48_S7x50000x48_d0

/-! # The long host stretch, read back

From any contents `A` of the buffers, the stretch leaves each Chebyshev term at its function of four buffers it does not
write — the first term, the two edge-index vectors, the normalised weights —, and the stack, the two reshaped bias rows at
theirs. -/

set_option maxHeartbeats 8000000
set_option maxRecDepth 65536

variable (A : Valuation τ sig (Elt F))

theorem after1_T1 : after (hostOps1 (F := F)) A (Proc.devRef .tc main_v42) = T1 (A (Proc.devRef .tc main_v29)) (A (Proc.devRef .tc main_v1)) (A (Proc.devRef .tc main_v3)) (A (Proc.devRef .tc main_v27)) := by
  after_results_simp <;> rfl
theorem after1_T2 : after (hostOps1 (F := F)) A (Proc.devRef .tc main_v58) = T2 (A (Proc.devRef .tc main_v29)) (A (Proc.devRef .tc main_v1)) (A (Proc.devRef .tc main_v3)) (A (Proc.devRef .tc main_v27)) := by
  after_results_simp <;> rfl
theorem after1_T3 : after (hostOps1 (F := F)) A (Proc.devRef .tc main_v74) = T3 (A (Proc.devRef .tc main_v29)) (A (Proc.devRef .tc main_v1)) (A (Proc.devRef .tc main_v3)) (A (Proc.devRef .tc main_v27)) := by
  after_results_simp <;> rfl
theorem after1_T4 : after (hostOps1 (F := F)) A (Proc.devRef .tc main_v90) = T4 (A (Proc.devRef .tc main_v29)) (A (Proc.devRef .tc main_v1)) (A (Proc.devRef .tc main_v3)) (A (Proc.devRef .tc main_v27)) := by
  after_results_simp <;> rfl
theorem after1_T5 : after (hostOps1 (F := F)) A (Proc.devRef .tc main_v106) = T5 (A (Proc.devRef .tc main_v29)) (A (Proc.devRef .tc main_v1)) (A (Proc.devRef .tc main_v3)) (A (Proc.devRef .tc main_v27)) := by
  after_results_simp <;> rfl
theorem after1_T6 : after (hostOps1 (F := F)) A (Proc.devRef .tc main_v122) = T6 (A (Proc.devRef .tc main_v29)) (A (Proc.devRef .tc main_v1)) (A (Proc.devRef .tc main_v3)) (A (Proc.devRef .tc main_v27)) := by
  after_results_simp <;> rfl
theorem after1_xf : after (hostOps1 (F := F)) A (Proc.devRef .tc main_v29) = A (Proc.devRef .tc main_v29) := by
  after_results_simp <;> rfl
theorem after1_bc : after (hostOps1 (F := F)) A (Proc.devRef .tc main_v131) = (fun i => shapeCast S1x48 (A (Proc.devRef .tc main_arg6)) shapeCasts_S48_S1x48 i) := by
  after_results_simp <;> rfl
theorem after1_bo : after (hostOps1 (F := F)) A (Proc.devRef .tc main_v132) = (fun i => shapeCast S1x64 (A (Proc.devRef .tc main_arg8)) shapeCasts_S64_S1x64 i) := by
  after_results_simp <;> rfl

end Cert.KernelIdeal.Hand

end
-- ==== Proof.StackI.lean ====
import proofs.«108862_j74397423501440_1_alg».proof.Proof.ChainI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-! # The stacked Chebyshev terms, read back from the long host stretch -/

section
variable {nD' : Nat} {τ' : Topo} {sig' : RefSig} {Val : EltTy → Type}

/-- A seven-operand operation's result with each operand's contents at its own buffer (the seven operands listed, not
    indexed by a bound variable), so that each can be read further back. -/
theorem nary7_result' {x0 x1 x2 x3 x4 x5 x6 y : Ref sig' .tc}
    (f : ((k : Fin 7) → ((![x0, x1, x2, x3, x4, x5, x6] : Fin 7 → Ref sig' .tc) k).ty.Contents Val) → y.ty.Contents Val) (hxs hy)
    (G : Valuation τ' sig' Val) :
    (nary (τ := τ') ![x0, x1, x2, x3, x4, x5, x6] y f hxs hy).result G (no_index (Proc.devRef .tc y))
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (fun i => i.elim0)))))))) := by
  rw [nary_result]; congr 1; funext k; fin_cases k <;> rfl
end

set_option maxHeartbeats 8000000
set_option maxRecDepth 65536

variable (A : Valuation τ sig (Elt F))

/-- The stack the combining call reads: the seven terms, the first as the stretch finds it. -/
theorem after1_stack : after (hostOps1 (F := F)) A (Proc.devRef .tc main_v130)
    = stackG (A (Proc.devRef .tc main_v29))
        (T1 (A (Proc.devRef .tc main_v29)) (A (Proc.devRef .tc main_v1)) (A (Proc.devRef .tc main_v3)) (A (Proc.devRef .tc main_v27)))
        (T2 (A (Proc.devRef .tc main_v29)) (A (Proc.devRef .tc main_v1)) (A (Proc.devRef .tc main_v3)) (A (Proc.devRef .tc main_v27)))
        (T3 (A (Proc.devRef .tc main_v29)) (A (Proc.devRef .tc main_v1)) (A (Proc.devRef .tc main_v3)) (A (Proc.devRef .tc main_v27)))
        (T4 (A (Proc.devRef .tc main_v29)) (A (Proc.devRef .tc main_v1)) (A (Proc.devRef .tc main_v3)) (A (Proc.devRef .tc main_v27)))
        (T5 (A (Proc.devRef .tc main_v29)) (A (Proc.devRef .tc main_v1)) (A (Proc.devRef .tc main_v3)) (A (Proc.devRef .tc main_v27)))
        (T6 (A (Proc.devRef .tc main_v29)) (A (Proc.devRef .tc main_v1)) (A (Proc.devRef .tc main_v3)) (A (Proc.devRef .tc main_v27))) := by
  simp (disch := decide) only [after_cons, after_nil,
      nullary_result', unary_result', binary_result', ternary_result', quaternary_result', reshape_result', nary7_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Hand

end
-- ==== Proof.StackReadI.lean ====
import proofs.«108862_j74397423501440_1_alg».proof.Proof.ChainI
import Idealize.ShloMosaic.Lib.Pipeline.Value
import Idealize.ShloMosaic.Lib.ValueIdx

noncomputable section

/-! # The stack of the seven Chebyshev terms, read at an index

Seven `[N, 48]` arrays, each given a leading unit axis and laid end to end along it: entry `(k, n, e)` of the stack is entry
`(n, e)` of the `k`-th array. -/

namespace Cert.KernelIdeal.Hand

open Cert.KernelIdeal Cert.KernelIdeal.Gen Idealize.ShloMosaic Idealize.ShloMosaic.ValueIdx

/-- An `[N, 48]` array given a leading unit axis reads, at `(0, n, e)`, its entry `(n, e)`. -/
theorem lift_row_apply {F : FTy → Type} [FloatOps F] (x : (⟨S50000x48, .f32⟩ : BufTy).Contents (Elt F)) (n : Fin 50000) (e : Fin 48) :
    broadcastInDim S1x50000x48 ![1, 2] bcast_S50000x48_S1x50000x48_1_2 x (ix3 (0 : Fin 1) n e) = x (ix2 n e) :=
  broadcastInDim_apply _ _ x _ _ fun a => by
    match a with
    | ⟨0, _⟩ => show n.val = if (50000 : ℕ) = 1 then 0 else n.val; rfl
    | ⟨1, _⟩ => show e.val = if (48 : ℕ) = 1 then 0 else e.val; rfl

/-- The stack of seven `[N, 48]` arrays reads, at `(k, n, e)`, the `k`-th array's entry `(n, e)`. -/
theorem stack_apply {F : FTy → Type} [FloatOps F] (u : Fin 7 → (⟨S50000x48, .f32⟩ : BufTy).Contents (Elt F)) (k : Fin 7) (n : Fin 50000) (e : Fin 48) :
    stackG (u 0) (u 1) (u 2) (u 3) (u 4) (u 5) (u 6) (ix3 k n e) = u k (ix2 n e) := by
  unfold stackG
  match k with
  | ⟨0, _⟩ =>
    exact (concatenate_apply_piece (0 : Fin S7x50000x48.rank) _ _ (ix3 (⟨0, by omega⟩ : Fin 7) n e) 0 (by simp) S1x50000x48 _ rfl rfl 0 rfl
      (ix3 (0 : Fin 1) n e) (fun b hb => by
        match b with
        | ⟨0, _⟩ => exact absurd rfl hb
        | ⟨1, _⟩ => rfl
        | ⟨2, _⟩ => rfl) rfl).trans (lift_row_apply (u 0) n e)
  | ⟨1, _⟩ =>
    exact (concatenate_apply_piece (0 : Fin S7x50000x48.rank) _ _ (ix3 (⟨1, by omega⟩ : Fin 7) n e) 1 (by simp) S1x50000x48 _ rfl rfl 1 rfl
      (ix3 (0 : Fin 1) n e) (fun b hb => by
        match b with
        | ⟨0, _⟩ => exact absurd rfl hb
        | ⟨1, _⟩ => rfl
        | ⟨2, _⟩ => rfl) rfl).trans (lift_row_apply (u 1) n e)
  | ⟨2, _⟩ =>
    exact (concatenate_apply_piece (0 : Fin S7x50000x48.rank) _ _ (ix3 (⟨2, by omega⟩ : Fin 7) n e) 2 (by simp) S1x50000x48 _ rfl rfl 2 rfl
      (ix3 (0 : Fin 1) n e) (fun b hb => by
        match b with
        | ⟨0, _⟩ => exact absurd rfl hb
        | ⟨1, _⟩ => rfl
        | ⟨2, _⟩ => rfl) rfl).trans (lift_row_apply (u 2) n e)
  | ⟨3, _⟩ =>
    exact (concatenate_apply_piece (0 : Fin S7x50000x48.rank) _ _ (ix3 (⟨3, by omega⟩ : Fin 7) n e) 3 (by simp) S1x50000x48 _ rfl rfl 3 rfl
      (ix3 (0 : Fin 1) n e) (fun b hb => by
        match b with
        | ⟨0, _⟩ => exact absurd rfl hb
        | ⟨1, _⟩ => rfl
        | ⟨2, _⟩ => rfl) rfl).trans (lift_row_apply (u 3) n e)
  | ⟨4, _⟩ =>
    exact (concatenate_apply_piece (0 : Fin S7x50000x48.rank) _ _ (ix3 (⟨4, by omega⟩ : Fin 7) n e) 4 (by simp) S1x50000x48 _ rfl rfl 4 rfl
      (ix3 (0 : Fin 1) n e) (fun b hb => by
        match b with
        | ⟨0, _⟩ => exact absurd rfl hb
        | ⟨1, _⟩ => rfl
        | ⟨2, _⟩ => rfl) rfl).trans (lift_row_apply (u 4) n e)
  | ⟨5, _⟩ =>
    exact (concatenate_apply_piece (0 : Fin S7x50000x48.rank) _ _ (ix3 (⟨5, by omega⟩ : Fin 7) n e) 5 (by simp) S1x50000x48 _ rfl rfl 5 rfl
      (ix3 (0 : Fin 1) n e) (fun b hb => by
        match b with
        | ⟨0, _⟩ => exact absurd rfl hb
        | ⟨1, _⟩ => rfl
        | ⟨2, _⟩ => rfl) rfl).trans (lift_row_apply (u 5) n e)
  | ⟨6, _⟩ =>
    exact (concatenate_apply_piece (0 : Fin S7x50000x48.rank) _ _ (ix3 (⟨6, by omega⟩ : Fin 7) n e) 6 (by simp) S1x50000x48 _ rfl rfl 6 rfl
      (ix3 (0 : Fin 1) n e) (fun b hb => by
        match b with
        | ⟨0, _⟩ => exact absurd rfl hb
        | ⟨1, _⟩ => rfl
        | ⟨2, _⟩ => rfl) rfl).trans (lift_row_apply (u 6) n e)

end Cert.KernelIdeal.Hand

end
-- ==== Proof.TilesI.lean ====
import proofs.«108862_j74397423501440_1_alg».proof.Proof.EmbedCallI
import proofs.«108862_j74397423501440_1_alg».proof.Proof.CombineCallI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! # From tiles to arrays

Both calls tile the node axis in ten tiles of 5000 rows: node `n` lies in tile `n / 5000` at row `n % 5000`, and the
tile's write-back is the body's stored value of that tile's input blocks. So each output array, after the call, holds at
`(n, j)` the body's value of tile `n / 5000`'s blocks at `(n % 5000, j)`. -/

theorem hz2 : (![0, 0] : Fin 2 → Nat) = fun _ => 0 := funext fun a => by fin_cases a <;> rfl

/-- The tile a node lies in, as a grid point of the embedding call, -/
def pt0 (n : Fin 50000) : Fin cfg0.N := ⟨n.val / 5000, by have := n.isLt; show n.val / 5000 < 10; omega⟩
/-- of the combining call, -/
def pt1 (n : Fin 50000) : Fin cfg1.N := ⟨n.val / 5000, by have := n.isLt; show n.val / 5000 < 10; omega⟩
/-- and its row inside the tile. -/
def rowIn (n : Fin 50000) : Fin 5000 := ⟨n.val % 5000, Nat.mod_lt _ (by decide)⟩

/-! ## The embedding call's output -/

/-- The embedding call's output array as one function of the index: the body's value of the node's tile at the node's row. -/
def G0 (c : Dev nD) : S50000x48.Idx → Elt F .f32 := fun i =>
  k0_pay1 (iblk0 V c 0 (pt0 ⟨(i 0).val, idx2_lt0 i⟩)) (iblk0 V c 1 (pt0 ⟨(i 0).val, idx2_lt0 i⟩)) (iblk0 V c 2 (pt0 ⟨(i 0).val, idx2_lt0 i⟩))
    (ix2 (rowIn ⟨(i 0).val, idx2_lt0 i⟩) (⟨(i 1).val, idx2_lt1 i⟩ : Fin 48))

/-- `G0` at a node of tile `t`, row `r`. -/
theorem G0_at (c : Dev nD) (t : Fin cfg0.N) (r : Fin 5000) (e : Fin 48) (n : Fin 50000) (hn : n.val = t.val * 5000 + r.val) :
    G0 V c (ix2 n e) = k0_pay1 (iblk0 V c 0 t) (iblk0 V c 1 t) (iblk0 V c 2 t) (ix2 r e) := by
  have hp : pt0 n = t := Fin.ext (by show n.val / 5000 = t.val; have := r.isLt; omega)
  have hr : rowIn n = r := Fin.ext (by show n.val % 5000 = r.val; have := r.isLt; omega)
  subst hp; subst hr; rfl

/-- The output window's block index at a point is the point itself on the node axis and zero on the other. -/
theorem out_index0 : ∀ t : Fin cfg0.N, win0_3.index t (0 : Fin 2) = t.val ∧ win0_3.index t (1 : Fin 2) = 0 :=
  (by decide +kernel : ∀ t : Fin grid0.N, _)

/-- What point `t` writes back is block `t` of `G0`. -/
theorem flushed0 (c : Dev nD) (t : Fin cfg0.N) :
    (dat0 V c).flushed 3 t = ((cfg0.win 3).blk t).view.read (Elt F) (G0 V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x48) hz2, View.ld_unit_zero (S := S1x48) hz2]
  obtain ⟨e0, e1⟩ := out_index0 t
  funext j
  obtain ⟨r, e, rfl⟩ : ∃ (r : Fin 5000) (e : Fin 48), j = ix2 r e := ⟨j 0, j 1, eq_ix2 j⟩
  have ht : t.val < 10 := t.isLt
  have hemb : ((cfg0.win 3).blk t).view.emb (ix2 r e) = ix2 (⟨t.val * 5000 + r.val, by have := r.isLt; omega⟩ : Fin 50000) e := by
    funext a; apply Fin.ext
    match a with
    | ⟨0, _⟩ => show win0_3.index t (0 : Fin 2) * 5000 + 1 * r.val = t.val * 5000 + r.val; omega
    | ⟨1, _⟩ => show win0_3.index t (1 : Fin 2) * 48 + 1 * e.val = e.val; omega
  show _ = G0 V c (((cfg0.win 3).blk t).view.emb (ix2 r e))
  rw [hemb]
  exact (G0_at V c t r e _ rfl).symm

/-- An index of the output array is in point `t`'s block iff each coordinate is in the block's range on its axis. -/
theorem mem_blk0 (t : Fin cfg0.N) (i : S50000x48.Idx) :
    i ∈ ((cfg0.win 3).blk t).view.set ↔ ∀ a : Fin 2, win0_3.index t a * S5000x48.size a ≤ (i a).val ∧ (i a).val < win0_3.index t a * S5000x48.size a + S5000x48.size a := by
  show i ∈ ((View.whole main_v29).slice (win0_3.rect t)).set ↔ _
  rw [View.set_slice_whole, Rect.mem_set_unit]
  exact Iff.rfl

/-- Every index of the output array is in its node's tile. -/
theorem cover0 (i : S50000x48.Idx) : ∃ t : Fin cfg0.N, (cfg0.win 3).flush t = true ∧ i ∈ ((cfg0.win 3).blk t).view.set := by
  have hi0 : (i 0).val < 50000 := idx2_lt0 i
  have hi1 : (i 1).val < 48 := idx2_lt1 i
  refine ⟨pt0 ⟨(i 0).val, hi0⟩, flush0_3 _, ?_⟩
  rw [mem_blk0]
  obtain ⟨e0, e1⟩ := out_index0 (pt0 ⟨(i 0).val, hi0⟩)
  have hv : (pt0 ⟨(i 0).val, hi0⟩).val = (i 0).val / 5000 := rfl
  intro a
  match a with
  | ⟨0, _⟩ => show win0_3.index _ (0 : Fin 2) * 5000 ≤ (i 0).val ∧ (i 0).val < win0_3.index _ (0 : Fin 2) * 5000 + 5000; omega
  | ⟨1, _⟩ => show win0_3.index _ (1 : Fin 2) * 48 ≤ (i 1).val ∧ (i 1).val < win0_3.index _ (1 : Fin 2) * 48 + 48; omega

/-- The embedding call's output array after the call. -/
theorem final0 (c : Dev nD) : (dat0 V c).arrAt 3 cfg0.N = G0 V c :=
  (dat0 V c).arrAt_eq_of_cover 3 (G0 V c) (fun t _ => flushed0 V c t) cover0

/-! ## The combining call's output -/

/-- The combining call's output array as one function of the index. -/
def G1 (c : Dev nD) : S50000x64.Idx → Elt F .f32 := fun i =>
  pay1 (iblk1 V c 0 (pt1 ⟨(i 0).val, idx2_lt0 i⟩)) (iblk1 V c 1 (pt1 ⟨(i 0).val, idx2_lt0 i⟩)) (iblk1 V c 2 (pt1 ⟨(i 0).val, idx2_lt0 i⟩))
    (iblk1 V c 3 (pt1 ⟨(i 0).val, idx2_lt0 i⟩)) (iblk1 V c 4 (pt1 ⟨(i 0).val, idx2_lt0 i⟩))
    (ix2 (rowIn ⟨(i 0).val, idx2_lt0 i⟩) (⟨(i 1).val, idx2_lt1 i⟩ : Fin 64))

theorem G1_at (c : Dev nD) (t : Fin cfg1.N) (r : Fin 5000) (o : Fin 64) (n : Fin 50000) (hn : n.val = t.val * 5000 + r.val) :
    G1 V c (ix2 n o) = pay1 (iblk1 V c 0 t) (iblk1 V c 1 t) (iblk1 V c 2 t) (iblk1 V c 3 t) (iblk1 V c 4 t) (ix2 r o) := by
  have hp : pt1 n = t := Fin.ext (by show n.val / 5000 = t.val; have := r.isLt; omega)
  have hr : rowIn n = r := Fin.ext (by show n.val % 5000 = r.val; have := r.isLt; omega)
  subst hp; subst hr; rfl

theorem out_index1 : ∀ t : Fin cfg1.N, win1_5.index t (0 : Fin 2) = t.val ∧ win1_5.index t (1 : Fin 2) = 0 :=
  (by decide +kernel : ∀ t : Fin grid1.N, _)

/-- What point `t` writes back is block `t` of `G1`. -/
theorem flushed1 (c : Dev nD) (t : Fin cfg1.N) :
    (dat1 V c).flushed 5 t = ((cfg1.win 5).blk t).view.read (Elt F) (G1 V c) := by
  show (cfg1.win 5).cut (grid1.coords t) ((dat1 V c).after 5 t) = _
  rw [after1_5]
  unfold out1_5
  rw [View.canon_unit_zero hz2]
  obtain ⟨e0, e1⟩ := out_index1 t
  funext j
  obtain ⟨r, o, rfl⟩ : ∃ (r : Fin 5000) (o : Fin 64), j = ix2 r o := ⟨j 0, j 1, eq_ix2 j⟩
  have ht : t.val < 10 := t.isLt
  have hemb : ((cfg1.win 5).blk t).view.emb (ix2 r o) = ix2 (⟨t.val * 5000 + r.val, by have := r.isLt; omega⟩ : Fin 50000) o := by
    funext a; apply Fin.ext
    match a with
    | ⟨0, _⟩ => show win1_5.index t (0 : Fin 2) * 5000 + 1 * r.val = t.val * 5000 + r.val; omega
    | ⟨1, _⟩ => show win1_5.index t (1 : Fin 2) * 64 + 1 * o.val = o.val; omega
  show _ = G1 V c (((cfg1.win 5).blk t).view.emb (ix2 r o))
  rw [hemb]
  exact (G1_at V c t r o _ rfl).symm

theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v133).slice (win1_5.rect t)).set ↔ _
  rw [View.set_slice_whole, Rect.mem_set_unit]
  exact Iff.rfl

theorem cover1 (i : S50000x64.Idx) : ∃ t : Fin cfg1.N, (cfg1.win 5).flush t = true ∧ i ∈ ((cfg1.win 5).blk t).view.set := by
  have hi0 : (i 0).val < 50000 := idx2_lt0 i
  have hi1 : (i 1).val < 64 := idx2_lt1 i
  refine ⟨pt1 ⟨(i 0).val, hi0⟩, flush1_5 _, ?_⟩
  rw [mem_blk1]
  obtain ⟨e0, e1⟩ := out_index1 (pt1 ⟨(i 0).val, hi0⟩)
  have hv : (pt1 ⟨(i 0).val, hi0⟩).val = (i 0).val / 5000 := rfl
  intro a
  match a with
  | ⟨0, _⟩ => show win1_5.index _ (0 : Fin 2) * 5000 ≤ (i 0).val ∧ (i 0).val < win1_5.index _ (0 : Fin 2) * 5000 + 5000; omega
  | ⟨1, _⟩ => show win1_5.index _ (1 : Fin 2) * 64 ≤ (i 1).val ∧ (i 1).val < win1_5.index _ (1 : Fin 2) * 64 + 64; omega

/-- The combining call's output array after the call. -/
theorem final1 (c : Dev nD) : (dat1 V c).arrAt 5 cfg1.N = G1 V c :=
  (dat1 V c).arrAt_eq_of_cover 5 (G1 V c) (fun t _ => flushed1 V c t) cover1

end Cert.KernelIdeal.Hand

end
-- ==== Proof.Forms.lean ====
import Idealize.ShloMosaic.PureOps.Ideal
import Idealize.ShloMosaic.Lib.ValueIdx

noncomputable section

open scoped BigOperators

/-! # The two results as closed forms over the extended reals

`xf = relu(x · W_in + b_in)` and `y = relu(Σ_k T_k · W_cheb[k] + b_cheb) · W_out + b_out`, one entry at a time, the seven
products summed from the left in the order both programs add them. -/

namespace Cert.Forms

/-- Seven terms added from the left: `((((((d 0 + d 1) + d 2) + d 3) + d 4) + d 5) + d 6)`. -/
def acc7 (d : Fin 7 → EReal) : EReal := d 0 + d 1 + d 2 + d 3 + d 4 + d 5 + d 6

/-- Entry `(n, e)` of `relu(x · W + b)`: the row of `x` against the column of `W`, plus the bias entry, clamped at zero. -/
def embedAt {N : Nat} (x : Fin N → Fin 128 → EReal) (w : Fin 128 → Fin 48 → EReal) (b : Fin 48 → EReal)
    (n : Fin N) (e : Fin 48) : EReal :=
  max ((∑ k : Fin 128, x n k * w k e) + b e) 0

/-- Entry `(n, o)` of `relu(Σ_k T_k · Wc[k] + bc) · Wo + bo`. -/
def combineAt {N : Nat} (T : Fin 7 → Fin N → Fin 48 → EReal) (wc : Fin 7 → Fin 48 → Fin 48 → EReal) (bc : Fin 48 → EReal)
    (wo : Fin 48 → Fin 64 → EReal) (bo : Fin 64 → EReal) (n : Fin N) (o : Fin 64) : EReal :=
  (∑ h : Fin 48, max (acc7 (fun k => ∑ e : Fin 48, T k n e * wc k e h) + bc h) 0 * wo h o) + bo o

end Cert.Forms

end
-- ==== Proof.PayForms.lean ====
import proofs.«108862_j74397423501440_1_alg».proof.Proof.Gen.KernelIdeal.Skeleton
import proofs.«108862_j74397423501440_1_alg».proof.Proof.Forms
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-! # The two kernel bodies' arithmetic, one entry at a time

Each body is a composition of pointwise operations, matrix products into a zero accumulator, casts that drop a leading
unit axis and a bias row spread over the rows. Read at an index `(r, e)` every step is an equation between extended
reals; composed, the first body is `relu(x · W_in + b_in)` and the second `relu(Σ_k T_k · W_cheb[k] + b_cheb) · W_out + b_out`
with the seven products added from the left. -/

namespace Cert.PayForms

open Cert.KernelIdeal Cert.KernelIdeal.Gen Idealize.ShloMosaic Idealize.ShloMosaic.ValueIdx

/-- A product of a `[5000, 128]` by a `[128, 48]` matrix into a zero accumulator: entry `(r, h)` is the row of the first
against the column of the second. -/
theorem matmul_in_apply (a : FVec Ideal S5000x128 .bf16) (b : FVec Ideal S128x48 .bf16) (r : Fin 5000) (h : Fin 48) :
    matmul dot_S5000x128_S128x48_S5000x48_1_0_0_1_n_n none a b (constant (F := Ideal) S5000x48 .f32 0x00000000#32) (ix2 r h)
      = ∑ e : Fin 128, a (ix2 r e) * b (ix2 e h) := by
  refine (Ideal.matmul_constant_zero_apply dot_S5000x128_S128x48_S5000x48_1_0_0_1_n_n none a b (ix2 r h)).trans ?_
  rw [← Equiv.sum_comp (contrEquiv1 dot_S5000x128_S128x48_S5000x48_1_0_0_1_n_n 128 rfl rfl).symm]
  refine Finset.sum_congr rfl fun k _ => ?_
  have hk := contrEquiv1_symm_val dot_S5000x128_S128x48_S5000x48_1_0_0_1_n_n 128 rfl rfl k
  have el : dot_S5000x128_S128x48_S5000x48_1_0_0_1_n_n.lhsIdx (ix2 r h) ((contrEquiv1 dot_S5000x128_S128x48_S5000x48_1_0_0_1_n_n 128 rfl rfl).symm k) = ix2 r k :=
    funext fun x => Fin.ext (by
      match x with
      | ⟨0, _⟩ =>
        show (dot_S5000x128_S128x48_S5000x48_1_0_0_1_n_n.lhsIdx (ix2 r h) _ 0).val = r.val
        unfold DotDims.lhsIdx
        rw [dif_neg (show ¬(0 : Fin S5000x128.rank) ∈ dot_S5000x128_S128x48_S5000x48_1_0_0_1_n_n.lhsBatch by decide),
          dif_pos (show (0 : Fin S5000x128.rank) ∈ dot_S5000x128_S128x48_S5000x48_1_0_0_1_n_n.lhsNonContracting by decide)]
        rfl
      | ⟨1, _⟩ => exact (dot_S5000x128_S128x48_S5000x48_1_0_0_1_n_n.lhsIdx_val_of_single rfl (ix2 r h) _).trans hk)
  have er : dot_S5000x128_S128x48_S5000x48_1_0_0_1_n_n.rhsIdx (ix2 r h) ((contrEquiv1 dot_S5000x128_S128x48_S5000x48_1_0_0_1_n_n 128 rfl rfl).symm k) = ix2 k h :=
    funext fun x => Fin.ext (by
      match x with
      | ⟨0, _⟩ => exact (dot_S5000x128_S128x48_S5000x48_1_0_0_1_n_n.rhsIdx_val_of_single rfl (ix2 r h) _).trans hk
      | ⟨1, _⟩ =>
        show (dot_S5000x128_S128x48_S5000x48_1_0_0_1_n_n.rhsIdx (ix2 r h) _ 1).val = h.val
        unfold DotDims.rhsIdx
        rw [dif_neg (show ¬(1 : Fin S128x48.rank) ∈ dot_S5000x128_S128x48_S5000x48_1_0_0_1_n_n.rhsBatch by decide),
          dif_pos (show (1 : Fin S128x48.rank) ∈ dot_S5000x128_S128x48_S5000x48_1_0_0_1_n_n.rhsNonContracting by decide)]
        rfl)
  rw [el, er]

/-- A product of a `[5000, 48]` by a `[48, 48]` matrix into a zero accumulator: entry `(r, h)` is the row of the first
against the column of the second. -/
theorem matmul_mid_apply (a : FVec Ideal S5000x48 .bf16) (b : FVec Ideal S48x48 .bf16) (r : Fin 5000) (h : Fin 48) :
    matmul dot_S5000x48_S48x48_S5000x48_1_0_0_1_n_n none a b (constant (F := Ideal) S5000x48 .f32 0x00000000#32) (ix2 r h)
      = ∑ e : Fin 48, a (ix2 r e) * b (ix2 e h) := by
  refine (Ideal.matmul_constant_zero_apply dot_S5000x48_S48x48_S5000x48_1_0_0_1_n_n none a b (ix2 r h)).trans ?_
  rw [← Equiv.sum_comp (contrEquiv1 dot_S5000x48_S48x48_S5000x48_1_0_0_1_n_n 48 rfl rfl).symm]
  refine Finset.sum_congr rfl fun k _ => ?_
  have hk := contrEquiv1_symm_val dot_S5000x48_S48x48_S5000x48_1_0_0_1_n_n 48 rfl rfl k
  have el : dot_S5000x48_S48x48_S5000x48_1_0_0_1_n_n.lhsIdx (ix2 r h) ((contrEquiv1 dot_S5000x48_S48x48_S5000x48_1_0_0_1_n_n 48 rfl rfl).symm k) = ix2 r k :=
    funext fun x => Fin.ext (by
      match x with
      | ⟨0, _⟩ =>
        show (dot_S5000x48_S48x48_S5000x48_1_0_0_1_n_n.lhsIdx (ix2 r h) _ 0).val = r.val
        unfold DotDims.lhsIdx
        rw [dif_neg (show ¬(0 : Fin S5000x48.rank) ∈ dot_S5000x48_S48x48_S5000x48_1_0_0_1_n_n.lhsBatch by decide),
          dif_pos (show (0 : Fin S5000x48.rank) ∈ dot_S5000x48_S48x48_S5000x48_1_0_0_1_n_n.lhsNonContracting by decide)]
        rfl
      | ⟨1, _⟩ => exact (dot_S5000x48_S48x48_S5000x48_1_0_0_1_n_n.lhsIdx_val_of_single rfl (ix2 r h) _).trans hk)
  have er : dot_S5000x48_S48x48_S5000x48_1_0_0_1_n_n.rhsIdx (ix2 r h) ((contrEquiv1 dot_S5000x48_S48x48_S5000x48_1_0_0_1_n_n 48 rfl rfl).symm k) = ix2 k h :=
    funext fun x => Fin.ext (by
      match x with
      | ⟨0, _⟩ => exact (dot_S5000x48_S48x48_S5000x48_1_0_0_1_n_n.rhsIdx_val_of_single rfl (ix2 r h) _).trans hk
      | ⟨1, _⟩ =>
        show (dot_S5000x48_S48x48_S5000x48_1_0_0_1_n_n.rhsIdx (ix2 r h) _ 1).val = h.val
        unfold DotDims.rhsIdx
        rw [dif_neg (show ¬(1 : Fin S48x48.rank) ∈ dot_S5000x48_S48x48_S5000x48_1_0_0_1_n_n.rhsBatch by decide),
          dif_pos (show (1 : Fin S48x48.rank) ∈ dot_S5000x48_S48x48_S5000x48_1_0_0_1_n_n.rhsNonContracting by decide)]
        rfl)
  rw [el, er]

/-- A product of a `[5000, 48]` by a `[48, 64]` matrix into a zero accumulator: entry `(r, h)` is the row of the first
against the column of the second. -/
theorem matmul_out_apply (a : FVec Ideal S5000x48 .bf16) (b : FVec Ideal S48x64 .bf16) (r : Fin 5000) (h : Fin 64) :
    matmul dot_S5000x48_S48x64_S5000x64_1_0_0_1_n_n none a b (constant (F := Ideal) S5000x64 .f32 0x00000000#32) (ix2 r h)
      = ∑ e : Fin 48, a (ix2 r e) * b (ix2 e h) := by
  refine (Ideal.matmul_constant_zero_apply dot_S5000x48_S48x64_S5000x64_1_0_0_1_n_n none a b (ix2 r h)).trans ?_
  rw [← Equiv.sum_comp (contrEquiv1 dot_S5000x48_S48x64_S5000x64_1_0_0_1_n_n 48 rfl rfl).symm]
  refine Finset.sum_congr rfl fun k _ => ?_
  have hk := contrEquiv1_symm_val dot_S5000x48_S48x64_S5000x64_1_0_0_1_n_n 48 rfl rfl k
  have el : dot_S5000x48_S48x64_S5000x64_1_0_0_1_n_n.lhsIdx (ix2 r h) ((contrEquiv1 dot_S5000x48_S48x64_S5000x64_1_0_0_1_n_n 48 rfl rfl).symm k) = ix2 r k :=
    funext fun x => Fin.ext (by
      match x with
      | ⟨0, _⟩ =>
        show (dot_S5000x48_S48x64_S5000x64_1_0_0_1_n_n.lhsIdx (ix2 r h) _ 0).val = r.val
        unfold DotDims.lhsIdx
        rw [dif_neg (show ¬(0 : Fin S5000x48.rank) ∈ dot_S5000x48_S48x64_S5000x64_1_0_0_1_n_n.lhsBatch by decide),
          dif_pos (show (0 : Fin S5000x48.rank) ∈ dot_S5000x48_S48x64_S5000x64_1_0_0_1_n_n.lhsNonContracting by decide)]
        rfl
      | ⟨1, _⟩ => exact (dot_S5000x48_S48x64_S5000x64_1_0_0_1_n_n.lhsIdx_val_of_single rfl (ix2 r h) _).trans hk)
  have er : dot_S5000x48_S48x64_S5000x64_1_0_0_1_n_n.rhsIdx (ix2 r h) ((contrEquiv1 dot_S5000x48_S48x64_S5000x64_1_0_0_1_n_n 48 rfl rfl).symm k) = ix2 k h :=
    funext fun x => Fin.ext (by
      match x with
      | ⟨0, _⟩ => exact (dot_S5000x48_S48x64_S5000x64_1_0_0_1_n_n.rhsIdx_val_of_single rfl (ix2 r h) _).trans hk
      | ⟨1, _⟩ =>
        show (dot_S5000x48_S48x64_S5000x64_1_0_0_1_n_n.rhsIdx (ix2 r h) _ 1).val = h.val
        unfold DotDims.rhsIdx
        rw [dif_neg (show ¬(1 : Fin S48x64.rank) ∈ dot_S5000x48_S48x64_S5000x64_1_0_0_1_n_n.rhsBatch by decide),
          dif_pos (show (1 : Fin S48x64.rank) ∈ dot_S5000x48_S48x64_S5000x64_1_0_0_1_n_n.rhsNonContracting by decide)]
        rfl)
  rw [el, er]

/-- The scalar zero the kernels clamp against, at every entry. -/
theorem zero_splat_apply (s : Shape) (i : s.Idx) :
    broadcast s (Scalar.ofBits (F := Ideal) .f32 0x00000000#32) i = (0 : EReal) :=
  Ideal.ofBits_zero_f32

/-- A `[1, b]` row cast to its own shape and spread over `a` rows reads, at `(p, q)`, the row's entry `q`. -/
theorem bias48_apply (v : Vec Ideal S1x48 .f32) (p : Fin 5000) (q : Fin 48) :
    broadcastTo S5000x48 (shapeCast S1x48 v shapeCasts_S1x48_S1x48) broadcasts_S1x48_S5000x48 (ix2 p q) = v (ix2 0 q) :=
  (broadcastTo_1b_ab_apply _ broadcasts_S1x48_S5000x48 p q).trans (congrFun (shapeCast_self v shapeCasts_S1x48_S1x48) _)

/-- The same for a `[1, 64]` row over 5000 rows. -/
theorem bias64_apply (v : Vec Ideal S1x64 .f32) (p : Fin 5000) (q : Fin 64) :
    broadcastTo S5000x64 (shapeCast S1x64 v shapeCasts_S1x64_S1x64) broadcasts_S1x64_S5000x64 (ix2 p q) = v (ix2 0 q) :=
  (broadcastTo_1b_ab_apply _ broadcasts_S1x64_S5000x64 p q).trans (congrFun (shapeCast_self v shapeCasts_S1x64_S1x64) _)

/-- One Chebyshev term against its weight: row `r` of `T` against column `h` of `W`. -/
def prodAt (t : Vec Ideal S1x5000x48 .f32) (c : Vec Ideal S1x48x48 .f32) (r : Fin 5000) (h : Fin 48) : EReal :=
  ∑ e : Fin 48, t (ix3 0 r e) * c (ix3 0 e h)

/-- The product of a `[1, 5000, 48]` block by a `[1, 48, 48]` block, both read without their unit axis. -/
theorem term_apply (t : Vec Ideal S1x5000x48 .f32) (c : Vec Ideal S1x48x48 .f32) (r : Fin 5000) (h : Fin 48) :
    matmul dot_S5000x48_S48x48_S5000x48_1_0_0_1_n_n none
        (truncf .bf16 (shapeCast S5000x48 t shapeCasts_S1x5000x48_S5000x48) bitsLt_bf16_f32)
        (truncf .bf16 (shapeCast S48x48 c shapeCasts_S1x48x48_S48x48) bitsLt_bf16_f32)
        (constant (F := Ideal) S5000x48 .f32 0x00000000#32) (ix2 r h)
      = prodAt t c r h :=
  (matmul_mid_apply _ _ r h).trans (Finset.sum_congr rfl fun e _ =>
    congrArg₂ (· * ·) (shapeCast_1ab_ab_apply t shapeCasts_S1x5000x48_S5000x48 r e)
      (shapeCast_1ab_ab_apply c shapeCasts_S1x48x48_S48x48 e h))

/-- The accumulator after the first three terms, at `(r, h)`: zero plus the three products, added from the left. -/
theorem pay2_apply (t0 : Vec Ideal S1x5000x48 .f32) (c0 : Vec Ideal S1x48x48 .f32) (t1 : Vec Ideal S1x5000x48 .f32) (c1 : Vec Ideal S1x48x48 .f32)
    (t2 : Vec Ideal S1x5000x48 .f32) (c2 : Vec Ideal S1x48x48 .f32) (r : Fin 5000) (h : Fin 48) :
    k1_pay2 (F := Ideal) t0 c0 t1 c1 t2 c2 (ix2 r h) = 0 + prodAt t0 c0 r h + prodAt t1 c1 r h + prodAt t2 c2 r h := by
  unfold k1_pay2
  refine (addf_apply _ _ _).trans (congrArg₂ (· + ·) ?_ (term_apply t2 c2 r h))
  refine (addf_apply _ _ _).trans (congrArg₂ (· + ·) ?_ (term_apply t1 c1 r h))
  exact (addf_apply _ _ _).trans (congrArg₂ (· + ·) (zero_splat_apply _ _) (term_apply t0 c0 r h))

/-- The hidden layer at `(r, h)`: the accumulator so far plus the last four products, plus the bias entry, clamped at zero
(the narrowing to bf16 is the identity on extended reals). -/
theorem pay5_apply (v24 : FVec Ideal S5000x48 .f32) (t3 : Vec Ideal S1x5000x48 .f32) (c3 : Vec Ideal S1x48x48 .f32)
    (t4 : Vec Ideal S1x5000x48 .f32) (c4 : Vec Ideal S1x48x48 .f32) (t5 : Vec Ideal S1x5000x48 .f32) (c5 : Vec Ideal S1x48x48 .f32)
    (t6 : Vec Ideal S1x5000x48 .f32) (c6 : Vec Ideal S1x48x48 .f32) (bc : Vec Ideal S1x48 .f32) (r : Fin 5000) (h : Fin 48) :
    k1_pay5 (F := Ideal) v24 (k1_pay3 t3) (k1_pay4 c3) t4 c4 t5 c5 t6 c6 bc (ix2 r h)
      = max (v24 (ix2 r h) + prodAt t3 c3 r h + prodAt t4 c4 r h + prodAt t5 c5 r h + prodAt t6 c6 r h + bc (ix2 0 h)) 0 := by
  unfold k1_pay5 k1_pay3 k1_pay4
  refine (truncf_apply (ψ := .bf16) _ bitsLt_bf16_f32 _).trans ?_
  refine (maximumf_apply _ _ _).trans (congrArg₂ max ?_ (zero_splat_apply _ _))
  refine (addf_apply _ _ _).trans (congrArg₂ (· + ·) ?_ (bias48_apply bc r h))
  refine (addf_apply _ _ _).trans (congrArg₂ (· + ·) ?_ (term_apply t6 c6 r h))
  refine (addf_apply _ _ _).trans (congrArg₂ (· + ·) ?_ (term_apply t5 c5 r h))
  refine (addf_apply _ _ _).trans (congrArg₂ (· + ·) ?_ (term_apply t4 c4 r h))
  exact (addf_apply _ _ _).trans (congrArg₂ (· + ·) rfl (term_apply t3 c3 r h))

/-- The output layer at `(r, o)`: the hidden row against the column of the output weight, plus the output bias entry. -/
theorem pay1_apply (v63 : FVec Ideal S5000x48 .bf16) (wo : Vec Ideal S48x64 .f32) (bo : Vec Ideal S1x64 .f32) (r : Fin 5000) (o : Fin 64) :
    k1_pay1 (F := Ideal) v63 wo bo (ix2 r o) = (∑ h : Fin 48, v63 (ix2 r h) * wo (ix2 h o)) + bo (ix2 0 o) := by
  unfold k1_pay1
  refine (addf_apply _ _ _).trans ?_
  exact congrArg₂ (· + ·) (matmul_out_apply _ _ r o) (bias64_apply bo r o)

/-- Entry `(r, e)` of the first kernel's result is `relu(x · W + b)` at `(r, e)`. -/
theorem embed_pay_apply (v0 : Vec Ideal S5000x128 .f32) (v2 : Vec Ideal S128x48 .f32) (v5 : Vec Ideal S1x48 .f32) (r : Fin 5000) (e : Fin 48) :
    k0_pay1 (F := Ideal) v0 v2 v5 (ix2 r e)
      = Cert.Forms.embedAt (fun r k => v0 (ix2 r k)) (fun k e => v2 (ix2 k e)) (fun e => v5 (ix2 0 e)) r e := by
  unfold k0_pay1 Cert.Forms.embedAt
  refine (maximumf_apply _ _ _).trans (congrArg₂ max ?_ (zero_splat_apply _ _))
  exact (addf_apply _ _ _).trans (congrArg₂ (· + ·) (matmul_in_apply _ _ r e) (bias48_apply v5 r e))

/-- Entry `(r, o)` of the second kernel's result is `relu(Σ_k T_k · Wc[k] + bc) · Wo + bo` at `(r, o)`: the seven products are
added from the left onto a zero, which drops out. -/
theorem combine_pay_apply (t : Fin 7 → Vec Ideal S1x5000x48 .f32) (c : Fin 7 → Vec Ideal S1x48x48 .f32) (bc : Vec Ideal S1x48 .f32)
    (wo : Vec Ideal S48x64 .f32) (bo : Vec Ideal S1x64 .f32) (r : Fin 5000) (o : Fin 64) :
    k1_pay1 (F := Ideal) (k1_pay5 (k1_pay2 (t 0) (c 0) (t 1) (c 1) (t 2) (c 2)) (k1_pay3 (t 3)) (k1_pay4 (c 3)) (t 4) (c 4) (t 5) (c 5) (t 6) (c 6) bc) wo bo (ix2 r o)
      = Cert.Forms.combineAt (fun k r e => t k (ix3 0 r e)) (fun k e h => c k (ix3 0 e h)) (fun h => bc (ix2 0 h))
          (fun h o => wo (ix2 h o)) (fun o => bo (ix2 0 o)) r o := by
  refine (pay1_apply _ wo bo r o).trans ?_
  unfold Cert.Forms.combineAt
  refine congrArg (· + bo (ix2 0 o)) (Finset.sum_congr rfl fun h _ => congrArg (· * wo (ix2 h o)) ?_)
  refine (pay5_apply _ (t 3) (c 3) (t 4) (c 4) (t 5) (c 5) (t 6) (c 6) bc r h).trans ?_
  rw [pay2_apply, zero_add]
  rfl

end Cert.PayForms

end
-- ==== Proof.TileFormsI.lean ====
import proofs.«108862_j74397423501440_1_alg».proof.Proof.TilesI
import proofs.«108862_j74397423501440_1_alg».proof.Proof.PayForms

set_option maxRecDepth 16384

noncomputable section

open scoped BigOperators

/-! # The two calls' outputs as closed forms of the arrays they read

Each call tiles the node axis in ten tiles of 5000 rows. A tile's block of an array read at a row is the array read at
`tile · 5000 + row`; the weights' and bias rows' blocks are the whole arrays; the body's seven slabs of a stacked tile
are the stack's seven terms. With the bodies' arithmetic at an index this gives each output array, entry by entry, as
`relu(x · W_in + b_in)` and `relu(Σ_k T_k · W_cheb[k] + b_cheb) · W_out + b_out` of the whole arrays. -/

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The embedding call -/

/-- The embedding call's input windows: the row tile of `x` moves with the point, the weight and the bias row do not. -/
theorem in_index0 : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) :=
  (by decide +kernel : ∀ t : Fin grid0.N, _)

/-- Row `r` of tile `t` of `x` is row `t · 5000 + r` of `x`. -/
theorem blk0_0 (c : Dev nD) (t : Fin cfg0.N) (r : Fin 5000) (k : Fin 128) (n : Fin 50000) (hn : n.val = t.val * 5000 + r.val) :
    iblk0 V c 0 t (ix2 r k) = V c main_arg0 (ix2 n k) := by
  obtain ⟨⟨e0, e1⟩, -, -⟩ := in_index0 t
  have hemb : ((cfg0.win 0).blk t).view.emb (ix2 r k) = ix2 n k := by
    funext a; apply Fin.ext
    match a with
    | ⟨0, _⟩ => show win0_0.index t (0 : Fin 2) * 5000 + 1 * r.val = n.val; omega
    | ⟨1, _⟩ => show win0_0.index t (1 : Fin 2) * 128 + 1 * k.val = k.val; omega
  show V c main_arg0 (((cfg0.win 0).blk t).view.emb (ix2 r k)) = _
  rw [hemb]

/-- The weight's block is the whole weight, -/
theorem blk0_1 (c : Dev nD) (t : Fin cfg0.N) (k : Fin 128) (e : Fin 48) :
    iblk0 V c 1 t (ix2 k e) = V c main_arg3 (ix2 k e) := by
  obtain ⟨-, ⟨e0, e1⟩, -⟩ := in_index0 t
  have hemb : ((cfg0.win 1).blk t).view.emb (ix2 k e) = ix2 k e := by
    funext a; apply Fin.ext
    match a with
    | ⟨0, _⟩ => show win0_1.index t (0 : Fin 2) * 128 + 1 * k.val = k.val; omega
    | ⟨1, _⟩ => show win0_1.index t (1 : Fin 2) * 48 + 1 * e.val = e.val; omega
  show V c main_arg3 (((cfg0.win 1).blk t).view.emb (ix2 k e)) = _
  rw [hemb]

/-- and the bias row's block the whole row. -/
theorem blk0_2 (c : Dev nD) (t : Fin cfg0.N) (u : Fin 1) (e : Fin 48) :
    iblk0 V c 2 t (ix2 u e) = V c main_v28 (ix2 u e) := by
  obtain ⟨-, -, ⟨e0, e1⟩⟩ := in_index0 t
  have hemb : ((cfg0.win 2).blk t).view.emb (ix2 u e) = ix2 u e := by
    funext a; apply Fin.ext
    match a with
    | ⟨0, _⟩ => show win0_2.index t (0 : Fin 2) * 1 + 1 * u.val = u.val; omega
    | ⟨1, _⟩ => show win0_2.index t (1 : Fin 2) * 48 + 1 * e.val = e.val; omega
  show V c main_v28 (((cfg0.win 2).blk t).view.emb (ix2 u e)) = _
  rw [hemb]

/-- The embedding call's output at node `n`: `relu(x · W_in + b_in)` at row `n`. -/
theorem G0_apply (c : Dev nD) (n : Fin 50000) (e : Fin 48) :
    G0 (F := Ideal) V c (ix2 n e)
      = Cert.Forms.embedAt (fun n k => V c main_arg0 (ix2 n k)) (fun k e => V c main_arg3 (ix2 k e)) (fun e => V c main_v28 (ix2 0 e)) n e := by
  have hn : n.val = (pt0 n).val * 5000 + (rowIn n).val := by
    show n.val = n.val / 5000 * 5000 + n.val % 5000
    omega
  refine (G0_at V c (pt0 n) (rowIn n) e n hn).trans ?_
  refine (Cert.PayForms.embed_pay_apply (iblk0 V c 0 (pt0 n)) (iblk0 V c 1 (pt0 n)) (iblk0 V c 2 (pt0 n)) (rowIn n) e).trans ?_
  unfold Cert.Forms.embedAt
  refine congrArg (fun z => max z 0) (congrArg₂ (· + ·) (Finset.sum_congr rfl fun k _ => congrArg₂ (· * ·) ?_ ?_) ?_)
  · exact blk0_0 V c (pt0 n) (rowIn n) k n hn
  · exact blk0_1 V c (pt0 n) k e
  · exact blk0_2 V c (pt0 n) 0 e

/-! ## The combining call -/

/-- The stack's window moves with the point on the node axis only; the weight stack's does not move. -/
theorem blk1_0_index : ∀ t : Fin cfg1.N,
    win1_0.index t (0 : Fin 3) = 0 ∧ win1_0.index t (1 : Fin 3) = t.val ∧ win1_0.index t (2 : Fin 3) = 0 :=
  (by decide +kernel : ∀ t : Fin grid1.N, _)

theorem blk1_1_index : ∀ t : Fin cfg1.N,
    win1_1.index t (0 : Fin 3) = 0 ∧ win1_1.index t (1 : Fin 3) = 0 ∧ win1_1.index t (2 : Fin 3) = 0 :=
  (by decide +kernel : ∀ t : Fin grid1.N, _)

theorem blk1_2_index : ∀ t : Fin cfg1.N, win1_2.index t (0 : Fin 2) = 0 ∧ win1_2.index t (1 : Fin 2) = 0 :=
  (by decide +kernel : ∀ t : Fin grid1.N, _)

theorem blk1_3_index : ∀ t : Fin cfg1.N, win1_3.index t (0 : Fin 2) = 0 ∧ win1_3.index t (1 : Fin 2) = 0 :=
  (by decide +kernel : ∀ t : Fin grid1.N, _)

theorem blk1_4_index : ∀ t : Fin cfg1.N, win1_4.index t (0 : Fin 2) = 0 ∧ win1_4.index t (1 : Fin 2) = 0 :=
  (by decide +kernel : ∀ t : Fin grid1.N, _)

/-- Term `k`, row `r` of tile `t` is term `k`, row `t · 5000 + r` of the stack. -/
theorem blk1_0 (c : Dev nD) (t : Fin cfg1.N) (k : Fin 7) (r : Fin 5000) (e : Fin 48) (n : Fin 50000) (hn : n.val = t.val * 5000 + r.val) :
    iblk1 V c 0 t (ix3 k r e) = V c main_v130 (ix3 k n e) := by
  obtain ⟨e0, e1, e2⟩ := blk1_0_index t
  have hemb : ((cfg1.win 0).blk t).view.emb (ix3 k r e) = ix3 k n e := by
    funext a; apply Fin.ext
    match a with
    | ⟨0, _⟩ => show win1_0.index t (0 : Fin 3) * 7 + 1 * k.val = k.val; omega
    | ⟨1, _⟩ => show win1_0.index t (1 : Fin 3) * 5000 + 1 * r.val = n.val; omega
    | ⟨2, _⟩ => show win1_0.index t (2 : Fin 3) * 48 + 1 * e.val = e.val; omega
  show V c main_v130 (((cfg1.win 0).blk t).view.emb (ix3 k r e)) = _
  rw [hemb]

/-- The weight stack's block is the whole stack. -/
theorem blk1_1 (c : Dev nD) (t : Fin cfg1.N) (k : Fin 7) (e : Fin 48) (h : Fin 48) :
    iblk1 V c 1 t (ix3 k e h) = V c main_arg5 (ix3 k e h) := by
  obtain ⟨e0, e1, e2⟩ := blk1_1_index t
  have hemb : ((cfg1.win 1).blk t).view.emb (ix3 k e h) = ix3 k e h := by
    funext a; apply Fin.ext
    match a with
    | ⟨0, _⟩ => show win1_1.index t (0 : Fin 3) * 7 + 1 * k.val = k.val; omega
    | ⟨1, _⟩ => show win1_1.index t (1 : Fin 3) * 48 + 1 * e.val = e.val; omega
    | ⟨2, _⟩ => show win1_1.index t (2 : Fin 3) * 48 + 1 * h.val = h.val; omega
  show V c main_arg5 (((cfg1.win 1).blk t).view.emb (ix3 k e h)) = _
  rw [hemb]

/-- The hidden bias row's block is the whole row, -/
theorem blk1_2 (c : Dev nD) (t : Fin cfg1.N) (p : Fin 1) (q : Fin 48) :
    iblk1 V c 2 t (ix2 p q) = V c main_v131 (ix2 p q) := by
  obtain ⟨e0, e1⟩ := blk1_2_index t
  have hemb : ((cfg1.win 2).blk t).view.emb (ix2 p q) = ix2 p q := by
    funext a; apply Fin.ext
    match a with
    | ⟨0, _⟩ => show win1_2.index t (0 : Fin 2) * 1 + 1 * p.val = p.val; omega
    | ⟨1, _⟩ => show win1_2.index t (1 : Fin 2) * 48 + 1 * q.val = q.val; omega
  show V c main_v131 (((cfg1.win 2).blk t).view.emb (ix2 p q)) = _
  rw [hemb]

/-- the output weight's block the whole matrix, -/
theorem blk1_3 (c : Dev nD) (t : Fin cfg1.N) (p : Fin 48) (q : Fin 64) :
    iblk1 V c 3 t (ix2 p q) = V c main_arg7 (ix2 p q) := by
  obtain ⟨e0, e1⟩ := blk1_3_index t
  have hemb : ((cfg1.win 3).blk t).view.emb (ix2 p q) = ix2 p q := by
    funext a; apply Fin.ext
    match a with
    | ⟨0, _⟩ => show win1_3.index t (0 : Fin 2) * 48 + 1 * p.val = p.val; omega
    | ⟨1, _⟩ => show win1_3.index t (1 : Fin 2) * 64 + 1 * q.val = q.val; omega
  show V c main_arg7 (((cfg1.win 3).blk t).view.emb (ix2 p q)) = _
  rw [hemb]

/-- and the output bias row's block the whole row. -/
theorem blk1_4 (c : Dev nD) (t : Fin cfg1.N) (p : Fin 1) (q : Fin 64) :
    iblk1 V c 4 t (ix2 p q) = V c main_v132 (ix2 p q) := by
  obtain ⟨e0, e1⟩ := blk1_4_index t
  have hemb : ((cfg1.win 4).blk t).view.emb (ix2 p q) = ix2 p q := by
    funext a; apply Fin.ext
    match a with
    | ⟨0, _⟩ => show win1_4.index t (0 : Fin 2) * 1 + 1 * p.val = p.val; omega
    | ⟨1, _⟩ => show win1_4.index t (1 : Fin 2) * 64 + 1 * q.val = q.val; omega
  show V c main_v132 (((cfg1.win 4).blk t).view.emb (ix2 p q)) = _
  rw [hemb]

/-- Slab `k` of a stack of seven fits in the stack. -/
theorem slabT_inb (k : Fin 7) : ∀ a, (![k.val, 0, 0] : Fin 3 → Nat) a + S1x5000x48.size a ≤ S7x5000x48.size a := by
  intro a; have := k.isLt
  match a with
  | ⟨0, _⟩ => show k.val + 1 ≤ 7; omega
  | ⟨1, _⟩ => show 0 + 5000 ≤ 5000; omega
  | ⟨2, _⟩ => show 0 + 48 ≤ 48; omega

theorem slabC_inb (k : Fin 7) : ∀ a, (![k.val, 0, 0] : Fin 3 → Nat) a + S1x48x48.size a ≤ S7x48x48.size a := by
  intro a; have := k.isLt
  match a with
  | ⟨0, _⟩ => show k.val + 1 ≤ 7; omega
  | ⟨1, _⟩ => show 0 + 48 ≤ 48; omega
  | ⟨2, _⟩ => show 0 + 48 ≤ 48; omega

/-- Slab `k` of a `[7, 5000, 48]` tile, as a `[1, 5000, 48]` array, -/
def slabT (x : Vec Ideal S7x5000x48 .f32) (k : Fin 7) : Vec Ideal S1x5000x48 .f32 :=
  View.ld x (Rect.unit (s := S7x5000x48) ![k.val, 0, 0] S1x5000x48.size (slabT_inb k))
/-- and of the `[7, 48, 48]` weight stack, as a `[1, 48, 48]` array. -/
def slabC (x : Vec Ideal S7x48x48 .f32) (k : Fin 7) : Vec Ideal S1x48x48 .f32 :=
  View.ld x (Rect.unit (s := S7x48x48) ![k.val, 0, 0] S1x48x48.size (slabC_inb k))

/-- A slab's entry `(0, r, e)` is the stack's entry `(k, r, e)`. -/
theorem slabT_apply (x : Vec Ideal S7x5000x48 .f32) (k : Fin 7) (r : Fin 5000) (e : Fin 48) :
    slabT x k (ix3 0 r e) = x (ix3 k r e) :=
  congrArg x (funext fun a => Fin.ext (by
    match a with
    | ⟨0, _⟩ => show k.val + 1 * 0 = k.val; omega
    | ⟨1, _⟩ => show 0 + 1 * r.val = r.val; omega
    | ⟨2, _⟩ => show 0 + 1 * e.val = e.val; omega))

theorem slabC_apply (x : Vec Ideal S7x48x48 .f32) (k : Fin 7) (e : Fin 48) (h : Fin 48) :
    slabC x k (ix3 0 e h) = x (ix3 k e h) :=
  congrArg x (funext fun a => Fin.ext (by
    match a with
    | ⟨0, _⟩ => show k.val + 1 * 0 = k.val; omega
    | ⟨1, _⟩ => show 0 + 1 * e.val = e.val; omega
    | ⟨2, _⟩ => show 0 + 1 * h.val = h.val; omega))

/-- The combining call's output at node `n`: `relu(Σ_k T_k · W_cheb[k] + b_cheb) · W_out + b_out` at row `n`. -/
theorem G1_apply (c : Dev nD) (n : Fin 50000) (o : Fin 64) :
    G1 (F := Ideal) V c (ix2 n o)
      = Cert.Forms.combineAt (fun k n e => V c main_v130 (ix3 k n e)) (fun k e h => V c main_arg5 (ix3 k e h)) (fun h => V c main_v131 (ix2 0 h))
          (fun h o => V c main_arg7 (ix2 h o)) (fun o => V c main_v132 (ix2 0 o)) n o := by
  have hn : n.val = (pt1 n).val * 5000 + (rowIn n).val := by
    show n.val = n.val / 5000 * 5000 + n.val % 5000
    omega
  refine (G1_at V c (pt1 n) (rowIn n) o n hn).trans ?_
  unfold pay1
  refine (Cert.PayForms.combine_pay_apply (slabT (iblk1 V c 0 (pt1 n))) (slabC (iblk1 V c 1 (pt1 n)))
    (View.ld (iblk1 V c 2 (pt1 n)) rBc) (View.ld (iblk1 V c 3 (pt1 n)) rWo) (View.ld (iblk1 V c 4 (pt1 n)) rBo) (rowIn n) o).trans ?_
  unfold Cert.Forms.combineAt
  refine congrArg₂ (· + ·) (Finset.sum_congr rfl fun h _ => congrArg₂ (· * ·) (congrArg (fun z => max z 0)
    (congrArg₂ (· + ·) (congrArg Cert.Forms.acc7 (funext fun k => Finset.sum_congr rfl fun e _ => congrArg₂ (· * ·) ?_ ?_)) ?_)) ?_) ?_
  · exact (slabT_apply _ k (rowIn n) e).trans (blk1_0 V c (pt1 n) k (rowIn n) e n hn)
  · exact (slabC_apply _ k e h).trans (blk1_1 V c (pt1 n) k e h)
  · exact (congrFun (View.ld_unit_zero hz2 _ _) _).trans (blk1_2 V c (pt1 n) 0 h)
  · exact (congrFun (View.ld_unit_zero hz2 _ _) _).trans (blk1_3 V c (pt1 n) h o)
  · exact (congrFun (View.ld_unit_zero hz2 _ _) _).trans (blk1_4 V c (pt1 n) 0 o)

end Cert.KernelIdeal.Hand

end
-- ==== Proof.RefForms.lean ====
import proofs.«108862_j74397423501440_1_alg».proof.Proof.Gen.ReferenceIdeal.Read
import proofs.«108862_j74397423501440_1_alg».proof.Proof.Forms

noncomputable section

open scoped BigOperators

/-! # The reference program in closed form

The reference's embedding stage and its output, read one entry at a time, and its six propagation steps as whole arrays:
each later Chebyshev term is the earlier ones pushed once through the same gather, edge-weight product and scatter-add. -/

namespace Cert.RefForms

open Cert.ReferenceIdeal Cert.ReferenceIdeal.Read Idealize.ShloMosaic Idealize.ShloMosaic.ValueIdx

/-! ## The propagation steps, as whole arrays -/

/-- The product of two float arrays, entry by entry, does not depend on the order of the factors. -/
theorem mulf_comm {s : Shape} {φ : FTy} (a b : FVec Ideal s φ) : mulf a b = mulf b a := by
  funext i
  rw [mulf_apply, mulf_apply]
  exact mul_comm _ _

/-- One propagation: gather the rows of `t` at the source nodes, scale each by its edge weight, and add them up at the
destination nodes, starting from zero. -/
def prop (t : (⟨S50000x48, .f32⟩ : BufTy).Contents (Elt Ideal)) (x1 : (⟨S2x1600000, .i32⟩ : BufTy).Contents (Elt Ideal)) (x2 : (⟨S1600000, .f32⟩ : BufTy).Contents (Elt Ideal)) : (⟨S50000x48, .f32⟩ : BufTy).Contents (Elt Ideal) :=
  (Host.scatterAdd scatter_S50000x48_S1600000x1_S1600000x48_1_0_0_1 (val_main_v46 (F := Ideal)) (val_main_v47 (F := Ideal) x1)
    (mulf (Host.gather gather_S50000x48_S1600000x1_S1600000x48_1_0_n_n_0_1_148 t (val_main_v42 (F := Ideal) x1)) (val_main_v44 (F := Ideal) x1 x2)) :
    FVec Ideal S50000x48 .f32)

/-- One Chebyshev step: twice the propagation of `a`, minus `b`. -/
def step (a b : (⟨S50000x48, .f32⟩ : BufTy).Contents (Elt Ideal)) (x1 : (⟨S2x1600000, .i32⟩ : BufTy).Contents (Elt Ideal)) (x2 : (⟨S1600000, .f32⟩ : BufTy).Contents (Elt Ideal)) : (⟨S50000x48, .f32⟩ : BufTy).Contents (Elt Ideal) :=
  (subf (mulf (val_main_v66 (F := Ideal)) (prop a x1 x2)) b : FVec Ideal S50000x48 .f32)

/-- The first term is the propagation of the embedding. -/
theorem ref_T1 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v48 (F := Ideal) x0 x1 x2 x3 x4 = prop (val_main_v32 (F := Ideal) x0 x3 x4) x1 x2 := by
  unfold val_main_v48 val_main_v45 val_main_v43 prop
  rw [mulf_comm]

theorem idx_v59 (x1 : (⟨S2x1600000, .i32⟩ : BufTy).Contents (Elt Ideal)) : val_main_v59 (F := Ideal) x1 = val_main_v42 (F := Ideal) x1 := rfl
theorem wts_v61 (x1 : (⟨S2x1600000, .i32⟩ : BufTy).Contents (Elt Ideal)) (x2 : (⟨S1600000, .f32⟩ : BufTy).Contents (Elt Ideal)) : val_main_v61 (F := Ideal) x1 x2 = val_main_v44 (F := Ideal) x1 x2 := rfl
theorem zero_v63 : val_main_v63 (F := Ideal) = val_main_v46 (F := Ideal) := rfl
theorem dst_v64 (x1 : (⟨S2x1600000, .i32⟩ : BufTy).Contents (Elt Ideal)) : val_main_v64 (F := Ideal) x1 = val_main_v47 (F := Ideal) x1 := rfl

/-- Term 2 is one Chebyshev step from terms 1 and 0. -/
theorem ref_T2 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v68 (F := Ideal) x0 x1 x2 x3 x4
      = step (val_main_v48 (F := Ideal) x0 x1 x2 x3 x4) (val_main_v32 (F := Ideal) x0 x3 x4) x1 x2 := by
  unfold val_main_v68 val_main_v67 val_main_v65 val_main_v62 val_main_v60 step prop
  rw [idx_v59, wts_v61, zero_v63, dst_v64, mulf_comm (s := S1600000x48) (φ := .f32) (val_main_v44 (F := Ideal) x1 x2)]

theorem idx_v79 (x1 : (⟨S2x1600000, .i32⟩ : BufTy).Contents (Elt Ideal)) : val_main_v79 (F := Ideal) x1 = val_main_v42 (F := Ideal) x1 := rfl
theorem wts_v81 (x1 : (⟨S2x1600000, .i32⟩ : BufTy).Contents (Elt Ideal)) (x2 : (⟨S1600000, .f32⟩ : BufTy).Contents (Elt Ideal)) : val_main_v81 (F := Ideal) x1 x2 = val_main_v44 (F := Ideal) x1 x2 := rfl
theorem zero_v83 : val_main_v83 (F := Ideal) = val_main_v46 (F := Ideal) := rfl
theorem dst_v84 (x1 : (⟨S2x1600000, .i32⟩ : BufTy).Contents (Elt Ideal)) : val_main_v84 (F := Ideal) x1 = val_main_v47 (F := Ideal) x1 := rfl
theorem two_v86 : val_main_v86 (F := Ideal) = val_main_v66 (F := Ideal) := rfl

/-- Term 3 is one Chebyshev step from terms 2 and 1. -/
theorem ref_T3 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v88 (F := Ideal) x0 x1 x2 x3 x4
      = step (val_main_v68 (F := Ideal) x0 x1 x2 x3 x4) (val_main_v48 (F := Ideal) x0 x1 x2 x3 x4) x1 x2 := by
  unfold val_main_v88 val_main_v87 val_main_v85 val_main_v82 val_main_v80 step prop
  rw [idx_v79, wts_v81, zero_v83, dst_v84, two_v86, mulf_comm (s := S1600000x48) (φ := .f32) (val_main_v44 (F := Ideal) x1 x2)]

theorem idx_v99 (x1 : (⟨S2x1600000, .i32⟩ : BufTy).Contents (Elt Ideal)) : val_main_v99 (F := Ideal) x1 = val_main_v42 (F := Ideal) x1 := rfl
theorem wts_v101 (x1 : (⟨S2x1600000, .i32⟩ : BufTy).Contents (Elt Ideal)) (x2 : (⟨S1600000, .f32⟩ : BufTy).Contents (Elt Ideal)) : val_main_v101 (F := Ideal) x1 x2 = val_main_v44 (F := Ideal) x1 x2 := rfl
theorem zero_v103 : val_main_v103 (F := Ideal) = val_main_v46 (F := Ideal) := rfl
theorem dst_v104 (x1 : (⟨S2x1600000, .i32⟩ : BufTy).Contents (Elt Ideal)) : val_main_v104 (F := Ideal) x1 = val_main_v47 (F := Ideal) x1 := rfl
theorem two_v106 : val_main_v106 (F := Ideal) = val_main_v66 (F := Ideal) := rfl

/-- Term 4 is one Chebyshev step from terms 3 and 2. -/
theorem ref_T4 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v108 (F := Ideal) x0 x1 x2 x3 x4
      = step (val_main_v88 (F := Ideal) x0 x1 x2 x3 x4) (val_main_v68 (F := Ideal) x0 x1 x2 x3 x4) x1 x2 := by
  unfold val_main_v108 val_main_v107 val_main_v105 val_main_v102 val_main_v100 step prop
  rw [idx_v99, wts_v101, zero_v103, dst_v104, two_v106, mulf_comm (s := S1600000x48) (φ := .f32) (val_main_v44 (F := Ideal) x1 x2)]

theorem idx_v119 (x1 : (⟨S2x1600000, .i32⟩ : BufTy).Contents (Elt Ideal)) : val_main_v119 (F := Ideal) x1 = val_main_v42 (F := Ideal) x1 := rfl
theorem wts_v121 (x1 : (⟨S2x1600000, .i32⟩ : BufTy).Contents (Elt Ideal)) (x2 : (⟨S1600000, .f32⟩ : BufTy).Contents (Elt Ideal)) : val_main_v121 (F := Ideal) x1 x2 = val_main_v44 (F := Ideal) x1 x2 := rfl
theorem zero_v123 : val_main_v123 (F := Ideal) = val_main_v46 (F := Ideal) := rfl
theorem dst_v124 (x1 : (⟨S2x1600000, .i32⟩ : BufTy).Contents (Elt Ideal)) : val_main_v124 (F := Ideal) x1 = val_main_v47 (F := Ideal) x1 := rfl
theorem two_v126 : val_main_v126 (F := Ideal) = val_main_v66 (F := Ideal) := rfl

/-- Term 5 is one Chebyshev step from terms 4 and 3. -/
theorem ref_T5 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v128 (F := Ideal) x0 x1 x2 x3 x4
      = step (val_main_v108 (F := Ideal) x0 x1 x2 x3 x4) (val_main_v88 (F := Ideal) x0 x1 x2 x3 x4) x1 x2 := by
  unfold val_main_v128 val_main_v127 val_main_v125 val_main_v122 val_main_v120 step prop
  rw [idx_v119, wts_v121, zero_v123, dst_v124, two_v126, mulf_comm (s := S1600000x48) (φ := .f32) (val_main_v44 (F := Ideal) x1 x2)]

theorem idx_v139 (x1 : (⟨S2x1600000, .i32⟩ : BufTy).Contents (Elt Ideal)) : val_main_v139 (F := Ideal) x1 = val_main_v42 (F := Ideal) x1 := rfl
theorem wts_v141 (x1 : (⟨S2x1600000, .i32⟩ : BufTy).Contents (Elt Ideal)) (x2 : (⟨S1600000, .f32⟩ : BufTy).Contents (Elt Ideal)) : val_main_v141 (F := Ideal) x1 x2 = val_main_v44 (F := Ideal) x1 x2 := rfl
theorem zero_v143 : val_main_v143 (F := Ideal) = val_main_v46 (F := Ideal) := rfl
theorem dst_v144 (x1 : (⟨S2x1600000, .i32⟩ : BufTy).Contents (Elt Ideal)) : val_main_v144 (F := Ideal) x1 = val_main_v47 (F := Ideal) x1 := rfl
theorem two_v146 : val_main_v146 (F := Ideal) = val_main_v66 (F := Ideal) := rfl

/-- Term 6 is one Chebyshev step from terms 5 and 4. -/
theorem ref_T6 (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    val_main_v148 (F := Ideal) x0 x1 x2 x3 x4
      = step (val_main_v128 (F := Ideal) x0 x1 x2 x3 x4) (val_main_v108 (F := Ideal) x0 x1 x2 x3 x4) x1 x2 := by
  unfold val_main_v148 val_main_v147 val_main_v145 val_main_v142 val_main_v140 step prop
  rw [idx_v139, wts_v141, zero_v143, dst_v144, two_v146, mulf_comm (s := S1600000x48) (φ := .f32) (val_main_v44 (F := Ideal) x1 x2)]

/-! ## The embedding, one entry at a time -/

/-- The float zero constant is the extended real `0`. -/
theorem zero_f32 : FloatOps.ofBits (F := Ideal) .f32 0x00000000#32 = (0 : EReal) := by
  rw [Ideal.ofBits_def, Ideal.ofBits_zero_f32]

/-- Entry `(n, e)` of the reference's embedding is `relu(x · W_in + b_in)` there. -/
theorem ref_xf_apply (x0 : (⟨S50000x128, .f32⟩ : BufTy).Contents (Elt Ideal)) (x3 : (⟨S128x48, .f32⟩ : BufTy).Contents (Elt Ideal)) (x4 : (⟨S48, .f32⟩ : BufTy).Contents (Elt Ideal)) (n : Fin 50000) (e : Fin 48) :
    val_main_v32 (F := Ideal) x0 x3 x4 (ix2 n e)
      = Cert.Forms.embedAt (fun n k => x0 (ix2 n k)) (fun k e => x3 (ix2 k e)) (fun e => x4 (ix1 e)) n e := by
  rw [val_main_v32_apply, val_main_v31_apply, val_main_v28_apply, val_main_v30_apply, val_main_v29_apply,
    val_main_call1_v0_apply, val_main_call1_cst_apply, zero_f32, Ideal.maximumf_def, Ideal.addf_def]
  unfold Cert.Forms.embedAt
  have hb : idx_main_v29 (idx_main_v30 (ix2 n e)) = ix1 e := funext fun a => match a with | ⟨0, _⟩ => rfl
  have hs : ∀ k : Fin 128, x0 (lidx_main_v28 (ix2 n e) k) * x3 (ridx_main_v28 (ix2 n e) k) = x0 (ix2 n k) * x3 (ix2 k e) := by
    intro k
    have hl : lidx_main_v28 (ix2 n e) k = ix2 n k := funext fun a => match a with | ⟨0, _⟩ => rfl | ⟨1, _⟩ => rfl
    have hr : ridx_main_v28 (ix2 n e) k = ix2 k e := funext fun a => match a with | ⟨0, _⟩ => rfl | ⟨1, _⟩ => rfl
    rw [hl, hr]
  rw [hb, Finset.sum_congr rfl fun k _ => hs k]

/-! ## The output, one entry at a time -/

/-- The seven Chebyshev terms of the reference, by number. -/
def Tref (k : Fin 7) (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) : (⟨S50000x48, .f32⟩ : BufTy).Contents (Elt Ideal) :=
  match k with
  | ⟨0, _⟩ => val_main_v32 (F := Ideal) x0 x3 x4
  | ⟨1, _⟩ => val_main_v48 (F := Ideal) x0 x1 x2 x3 x4
  | ⟨2, _⟩ => val_main_v68 (F := Ideal) x0 x1 x2 x3 x4
  | ⟨3, _⟩ => val_main_v88 (F := Ideal) x0 x1 x2 x3 x4
  | ⟨4, _⟩ => val_main_v108 (F := Ideal) x0 x1 x2 x3 x4
  | ⟨5, _⟩ => val_main_v128 (F := Ideal) x0 x1 x2 x3 x4
  | ⟨6, _⟩ => val_main_v148 (F := Ideal) x0 x1 x2 x3 x4

/-- Slice 0 of the Chebyshev weights, reshaped to a matrix, read at `(e, h)`. -/
theorem w0_apply (x5 : (⟨S7x48x48, .f32⟩ : BufTy).Contents (Elt Ideal)) (e h : Fin 48) :
    val_main_v34 (F := Ideal) x5 (ix2 e h) = x5 (ix3 0 e h) := by
  rw [val_main_v34_apply, val_main_v33_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 0 against its weight slice: entry `(n, h)` is the row of the term against the column of the slice. -/
theorem d0_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v35 (F := Ideal) x0 x3 x4 x5 (ix2 n h)
      = ∑ e : Fin 48, Tref 0 x0 x1 x2 x3 x4 (ix2 n e) * x5 (ix3 0 e h) := by
  rw [val_main_v35_apply]
  refine Finset.sum_congr rfl fun e _ => ?_
  have hl : lidx_main_v35 (ix2 n h) e = ix2 n e := funext fun a => match a with | ⟨0, _⟩ => rfl | ⟨1, _⟩ => rfl
  have hr : ridx_main_v35 (ix2 n h) e = ix2 e h := funext fun a => match a with | ⟨0, _⟩ => rfl | ⟨1, _⟩ => rfl
  rw [hl, hr, w0_apply]
  rfl

/-- Slice 1 of the Chebyshev weights, reshaped to a matrix, read at `(e, h)`. -/
theorem w1_apply (x5 : (⟨S7x48x48, .f32⟩ : BufTy).Contents (Elt Ideal)) (e h : Fin 48) :
    val_main_v50 (F := Ideal) x5 (ix2 e h) = x5 (ix3 1 e h) := by
  rw [val_main_v50_apply, val_main_v49_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 1 against its weight slice: entry `(n, h)` is the row of the term against the column of the slice. -/
theorem d1_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v51 (F := Ideal) x0 x1 x2 x3 x4 x5 (ix2 n h)
      = ∑ e : Fin 48, Tref 1 x0 x1 x2 x3 x4 (ix2 n e) * x5 (ix3 1 e h) := by
  rw [val_main_v51_apply]
  refine Finset.sum_congr rfl fun e _ => ?_
  have hl : lidx_main_v51 (ix2 n h) e = ix2 n e := funext fun a => match a with | ⟨0, _⟩ => rfl | ⟨1, _⟩ => rfl
  have hr : ridx_main_v51 (ix2 n h) e = ix2 e h := funext fun a => match a with | ⟨0, _⟩ => rfl | ⟨1, _⟩ => rfl
  rw [hl, hr, w1_apply]
  rfl

/-- Slice 2 of the Chebyshev weights, reshaped to a matrix, read at `(e, h)`. -/
theorem w2_apply (x5 : (⟨S7x48x48, .f32⟩ : BufTy).Contents (Elt Ideal)) (e h : Fin 48) :
    val_main_v70 (F := Ideal) x5 (ix2 e h) = x5 (ix3 2 e h) := by
  rw [val_main_v70_apply, val_main_v69_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 2 against its weight slice: entry `(n, h)` is the row of the term against the column of the slice. -/
theorem d2_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v71 (F := Ideal) x0 x1 x2 x3 x4 x5 (ix2 n h)
      = ∑ e : Fin 48, Tref 2 x0 x1 x2 x3 x4 (ix2 n e) * x5 (ix3 2 e h) := by
  rw [val_main_v71_apply]
  refine Finset.sum_congr rfl fun e _ => ?_
  have hl : lidx_main_v71 (ix2 n h) e = ix2 n e := funext fun a => match a with | ⟨0, _⟩ => rfl | ⟨1, _⟩ => rfl
  have hr : ridx_main_v71 (ix2 n h) e = ix2 e h := funext fun a => match a with | ⟨0, _⟩ => rfl | ⟨1, _⟩ => rfl
  rw [hl, hr, w2_apply]
  rfl

/-- Slice 3 of the Chebyshev weights, reshaped to a matrix, read at `(e, h)`. -/
theorem w3_apply (x5 : (⟨S7x48x48, .f32⟩ : BufTy).Contents (Elt Ideal)) (e h : Fin 48) :
    val_main_v90 (F := Ideal) x5 (ix2 e h) = x5 (ix3 3 e h) := by
  rw [val_main_v90_apply, val_main_v89_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 3 against its weight slice: entry `(n, h)` is the row of the term against the column of the slice. -/
theorem d3_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v91 (F := Ideal) x0 x1 x2 x3 x4 x5 (ix2 n h)
      = ∑ e : Fin 48, Tref 3 x0 x1 x2 x3 x4 (ix2 n e) * x5 (ix3 3 e h) := by
  rw [val_main_v91_apply]
  refine Finset.sum_congr rfl fun e _ => ?_
  have hl : lidx_main_v91 (ix2 n h) e = ix2 n e := funext fun a => match a with | ⟨0, _⟩ => rfl | ⟨1, _⟩ => rfl
  have hr : ridx_main_v91 (ix2 n h) e = ix2 e h := funext fun a => match a with | ⟨0, _⟩ => rfl | ⟨1, _⟩ => rfl
  rw [hl, hr, w3_apply]
  rfl

/-- Slice 4 of the Chebyshev weights, reshaped to a matrix, read at `(e, h)`. -/
theorem w4_apply (x5 : (⟨S7x48x48, .f32⟩ : BufTy).Contents (Elt Ideal)) (e h : Fin 48) :
    val_main_v110 (F := Ideal) x5 (ix2 e h) = x5 (ix3 4 e h) := by
  rw [val_main_v110_apply, val_main_v109_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 4 against its weight slice: entry `(n, h)` is the row of the term against the column of the slice. -/
theorem d4_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v111 (F := Ideal) x0 x1 x2 x3 x4 x5 (ix2 n h)
      = ∑ e : Fin 48, Tref 4 x0 x1 x2 x3 x4 (ix2 n e) * x5 (ix3 4 e h) := by
  rw [val_main_v111_apply]
  refine Finset.sum_congr rfl fun e _ => ?_
  have hl : lidx_main_v111 (ix2 n h) e = ix2 n e := funext fun a => match a with | ⟨0, _⟩ => rfl | ⟨1, _⟩ => rfl
  have hr : ridx_main_v111 (ix2 n h) e = ix2 e h := funext fun a => match a with | ⟨0, _⟩ => rfl | ⟨1, _⟩ => rfl
  rw [hl, hr, w4_apply]
  rfl

/-- Slice 5 of the Chebyshev weights, reshaped to a matrix, read at `(e, h)`. -/
theorem w5_apply (x5 : (⟨S7x48x48, .f32⟩ : BufTy).Contents (Elt Ideal)) (e h : Fin 48) :
    val_main_v130 (F := Ideal) x5 (ix2 e h) = x5 (ix3 5 e h) := by
  rw [val_main_v130_apply, val_main_v129_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 5 against its weight slice: entry `(n, h)` is the row of the term against the column of the slice. -/
theorem d5_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v131 (F := Ideal) x0 x1 x2 x3 x4 x5 (ix2 n h)
      = ∑ e : Fin 48, Tref 5 x0 x1 x2 x3 x4 (ix2 n e) * x5 (ix3 5 e h) := by
  rw [val_main_v131_apply]
  refine Finset.sum_congr rfl fun e _ => ?_
  have hl : lidx_main_v131 (ix2 n h) e = ix2 n e := funext fun a => match a with | ⟨0, _⟩ => rfl | ⟨1, _⟩ => rfl
  have hr : ridx_main_v131 (ix2 n h) e = ix2 e h := funext fun a => match a with | ⟨0, _⟩ => rfl | ⟨1, _⟩ => rfl
  rw [hl, hr, w5_apply]
  rfl

/-- Slice 6 of the Chebyshev weights, reshaped to a matrix, read at `(e, h)`. -/
theorem w6_apply (x5 : (⟨S7x48x48, .f32⟩ : BufTy).Contents (Elt Ideal)) (e h : Fin 48) :
    val_main_v150 (F := Ideal) x5 (ix2 e h) = x5 (ix3 6 e h) := by
  rw [val_main_v150_apply, val_main_v149_apply]
  refine congrArg x5 (funext fun a => ?_)
  have he : e.val < 48 := e.isLt
  have hh : h.val < 48 := h.isLt
  match a with
  | ⟨0, _⟩ => exact Fin.ext rfl
  | ⟨1, _⟩ => exact Fin.ext (by show (e.val * 48 + h.val) / 48 % 48 = e.val; omega)
  | ⟨2, _⟩ => exact Fin.ext (by show (e.val * 48 + h.val) % 48 = h.val; omega)

/-- Term 6 against its weight slice: entry `(n, h)` is the row of the term against the column of the slice. -/
theorem d6_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v151 (F := Ideal) x0 x1 x2 x3 x4 x5 (ix2 n h)
      = ∑ e : Fin 48, Tref 6 x0 x1 x2 x3 x4 (ix2 n e) * x5 (ix3 6 e h) := by
  rw [val_main_v151_apply]
  refine Finset.sum_congr rfl fun e _ => ?_
  have hl : lidx_main_v151 (ix2 n h) e = ix2 n e := funext fun a => match a with | ⟨0, _⟩ => rfl | ⟨1, _⟩ => rfl
  have hr : ridx_main_v151 (ix2 n h) e = ix2 e h := funext fun a => match a with | ⟨0, _⟩ => rfl | ⟨1, _⟩ => rfl
  rw [hl, hr, w6_apply]
  rfl

/-- The seven products added from the left, entry `(n, h)`. -/
theorem acc_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (n : Fin 50000) (h : Fin 48) :
    val_main_v152 (F := Ideal) x0 x1 x2 x3 x4 x5 (ix2 n h)
      = Cert.Forms.acc7 (fun k => ∑ e : Fin 48, Tref k x0 x1 x2 x3 x4 (ix2 n e) * x5 (ix3 k e h)) := by
  rw [val_main_v152_apply, val_main_v132_apply, val_main_v112_apply, val_main_v92_apply, val_main_v72_apply,
    val_main_v52_apply, d0_apply x0 x1 x2 x3 x4 x5, d1_apply, d2_apply, d3_apply, d4_apply, d5_apply, d6_apply]
  simp only [Ideal.addf_def]
  rfl

/-- The hidden layer after the bias and the clamp at zero, entry `(n, h)`. -/
theorem hid_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (x6 : (⟨S48, .f32⟩ : BufTy).Contents (Elt Ideal)) (n : Fin 50000) (h : Fin 48) :
    val_main_v156 (F := Ideal) x0 x1 x2 x3 x4 x5 x6 (ix2 n h)
      = max (Cert.Forms.acc7 (fun k => ∑ e : Fin 48, Tref k x0 x1 x2 x3 x4 (ix2 n e) * x5 (ix3 k e h)) + x6 (ix1 h)) 0 := by
  rw [val_main_v156_apply, val_main_v155_apply, acc_apply, val_main_v154_apply, val_main_v153_apply,
    val_main_call2_v0_apply, val_main_call2_cst_apply, zero_f32, Ideal.maximumf_def, Ideal.addf_def]
  have hb : idx_main_v153 (idx_main_v154 (ix2 n h)) = ix1 h := funext fun a => match a with | ⟨0, _⟩ => rfl
  rw [hb]

/-- Entry `(n, o)` of the reference's output is `relu(Σ_k T_k · W_cheb[k] + b_cheb) · W_out + b_out` there. -/
theorem ref_out_apply (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) (x5 : (⟨S7x48x48, .f32⟩ : BufTy).Contents (Elt Ideal)) (x6 : (⟨S48, .f32⟩ : BufTy).Contents (Elt Ideal)) (x7 : (⟨S48x64, .f32⟩ : BufTy).Contents (Elt Ideal)) (x8 : (⟨S64, .f32⟩ : BufTy).Contents (Elt Ideal)) (n : Fin 50000) (o : Fin 64) :
    val_main_v160 (F := Ideal) x0 x1 x2 x3 x4 x5 x6 x7 x8 (ix2 n o)
      = Cert.Forms.combineAt (fun k n e => Tref k x0 x1 x2 x3 x4 (ix2 n e)) (fun k e h => x5 (ix3 k e h)) (fun h => x6 (ix1 h))
          (fun h o => x7 (ix2 h o)) (fun o => x8 (ix1 o)) n o := by
  rw [val_main_v160_apply, val_main_v157_apply, val_main_v159_apply, val_main_v158_apply, Ideal.addf_def]
  unfold Cert.Forms.combineAt
  have hb : idx_main_v158 (idx_main_v159 (ix2 n o)) = ix1 o := funext fun a => match a with | ⟨0, _⟩ => rfl
  have hs : ∀ h : Fin 48, val_main_v156 (F := Ideal) x0 x1 x2 x3 x4 x5 x6 (lidx_main_v157 (ix2 n o) h) * x7 (ridx_main_v157 (ix2 n o) h)
      = max (Cert.Forms.acc7 (fun k => ∑ e : Fin 48, Tref k x0 x1 x2 x3 x4 (ix2 n e) * x5 (ix3 k e h)) + x6 (ix1 h)) 0 * x7 (ix2 h o) := by
    intro h
    have hl : lidx_main_v157 (ix2 n o) h = ix2 n h := funext fun a => match a with | ⟨0, _⟩ => rfl | ⟨1, _⟩ => rfl
    have hr : ridx_main_v157 (ix2 n o) h = ix2 h o := funext fun a => match a with | ⟨0, _⟩ => rfl | ⟨1, _⟩ => rfl
    rw [hl, hr, hid_apply]
  rw [hb, Finset.sum_congr rfl fun h _ => hs h]

end Cert.RefForms

end
-- ==== Proof.ChainRefI.lean ====
import proofs.«108862_j74397423501440_1_alg».proof.Proof.ChainI
import proofs.«108862_j74397423501440_1_alg».proof.Proof.RefForms

noncomputable section

/-! # The kernel's Chebyshev chain, fed the reference's edge data, is the reference's

The kernel spells one propagation with the gathered rows first inside the product, over its own copies of the shape and
dimension records; fed the reference's first term, edge-index vectors and normalised weights it is the same array as the
reference's propagation, and so are the six terms built from it. -/

namespace Cert.ChainRef

open Cert.ReferenceIdeal Cert.ReferenceIdeal.Read Idealize.ShloMosaic Idealize.ShloMosaic.ValueIdx

/-- One propagation, the kernel's spelling against the reference's. -/
theorem propG_ref (t : (⟨S50000x48, .f32⟩ : BufTy).Contents (Elt Ideal)) (x1 : (⟨S2x1600000, .i32⟩ : BufTy).Contents (Elt Ideal)) (x2 : (⟨S1600000, .f32⟩ : BufTy).Contents (Elt Ideal)) :
    Cert.KernelIdeal.Hand.propG (F := Ideal) t (val_main_v1 (F := Ideal) x1) (val_main_v3 (F := Ideal) x1) (val_main_v27 (F := Ideal) x1 x2) = Cert.RefForms.prop t x1 x2 := rfl

/-- One Chebyshev step, the kernel's spelling against the reference's. -/
theorem stepG_ref (a b : (⟨S50000x48, .f32⟩ : BufTy).Contents (Elt Ideal)) (x1 : (⟨S2x1600000, .i32⟩ : BufTy).Contents (Elt Ideal)) (x2 : (⟨S1600000, .f32⟩ : BufTy).Contents (Elt Ideal)) :
    Cert.KernelIdeal.Hand.stepG (F := Ideal) a b (val_main_v1 (F := Ideal) x1) (val_main_v3 (F := Ideal) x1) (val_main_v27 (F := Ideal) x1 x2) = Cert.RefForms.step a b x1 x2 := by
  unfold Cert.KernelIdeal.Hand.stepG Cert.RefForms.step
  rw [propG_ref]
  rfl

theorem T1_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T1 (F := Ideal) (val_main_v32 (F := Ideal) x0 x3 x4) (val_main_v1 (F := Ideal) x1) (val_main_v3 (F := Ideal) x1) (val_main_v27 (F := Ideal) x1 x2) = val_main_v48 (F := Ideal) x0 x1 x2 x3 x4 := by
  unfold Cert.KernelIdeal.Hand.T1
  rw [propG_ref]
  exact (Cert.RefForms.ref_T1 x0 x1 x2 x3 x4).symm

theorem T2_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T2 (F := Ideal) (val_main_v32 (F := Ideal) x0 x3 x4) (val_main_v1 (F := Ideal) x1) (val_main_v3 (F := Ideal) x1) (val_main_v27 (F := Ideal) x1 x2) = val_main_v68 (F := Ideal) x0 x1 x2 x3 x4 := by
  unfold Cert.KernelIdeal.Hand.T2
  rw [T1_ref, stepG_ref]
  exact (Cert.RefForms.ref_T2 x0 x1 x2 x3 x4).symm

theorem T3_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T3 (F := Ideal) (val_main_v32 (F := Ideal) x0 x3 x4) (val_main_v1 (F := Ideal) x1) (val_main_v3 (F := Ideal) x1) (val_main_v27 (F := Ideal) x1 x2) = val_main_v88 (F := Ideal) x0 x1 x2 x3 x4 := by
  unfold Cert.KernelIdeal.Hand.T3
  rw [T2_ref, T1_ref, stepG_ref]
  exact (Cert.RefForms.ref_T3 x0 x1 x2 x3 x4).symm

theorem T4_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T4 (F := Ideal) (val_main_v32 (F := Ideal) x0 x3 x4) (val_main_v1 (F := Ideal) x1) (val_main_v3 (F := Ideal) x1) (val_main_v27 (F := Ideal) x1 x2) = val_main_v108 (F := Ideal) x0 x1 x2 x3 x4 := by
  unfold Cert.KernelIdeal.Hand.T4
  rw [T3_ref, T2_ref, stepG_ref]
  exact (Cert.RefForms.ref_T4 x0 x1 x2 x3 x4).symm

theorem T5_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T5 (F := Ideal) (val_main_v32 (F := Ideal) x0 x3 x4) (val_main_v1 (F := Ideal) x1) (val_main_v3 (F := Ideal) x1) (val_main_v27 (F := Ideal) x1 x2) = val_main_v128 (F := Ideal) x0 x1 x2 x3 x4 := by
  unfold Cert.KernelIdeal.Hand.T5
  rw [T4_ref, T3_ref, stepG_ref]
  exact (Cert.RefForms.ref_T5 x0 x1 x2 x3 x4).symm

theorem T6_ref (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) :
    Cert.KernelIdeal.Hand.T6 (F := Ideal) (val_main_v32 (F := Ideal) x0 x3 x4) (val_main_v1 (F := Ideal) x1) (val_main_v3 (F := Ideal) x1) (val_main_v27 (F := Ideal) x1 x2) = val_main_v148 (F := Ideal) x0 x1 x2 x3 x4 := by
  unfold Cert.KernelIdeal.Hand.T6
  rw [T5_ref, T4_ref, stepG_ref]
  exact (Cert.RefForms.ref_T6 x0 x1 x2 x3 x4).symm

/-- The kernel's seven terms from the reference's first term and edge data, by number. -/
def Tker (k : Fin 7) (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) : (⟨S50000x48, .f32⟩ : BufTy).Contents (Elt Ideal) :=
  match k with
  | ⟨0, _⟩ => val_main_v32 (F := Ideal) x0 x3 x4
  | ⟨1, _⟩ => Cert.KernelIdeal.Hand.T1 (F := Ideal) (val_main_v32 (F := Ideal) x0 x3 x4) (val_main_v1 (F := Ideal) x1) (val_main_v3 (F := Ideal) x1) (val_main_v27 (F := Ideal) x1 x2)
  | ⟨2, _⟩ => Cert.KernelIdeal.Hand.T2 (F := Ideal) (val_main_v32 (F := Ideal) x0 x3 x4) (val_main_v1 (F := Ideal) x1) (val_main_v3 (F := Ideal) x1) (val_main_v27 (F := Ideal) x1 x2)
  | ⟨3, _⟩ => Cert.KernelIdeal.Hand.T3 (F := Ideal) (val_main_v32 (F := Ideal) x0 x3 x4) (val_main_v1 (F := Ideal) x1) (val_main_v3 (F := Ideal) x1) (val_main_v27 (F := Ideal) x1 x2)
  | ⟨4, _⟩ => Cert.KernelIdeal.Hand.T4 (F := Ideal) (val_main_v32 (F := Ideal) x0 x3 x4) (val_main_v1 (F := Ideal) x1) (val_main_v3 (F := Ideal) x1) (val_main_v27 (F := Ideal) x1 x2)
  | ⟨5, _⟩ => Cert.KernelIdeal.Hand.T5 (F := Ideal) (val_main_v32 (F := Ideal) x0 x3 x4) (val_main_v1 (F := Ideal) x1) (val_main_v3 (F := Ideal) x1) (val_main_v27 (F := Ideal) x1 x2)
  | ⟨6, _⟩ => Cert.KernelIdeal.Hand.T6 (F := Ideal) (val_main_v32 (F := Ideal) x0 x3 x4) (val_main_v1 (F := Ideal) x1) (val_main_v3 (F := Ideal) x1) (val_main_v27 (F := Ideal) x1 x2)

/-- Term by term they are the reference's. -/
theorem T_ref (k : Fin 7) (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x48, .f32⟩ : BufTy).Contents (Elt Ideal)) (x4 : (⟨S48, .f32⟩ : BufTy).Contents (Elt Ideal)) : Tker k x0 x1 x2 x3 x4 = Cert.RefForms.Tref k x0 x1 x2 x3 x4 := by
  match k with
  | ⟨0, _⟩ => rfl
  | ⟨1, _⟩ => exact T1_ref x0 x1 x2 x3 x4
  | ⟨2, _⟩ => exact T2_ref x0 x1 x2 x3 x4
  | ⟨3, _⟩ => exact T3_ref x0 x1 x2 x3 x4
  | ⟨4, _⟩ => exact T4_ref x0 x1 x2 x3 x4
  | ⟨5, _⟩ => exact T5_ref x0 x1 x2 x3 x4
  | ⟨6, _⟩ => exact T6_ref x0 x1 x2 x3 x4

end Cert.ChainRef

end
-- ==== Proof.EntryValsI.lean ====
import proofs.«108862_j74397423501440_1_alg».proof.Proof.RunI
import proofs.«108862_j74397423501440_1_alg».proof.Proof.Gen.ReferenceIdeal.Read
import proofs.«108862_j74397423501440_1_alg».proof.Proof.ChainI

set_option maxRecDepth 65536
set_option maxHeartbeats 4000000

noncomputable section

/-! # The embedding call's entry, read back

The three stretches of host operations before the embedding call leave the two edge-index vectors, the normalised edge
weights and the reshaped input bias at the reference's own stages of the launch arguments. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable (m : (ℓ : Loc nD τ sig) → Buf (Elt Ideal) ℓ) (ρ : Dev nD → PrngReg) (c : Dev nD)

/-- The source-node indices: row 0 of the edge index. -/
theorem W3_src : W3 m ρ c (Proc.devRef .tc main_v1) = Cert.ReferenceIdeal.Read.val_main_v1 (F := Ideal) (m ((c : Thread nD τ).loc main_arg1)) := by
  show after hostOps0_2 (after hostOps0_1 (after hostOps0 (W0 m ρ c))) (Proc.devRef .tc main_v1) = _
  after_results_simp <;> rfl

/-- The target-node indices: row 1 of the edge index. -/
theorem W3_dst : W3 m ρ c (Proc.devRef .tc main_v3) = Cert.ReferenceIdeal.Read.val_main_v3 (F := Ideal) (m ((c : Thread nD τ).loc main_arg1)) := by
  show after hostOps0_2 (after hostOps0_1 (after hostOps0 (W0 m ρ c))) (Proc.devRef .tc main_v3) = _
  after_results_simp <;> rfl

/-- The reshaped input bias row. -/
theorem W3_bin : W3 m ρ c (Proc.devRef .tc main_v28) = (fun i => shapeCast S1x48 (m ((c : Thread nD τ).loc main_arg4)) shapeCasts_S48_S1x48 i) := by
  show after hostOps0_2 (after hostOps0_1 (after hostOps0 (W0 m ρ c))) (Proc.devRef .tc main_v28) = _
  after_results_simp <;> rfl

/-! ## The normalised edge weights, stretch by stretch -/

/-- After the first stretch: the comparison of the degree vector with zero. -/
theorem W1_pos : W1 m ρ c (Proc.devRef .tc main_v8) = Cert.ReferenceIdeal.Read.val_main_v8 (F := Ideal) (m ((c : Thread nD τ).loc main_arg1)) (m ((c : Thread nD τ).loc main_arg2)) := by
  show after hostOps0 (W0 m ρ c) (Proc.devRef .tc main_v8) = _
  after_results_simp <;> rfl

/-- After the first stretch: the reciprocal square root of the degree vector. -/
theorem W1_rsq : W1 m ρ c (Proc.devRef .tc main_v9) = Cert.ReferenceIdeal.Read.val_main_v9 (F := Ideal) (m ((c : Thread nD τ).loc main_arg1)) (m ((c : Thread nD τ).loc main_arg2)) := by
  show after hostOps0 (W0 m ρ c) (Proc.devRef .tc main_v9) = _
  after_results_simp <;> rfl

/-- After the first stretch: the zero the select falls back to. -/
theorem W1_zero : W1 m ρ c (Proc.devRef .tc main_cst_1) = Cert.ReferenceIdeal.Read.val_main_cst_1 (F := Ideal) := by
  show after hostOps0 (W0 m ρ c) (Proc.devRef .tc main_cst_1) = _
  after_results_simp <;> rfl

/-- The select, from any contents: the reciprocal root where the degree is positive, zero elsewhere. -/
theorem after01_where (A : Valuation τ sig (Elt Ideal)) :
    after (hostOps0_1 (F := Ideal)) A (Proc.devRef .tc main_v10)
      = select (A (Proc.devRef .tc main_v8)) (A (Proc.devRef .tc main_v9)) (broadcastInDim S50000 ![] bcast_S_S50000 (A (Proc.devRef .tc main_cst_1))) := by
  after_results_simp <;> rfl

/-- After the select: the masked reciprocal root. -/
theorem W2_where : W2 m ρ c (Proc.devRef .tc main_v10) = Cert.ReferenceIdeal.Read.val_main_v10 (F := Ideal) (m ((c : Thread nD τ).loc main_arg1)) (m ((c : Thread nD τ).loc main_arg2)) := by
  refine (after01_where (W1 m ρ c)).trans ?_
  rw [W1_pos, W1_rsq, W1_zero]
  rfl

theorem W2_src : W2 m ρ c (Proc.devRef .tc main_v1) = Cert.ReferenceIdeal.Read.val_main_v1 (F := Ideal) (m ((c : Thread nD τ).loc main_arg1)) := by
  show after hostOps0_1 (after hostOps0 (W0 m ρ c)) (Proc.devRef .tc main_v1) = _
  after_results_simp <;> rfl

theorem W2_dst : W2 m ρ c (Proc.devRef .tc main_v3) = Cert.ReferenceIdeal.Read.val_main_v3 (F := Ideal) (m ((c : Thread nD τ).loc main_arg1)) := by
  show after hostOps0_1 (after hostOps0 (W0 m ρ c)) (Proc.devRef .tc main_v3) = _
  after_results_simp <;> rfl

theorem W2_wts : W2 m ρ c (Proc.devRef .tc main_arg2) = (m ((c : Thread nD τ).loc main_arg2)) := by
  show after hostOps0_1 (after hostOps0 (W0 m ρ c)) (Proc.devRef .tc main_arg2) = _
  after_results_simp <;> rfl

/-- The edge normalisation, from any contents: minus the masked root at the source, times the edge weight, times the
    masked root at the target. -/
theorem after02_nrm (A : Valuation τ sig (Elt Ideal)) :
    after (hostOps0_2 (F := Ideal)) A (Proc.devRef .tc main_v27)
      = (mulf (mulf (Host.negf (Host.gather gather_S50000_S1600000x1_S1600000_n_0_n_n_0_1_1 (A (Proc.devRef .tc main_v10)) (idxCol (F := Ideal) (A (Proc.devRef .tc main_v1)))))
            (A (Proc.devRef .tc main_arg2)))
          (Host.gather gather_S50000_S1600000x1_S1600000_n_0_n_n_0_1_1 (A (Proc.devRef .tc main_v10)) (idxCol (F := Ideal) (A (Proc.devRef .tc main_v3)))) :
          FVec Ideal S1600000 .f32) := by
  after_results_simp <;> rfl

/-- The normalised edge weights. -/
theorem W3_nrm : W3 m ρ c (Proc.devRef .tc main_v27) = Cert.ReferenceIdeal.Read.val_main_v27 (F := Ideal) (m ((c : Thread nD τ).loc main_arg1)) (m ((c : Thread nD τ).loc main_arg2)) := by
  refine (after02_nrm (W2 m ρ c)).trans ?_
  rw [W2_where, W2_src, W2_dst, W2_wts]
  rfl

end Cert.KernelIdeal.Hand

end
-- ==== Proof.XfI.lean ====
import proofs.«108862_j74397423501440_1_alg».proof.Proof.FrameI
import proofs.«108862_j74397423501440_1_alg».proof.Proof.TileFormsI
import proofs.«108862_j74397423501440_1_alg».proof.Proof.RefForms
import proofs.«108862_j74397423501440_1_alg».proof.Proof.EntryValsI
import Idealize.ShloMosaic.Lib.ValueLayout

set_option maxRecDepth 16384

noncomputable section

open scoped BigOperators

/-! # The embedding call's output is the reference's embedding

The call's output array, folded from its ten tiles, is `relu(x · W_in + b_in)` of the arrays the call finds; those are the
launch arguments, the bias through its reshape to a row; and the reference's embedding stage is the same closed form. -/

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-- After the embedding call its output array is the reference's embedding of the launch arguments: both are
`relu(x · W_in + b_in)` entry by entry, the bias read through its reshape to a row. -/
theorem xf_entry (m : (ℓ : Loc nD τ sig) → Buf (Elt Ideal) ℓ) (ρ : Dev nD → PrngReg) (c : Dev nD) :
    W4 m ρ c (Proc.devRef .tc main_v29)
      = Cert.ReferenceIdeal.Read.val_main_v32 (F := Ideal) (m ((c : Thread nD τ).loc main_arg0)) (m ((c : Thread nD τ).loc main_arg3)) (m ((c : Thread nD τ).loc main_arg4)) := by
  refine (W4_arr m ρ c 3).trans ?_
  refine (final0 (V3 m ρ) c).trans ?_
  funext i
  obtain ⟨n, e, rfl⟩ : ∃ (n : Fin 50000) (e : Fin 48), i = ix2 n e := ⟨i 0, i 1, eq_ix2 i⟩
  refine (G0_apply (V3 m ρ) c n e).trans ?_
  refine Eq.trans ?_ (Cert.RefForms.ref_xf_apply _ _ _ n e).symm
  unfold Cert.Forms.embedAt
  refine congrArg (fun z => max z 0) (congrArg₂ (· + ·) (Finset.sum_congr rfl fun k _ => congrArg₂ (· * ·) ?_ ?_) ?_)
  · exact congrFun (W3_arg0 m ρ c) (ix2 n k)
  · exact congrFun (W3_arg3 m ρ c) (ix2 k e)
  · exact (congrFun (W3_bin m ρ c) (ix2 0 e)).trans (shapeCast_a_1a_apply _ shapeCasts_S48_S1x48 0 e)

end Cert.KernelIdeal.Hand

end
-- ==== Proof.ResultsI.lean ====
import proofs.«108862_j74397423501440_1_alg».proof.Proof.FrameI
import proofs.«108862_j74397423501440_1_alg».proof.Proof.StackI
import proofs.«108862_j74397423501440_1_alg».proof.Proof.StackReadI
import proofs.«108862_j74397423501440_1_alg».proof.Proof.TileFormsI
import proofs.«108862_j74397423501440_1_alg».proof.Proof.ChainRefI
import proofs.«108862_j74397423501440_1_alg».proof.Proof.EntryValsI
import proofs.«108862_j74397423501440_1_alg».proof.Proof.XfI
import proofs.«108862_j74397423501440_1_alg».proof.Proof.RefForms
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
open Cert.ReferenceIdeal.Read Cert.RefForms Cert.ChainRef

/-! # The two results of the kernel's program, as the reference's stages of the arguments

At the ideal instance the program's last buffer contents, read at the two result buffers, are the reference's own
stage functions of the launch contents of the nine arguments: the embedding result because both are
`relu(x · W_in + b_in)` entry by entry; the Chebyshev terms because both programs propagate and recur with the same
operations (a product's factors swapped); the final result because both are
`relu(Σ_k T_k · W_cheb[k] + b_cheb) · W_out + b_out` entry by entry, the seven products added in the same order. -/

variable (m : (ℓ : Loc nD τ sig) → Buf (Elt Ideal) ℓ) (ρ : Dev nD → PrngReg) (c : Dev nD)

/-- The edge sources, the edge targets and the normalised weights pass the embedding call untouched. -/
theorem W4_src : W4 m ρ c (Proc.devRef .tc main_v1) = val_main_v1 (F := Ideal) (m ((c : Thread nD τ).loc main_arg1)) :=
  (W4_of_ne m ρ c main_v1 (by decide)).trans (W3_src m ρ c)
theorem W4_dst : W4 m ρ c (Proc.devRef .tc main_v3) = val_main_v3 (F := Ideal) (m ((c : Thread nD τ).loc main_arg1)) :=
  (W4_of_ne m ρ c main_v3 (by decide)).trans (W3_dst m ρ c)
theorem W4_nrm : W4 m ρ c (Proc.devRef .tc main_v27) = val_main_v27 (F := Ideal) (m ((c : Thread nD τ).loc main_arg1)) (m ((c : Thread nD τ).loc main_arg2)) :=
  (W4_of_ne m ρ c main_v27 (by decide)).trans (W3_nrm m ρ c)

/-- The embedding result is not touched after its call. -/
theorem xf_final : W6 m ρ c (Proc.devRef .tc main_v29) = val_main_v32 (F := Ideal) (m ((c : Thread nD τ).loc main_arg0)) (m ((c : Thread nD τ).loc main_arg3)) (m ((c : Thread nD τ).loc main_arg4)) :=
  (W6_of_ne m ρ c main_v29 (by decide)).trans ((after1_xf (W4 m ρ c)).trans (xf_entry m ρ c))

/-- The stack the combining call reads is the stack of the seven terms as functions of the arguments. -/
theorem V5_stack : W5 m ρ c (Proc.devRef .tc main_v130)
    = stackG (F := Ideal) (Tker 0 (m ((c : Thread nD τ).loc main_arg0)) (m ((c : Thread nD τ).loc main_arg1)) (m ((c : Thread nD τ).loc main_arg2)) (m ((c : Thread nD τ).loc main_arg3)) (m ((c : Thread nD τ).loc main_arg4)))
        (Tker 1 (m ((c : Thread nD τ).loc main_arg0)) (m ((c : Thread nD τ).loc main_arg1)) (m ((c : Thread nD τ).loc main_arg2)) (m ((c : Thread nD τ).loc main_arg3)) (m ((c : Thread nD τ).loc main_arg4)))
        (Tker 2 (m ((c : Thread nD τ).loc main_arg0)) (m ((c : Thread nD τ).loc main_arg1)) (m ((c : Thread nD τ).loc main_arg2)) (m ((c : Thread nD τ).loc main_arg3)) (m ((c : Thread nD τ).loc main_arg4)))
        (Tker 3 (m ((c : Thread nD τ).loc main_arg0)) (m ((c : Thread nD τ).loc main_arg1)) (m ((c : Thread nD τ).loc main_arg2)) (m ((c : Thread nD τ).loc main_arg3)) (m ((c : Thread nD τ).loc main_arg4)))
        (Tker 4 (m ((c : Thread nD τ).loc main_arg0)) (m ((c : Thread nD τ).loc main_arg1)) (m ((c : Thread nD τ).loc main_arg2)) (m ((c : Thread nD τ).loc main_arg3)) (m ((c : Thread nD τ).loc main_arg4)))
        (Tker 5 (m ((c : Thread nD τ).loc main_arg0)) (m ((c : Thread nD τ).loc main_arg1)) (m ((c : Thread nD τ).loc main_arg2)) (m ((c : Thread nD τ).loc main_arg3)) (m ((c : Thread nD τ).loc main_arg4)))
        (Tker 6 (m ((c : Thread nD τ).loc main_arg0)) (m ((c : Thread nD τ).loc main_arg1)) (m ((c : Thread nD τ).loc main_arg2)) (m ((c : Thread nD τ).loc main_arg3)) (m ((c : Thread nD τ).loc main_arg4))) := by
  show after hostOps1 (W4 m ρ c) (Proc.devRef .tc main_v130) = _
  rw [after1_stack, xf_entry, W4_src, W4_dst, W4_nrm]
  rfl

/-- Entry `(k, n, e)` of the stack is entry `(n, e)` of the reference's term `k`. -/
theorem V5_stack_apply (k : Fin 7) (n : Fin 50000) (e : Fin 48) :
    W5 m ρ c (Proc.devRef .tc main_v130) (ix3 k n e) = Tref k (m ((c : Thread nD τ).loc main_arg0)) (m ((c : Thread nD τ).loc main_arg1)) (m ((c : Thread nD τ).loc main_arg2)) (m ((c : Thread nD τ).loc main_arg3)) (m ((c : Thread nD τ).loc main_arg4)) (ix2 n e) := by
  rw [V5_stack]
  exact (stack_apply (F := Ideal) (fun k => Tker k (m ((c : Thread nD τ).loc main_arg0)) (m ((c : Thread nD τ).loc main_arg1)) (m ((c : Thread nD τ).loc main_arg2)) (m ((c : Thread nD τ).loc main_arg3)) (m ((c : Thread nD τ).loc main_arg4))) k n e).trans
    (congrFun (T_ref k (m ((c : Thread nD τ).loc main_arg0)) (m ((c : Thread nD τ).loc main_arg1)) (m ((c : Thread nD τ).loc main_arg2)) (m ((c : Thread nD τ).loc main_arg3)) (m ((c : Thread nD τ).loc main_arg4))) (ix2 n e))

/-- The two bias rows the combining call reads are the bias vectors with a unit axis in front. -/
theorem V5_bc (h : Fin 48) : W5 m ρ c (Proc.devRef .tc main_v131) (ix2 (0 : Fin 1) h) = (m ((c : Thread nD τ).loc main_arg6)) (ix1 h) := by
  show after hostOps1 (W4 m ρ c) (Proc.devRef .tc main_v131) (ix2 (0 : Fin 1) h) = _
  rw [after1_bc, W4_arg6]
  exact shapeCast_a_1a_apply _ _ 0 h
theorem V5_bo (o : Fin 64) : W5 m ρ c (Proc.devRef .tc main_v132) (ix2 (0 : Fin 1) o) = (m ((c : Thread nD τ).loc main_arg8)) (ix1 o) := by
  show after hostOps1 (W4 m ρ c) (Proc.devRef .tc main_v132) (ix2 (0 : Fin 1) o) = _
  rw [after1_bo, W4_arg8]
  exact shapeCast_a_1a_apply _ _ 0 o

/-- The final result. -/
theorem out_final : W6 m ρ c (Proc.devRef .tc main_v133) = val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ((final1 (V5 m ρ) c).trans (funext fun i => ?_))
  obtain ⟨n, o, rfl⟩ : ∃ (n : Fin 50000) (o : Fin 64), i = ix2 n o := ⟨i 0, i 1, eq_ix2 i⟩
  rw [G1_apply, ref_out_apply]
  have e1 : (fun (k : Fin 7) (n : Fin 50000) (e : Fin 48) => V5 m ρ c main_v130 (ix3 k n e))
      = fun k n e => Tref k (m ((c : Thread nD τ).loc main_arg0)) (m ((c : Thread nD τ).loc main_arg1)) (m ((c : Thread nD τ).loc main_arg2)) (m ((c : Thread nD τ).loc main_arg3)) (m ((c : Thread nD τ).loc main_arg4)) (ix2 n e) :=
    funext fun k => funext fun n => funext fun e => V5_stack_apply m ρ c k n e
  have e2 : (fun (k : Fin 7) (e : Fin 48) (h : Fin 48) => V5 m ρ c main_arg5 (ix3 k e h)) = fun k e h => (m ((c : Thread nD τ).loc main_arg5)) (ix3 k e h) :=
    funext fun k => funext fun e => funext fun h => congrFun (W5_arg5 m ρ c) (ix3 k e h)
  have e3 : (fun (h : Fin 48) => V5 m ρ c main_v131 (ix2 (0 : Fin 1) h)) = fun h => (m ((c : Thread nD τ).loc main_arg6)) (ix1 h) :=
    funext fun h => V5_bc m ρ c h
  have e4 : (fun (h : Fin 48) (o : Fin 64) => V5 m ρ c main_arg7 (ix2 h o)) = fun h o => (m ((c : Thread nD τ).loc main_arg7)) (ix2 h o) :=
    funext fun h => funext fun o => congrFun (W5_arg7 m ρ c) (ix2 h o)
  have e5 : (fun (o : Fin 64) => V5 m ρ c main_v132 (ix2 (0 : Fin 1) o)) = fun o => (m ((c : Thread nD τ).loc main_arg8)) (ix1 o) :=
    funext fun o => V5_bo m ρ c o
  rw [e1, e2, e3, e4, e5]

end Cert.KernelIdeal.Hand

end
-- ==== Proof.lean ====
/-
  The certificate of the Chebyshev graph-convolution kernel against its jnp reference.

  Both programs compute, from node features `x`, an edge list with weights and five weight arrays,
    xf = relu(x · W_in + b_in)   and   y = relu(Σ_{k<7} T_k · W_cheb[k] + b_cheb) · W_out + b_out,
  where T_0 = xf, T_1 = L̂ T_0, T_k = 2 L̂ T_{k-1} − T_{k-2}, and L̂ t is the propagation "gather the rows of t at the
  edges' sources, scale each by its edge's symmetric-normalised weight, scatter-add at the edges' targets". The kernel's
  program does the two dense parts in two tiled calls (ten row tiles of 5000 nodes) and everything else on the host; the
  reference does it all on the host.

  The three frames: the reference's is its run with the results dropped; the kernel's programs' are the run of @main as six
  segments — three stretches of host operations, the embedding call, the long stretch that builds the seven terms, the
  combining call — each call's body run symbolically on its tiles, with the buffer contents at every boundary folded from
  the launch memory; an argument's buffer is written by no operation and by no call. The idealization rewrote nothing, so
  `preserves` is trivial. For `algebraic`, at the ideal instance (floats extended reals, operations exact) the kernel's
  two result buffers end at the reference's own stage functions of the arguments: the tiles' write-backs cover each output
  array, a tile's entry is the body's arithmetic of its blocks, a matrix product into a zero accumulator is the plain sum
  over the contracted axis, the host chains of the two programs are the same operations up to the order of one product's
  factors, and the seven products are added from the left in both. No law used needs the inputs finite.
-/
import proofs.«108862_j74397423501440_1_alg».proof.Defs
import proofs.«108862_j74397423501440_1_alg».proof.Proof.Gen.Kernel
import proofs.«108862_j74397423501440_1_alg».proof.Proof.Gen.KernelIdeal
import proofs.«108862_j74397423501440_1_alg».proof.Proof.Gen.ReferenceIdeal
import proofs.«108862_j74397423501440_1_alg».proof.Proof.Gen.Pre_finite_inputs
import proofs.«108862_j74397423501440_1_alg».proof.Proof.Gen.ReferenceIdeal.Read
import proofs.«108862_j74397423501440_1_alg».proof.Proof.FrameK
import proofs.«108862_j74397423501440_1_alg».proof.Proof.ResultsI
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the reference's stage functions of the kernel program's arguments in their result
    buffers: the kernel's by `out_final` / `xf_final` read off its run, the reference's by its generated run, its own
    arguments rewritten to the kernel's by their agreement. -/
theorem algebraic : Cert.algebraic_KernelIdeal_ReferenceIdeal := by
  intro m ρ m' ρ' _ hagree
  refine ⟨fun c => Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Hand.mem_uc Cert.KernelIdeal.main_v133 (by decide))).trans (Cert.KernelIdeal.Hand.out_final m ρ c),
       (h c _ (Cert.KernelIdeal.Hand.mem_uc Cert.KernelIdeal.main_v29 (by decide))).trans (Cert.KernelIdeal.Hand.xf_final m ρ c),
       (h c _ (Cert.KernelIdeal.Hand.mem_uc Cert.KernelIdeal.main_arg0 (by decide))).trans (Cert.KernelIdeal.Hand.W6_arg0 m ρ c),
       (h c _ (Cert.KernelIdeal.Hand.mem_uc Cert.KernelIdeal.main_arg1 (by decide))).trans (Cert.KernelIdeal.Hand.W6_arg1 m ρ c),
       (h c _ (Cert.KernelIdeal.Hand.mem_uc Cert.KernelIdeal.main_arg2 (by decide))).trans (Cert.KernelIdeal.Hand.W6_arg2 m ρ c),
       (h c _ (Cert.KernelIdeal.Hand.mem_uc Cert.KernelIdeal.main_arg3 (by decide))).trans (Cert.KernelIdeal.Hand.W6_arg3 m ρ c),
       (h c _ (Cert.KernelIdeal.Hand.mem_uc Cert.KernelIdeal.main_arg4 (by decide))).trans (Cert.KernelIdeal.Hand.W6_arg4 m ρ c),
       (h c _ (Cert.KernelIdeal.Hand.mem_uc Cert.KernelIdeal.main_arg5 (by decide))).trans (Cert.KernelIdeal.Hand.W6_arg5 m ρ c),
       (h c _ (Cert.KernelIdeal.Hand.mem_uc Cert.KernelIdeal.main_arg6 (by decide))).trans (Cert.KernelIdeal.Hand.W6_arg6 m ρ c),
       (h c _ (Cert.KernelIdeal.Hand.mem_uc Cert.KernelIdeal.main_arg7 (by decide))).trans (Cert.KernelIdeal.Hand.W6_arg7 m ρ c),
       (h c _ (Cert.KernelIdeal.Hand.mem_uc Cert.KernelIdeal.main_arg8 (by decide))).trans (Cert.KernelIdeal.Hand.W6_arg8 m ρ c)⟩)
      (Cert.KernelIdeal.Hand.run_all (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v160_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1, (hagree c).2.2.2.2.2.2.2.2]
    · rw [(h c).2.1, Cert.ReferenceIdeal.Read.val_main_v32_eq, (hagree c).1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
